-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128x2 .f32) (main_arg19 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x2 .f32 := Host.absf main_arg18
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128x128 .f32) (main_arg14 : FVec F S128 .f32) (main_arg15 : FVec F S128x128 .f32) (main_arg16 : FVec F S128 .f32) (main_arg17 : FVec F S128 .f32) (main_arg18 : FVec F S128x2 .f32) (main_arg19 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_v63 main_v67

def fn_part2 {F : FTy → Type} [FloatOps F] (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128x2 .f32) (main_arg19 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128x2 .f32) (main_arg19 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S1250000 32) (main_arg2 : IVec S1250000 32) (main_arg3 : FVec F S64x128 .f32) (main_arg4 : FVec F S128 .f32) (main_arg5 : FVec F S64x128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128x2 .f32) (main_arg19 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1250000x128 : Shape := ⟨2, ![1250000, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 144
  | .vmem => 53
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S64x128, .f32⟩
  | 4 => ⟨S128, .f32⟩
  | 5 => ⟨S64x128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128x2, .f32⟩
  | 19 => ⟨S2, .f32⟩
  | 20 => ⟨S_, .f32⟩
  | 21 => ⟨S1250000, .f32⟩
  | 22 => ⟨S_, .f32⟩
  | 23 => ⟨S100000, .f32⟩
  | 24 => ⟨S1250000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000x64, .f32⟩
  | 41 => ⟨S_, .f32⟩
  | 42 => ⟨S100000x64, .f32⟩
  | 43 => ⟨S1250000x1, .i32⟩
  | 44 => ⟨S100000x64, .f32⟩
  | 45 => ⟨S100000x1, .f32⟩
  | 46 => ⟨S100000x64, .f32⟩
  | 47 => ⟨S100000x64, .f32⟩
  | 48 => ⟨S1x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S100000x128, .f32⟩
  | 69 => ⟨S_, .i32⟩
  | 70 => ⟨S1250000, .i32⟩
  | 71 => ⟨S1250000, .i1⟩
  | 72 => ⟨S_, .i32⟩
  | 73 => ⟨S1250000, .i32⟩
  | 74 => ⟨S1250000, .i32⟩
  | 75 => ⟨S1250000, .i32⟩
  | 76 => ⟨S1250000x1, .i32⟩
  | 77 => ⟨S1250000x128, .f32⟩
  | 78 => ⟨S_, .f32⟩
  | 79 => ⟨S100000x128, .f32⟩
  | 80 => ⟨S1250000x1, .i32⟩
  | 81 => ⟨S100000x128, .f32⟩
  | 82 => ⟨S100000x1, .f32⟩
  | 83 => ⟨S100000x128, .f32⟩
  | 84 => ⟨S100000x128, .f32⟩
  | 85 => ⟨S1x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S1x128, .f32⟩
  | 103 => ⟨S1x128, .f32⟩
  | 104 => ⟨S1x128, .f32⟩
  | 105 => ⟨S100000x128, .f32⟩
  | 106 => ⟨S_, .i32⟩
  | 107 => ⟨S1250000, .i32⟩
  | 108 => ⟨S1250000, .i1⟩
  | 109 => ⟨S_, .i32⟩
  | 110 => ⟨S1250000, .i32⟩
  | 111 => ⟨S1250000, .i32⟩
  | 112 => ⟨S1250000, .i32⟩
  | 113 => ⟨S1250000x1, .i32⟩
  | 114 => ⟨S1250000x128, .f32⟩
  | 115 => ⟨S_, .f32⟩
  | 116 => ⟨S100000x128, .f32⟩
  | 117 => ⟨S1250000x1, .i32⟩
  | 118 => ⟨S100000x128, .f32⟩
  | 119 => ⟨S100000x1, .f32⟩
  | 120 => ⟨S100000x128, .f32⟩
  | 121 => ⟨S100000x128, .f32⟩
  | 122 => ⟨S1x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x64, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S1x128, .f32⟩
  | 12 => ⟨S1x128, .f32⟩
  | 13 => ⟨S1x128, .f32⟩
  | 14 => ⟨S1x2, .f32⟩
  | 15 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S128x2, .f32⟩
  | .local _ .vmem, ⟨50, _⟩ => ⟨S1x2, .f32⟩
  | .local _ .vmem, ⟨51, _⟩ => ⟨S5000x2, .f32⟩
  | .local _ .vmem, ⟨52, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_5 : Ref sig .tc := ⟨.hbm, 50, rfl⟩
abbrev main_v23 : Ref sig .tc := ⟨.hbm, 51, rfl⟩
abbrev main_cst_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_cst_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_12 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_14 : Ref sig .tc := ⟨.hbm, 96, rfl⟩
abbrev main_v60 : Ref sig .tc := ⟨.hbm, 97, rfl⟩
abbrev main_cst_15 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_c_17 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_19 : Ref sig .tc := ⟨.hbm, 124, rfl⟩
abbrev main_v83 : Ref sig .tc := ⟨.hbm, 125, rfl⟩
abbrev main_cst_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_21 : Ref sig .tc := ⟨.hbm, 133, rfl⟩
abbrev main_v90 : Ref sig .tc := ⟨.hbm, 134, rfl⟩
abbrev main_cst_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg7_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem7_1 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x2 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x128_S5000x128_1_0_0_1_n_n_wf : DotDims.WF S5000x64 S64x128 S5000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x2.size a ≤ S128x2.size a
  hwx5_5 : ∀ i : grid5.Coords, EltTy.bits .f32 = 32 ∨ (Rect.block (s := S128x2) S128x2.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x2.size a ≤ S1x2.size a
  hwx5_6 : ∀ i : grid5.Coords, EltTy.bits .f32 = 32 ∨ (Rect.block (s := S1x2) S1x2.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x2.size a ≤ S100000x2.size a
  hwx5_7 : ∀ i : grid5.Coords, EltTy.bits .f32 = 32 ∨ (Rect.block (s := S100000x2) S5000x2.size (cc5_transform_7 i) (hinb5_7 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v82) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S128x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v97) S1x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v98) S5000x2.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x128 : Shape := ⟨2, ![64, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S100000x128 : Shape := ⟨2, ![100000, 128]⟩
abbrev S1x128 : Shape := ⟨2, ![1, 128]⟩
abbrev S1250000x128 : Shape := ⟨2, ![1250000, 128]⟩
abbrev S100000x2 : Shape := ⟨2, ![100000, 2]⟩
abbrev S1x2 : Shape := ⟨2, ![1, 2]⟩

abbrev nBuf : Space → Nat
  | .hbm => 216
  | .vmem => 0
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S64x128, .f32⟩
  | 4 => ⟨S128, .f32⟩
  | 5 => ⟨S64x128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128x2, .f32⟩
  | 19 => ⟨S2, .f32⟩
  | 20 => ⟨S_, .f32⟩
  | 21 => ⟨S1250000, .f32⟩
  | 22 => ⟨S_, .f32⟩
  | 23 => ⟨S100000, .f32⟩
  | 24 => ⟨S1250000x1, .i32⟩
  | 25 => ⟨S100000, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000x64, .f32⟩
  | 35 => ⟨S_, .f32⟩
  | 36 => ⟨S100000x64, .f32⟩
  | 37 => ⟨S1250000x1, .i32⟩
  | 38 => ⟨S100000x64, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .f32⟩
  | 85 => ⟨S1250000, .f32⟩
  | 86 => ⟨S_, .f32⟩
  | 87 => ⟨S100000, .f32⟩
  | 88 => ⟨S1250000x1, .i32⟩
  | 89 => ⟨S100000, .f32⟩
  | 90 => ⟨S_, .i32⟩
  | 91 => ⟨S1250000, .i32⟩
  | 92 => ⟨S1250000, .i1⟩
  | 93 => ⟨S_, .i32⟩
  | 94 => ⟨S1250000, .i32⟩
  | 95 => ⟨S1250000, .i32⟩
  | 96 => ⟨S1250000, .i32⟩
  | 97 => ⟨S1250000x1, .i32⟩
  | 98 => ⟨S1250000x128, .f32⟩
  | 99 => ⟨S_, .f32⟩
  | 100 => ⟨S100000x128, .f32⟩
  | 101 => ⟨S1250000x1, .i32⟩
  | 102 => ⟨S100000x128, .f32⟩
  | 103 => ⟨S_, .f32⟩
  | 104 => ⟨S100000, .f32⟩
  | 105 => ⟨S100000, .f32⟩
  | 106 => ⟨S100000x1, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S100000x128, .f32⟩
  | 114 => ⟨S100000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x64, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S1250000, .f32⟩
  | 22 => ⟨S_, .f32⟩
  | 23 => ⟨S100000, .f32⟩
  | 24 => ⟨S1250000x1, .i32⟩
  | 25 => ⟨S100000, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000x128, .f32⟩
  | 35 => ⟨S_, .f32⟩
  | 36 => ⟨S100000x128, .f32⟩
  | 37 => ⟨S1250000x1, .i32⟩
  | 38 => ⟨S100000x128, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x2, .f32⟩
  | 85 => ⟨S1x2, .f32⟩
  | 86 => ⟨S100000x2, .f32⟩
  | 87 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call0_cst : Ref sig .tc := ⟨.hbm, 81, rfl⟩
abbrev main_call0_v0 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_c_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_15 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_cst_18 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call1_cst : Ref sig .tc := ⟨.hbm, 145, rfl⟩
abbrev main_call1_v0 : Ref sig .tc := ⟨.hbm, 146, rfl⟩
abbrev main_v101 : Ref sig .tc := ⟨.hbm, 147, rfl⟩
abbrev main_cst_20 : Ref sig .tc := ⟨.hbm, 148, rfl⟩
abbrev main_v102 : Ref sig .tc := ⟨.hbm, 149, rfl⟩
abbrev main_cst_21 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_22 : Ref sig .tc := ⟨.hbm, 154, rfl⟩
abbrev main_v106 : Ref sig .tc := ⟨.hbm, 155, rfl⟩
abbrev main_v107 : Ref sig .tc := ⟨.hbm, 156, rfl⟩
abbrev main_c_23 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_24 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_25 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_26 : Ref sig .tc := ⟨.hbm, 179, rfl⟩
abbrev main_v127 : Ref sig .tc := ⟨.hbm, 180, rfl⟩
abbrev main_cst_27 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_28 : Ref sig .tc := ⟨.hbm, 188, rfl⟩
abbrev main_v134 : Ref sig .tc := ⟨.hbm, 189, rfl⟩
abbrev main_cst_29 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_30 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_call2_cst : Ref sig .tc := ⟨.hbm, 209, rfl⟩
abbrev main_call2_v0 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x128_S100000x128_1_0_0_1_n_n_wf : DotDims.WF S100000x64 S64x128 S100000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The idealized kernel's run with its result named.

  @main is six kernel regions among stretches of host operations.  The buffer contents at every boundary are a fold from
  the launch memory: a stretch applies its operations, a region leaves in each of its output arrays what its grid points
  wrote back.  Every weakly fair execution terminates with every unscoped buffer at the last boundary's contents; read at
  the result buffer and at the twenty arguments this is the run below.
-/
import proofs.«165646_j23587960390209_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v98) = W12 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v98 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KernelIdeal.Gen

end
-- ==== Proof.Spec.lean ====
/-
  A three-layer mean-aggregation graph network with batch normalisation, as functions of whole arrays.

  One layer takes node features X (R rows), sums the features of every node's in-neighbours, divides the sum by the
  in-degree clamped below at one, and forms  H = X·Ws + Nb·Wn + b.  Every column of H is then normalised by its mean and
  variance over the R rows, scaled by gamma, shifted by beta, and clamped at zero.  The last layer is followed by a
  projection  A·Wc + bc.

  This module states the three dense pieces index by index over the extended reals — `combine`, `bnrelu`, `project` — with
  every per-column quantity given as a 1×N row, and the one algebraic law the two spellings of the neighbour mean need:
  multiplying by the reciprocal of a nonzero degree is dividing by it.
-/
import Idealize.ShloMosaic.PureOps.Ideal
import Idealize.ShloMosaic.Lib.ValueIdx

noncomputable section

open scoped BigOperators

namespace Cert.Sage

open Idealize.ShloMosaic Idealize.ShloMosaic.ValueIdx

variable {R K N : Nat}

/-- The dense combine step at entry (r, c):  (∑ₖ X(r,k)·Ws(k,c) + ∑ₖ Nb(r,k)·Wn(k,c)) + b(0,c). -/
def combine (X Nb : (⟨2, ![R, K]⟩ : Shape).Idx → EReal) (Ws Wn : (⟨2, ![K, N]⟩ : Shape).Idx → EReal)
    (b : (⟨2, ![1, N]⟩ : Shape).Idx → EReal) : (⟨2, ![R, N]⟩ : Shape).Idx → EReal :=
  fun i => ((∑ k : Fin K, X (ix2 (i 0) k) * Ws (ix2 k (i 1))) + ∑ k : Fin K, Nb (ix2 (i 0) k) * Wn (ix2 k (i 1)))
    + b (ix2 0 (i 1))

/-- The variance offset of the normalisation, the f32 nearest 1e-5. -/
abbrev eps : EReal := Ideal.ofBits .f32 0x3727C5AC#32

/-- Normalise, scale, shift, clamp at zero, at entry (r, c):
    max(((H(r,c) − mu(c)) · rsqrt(var(c) + eps)) · g(c) + be(c), 0). -/
def bnrelu (H : (⟨2, ![R, N]⟩ : Shape).Idx → EReal) (mu var g be : (⟨2, ![1, N]⟩ : Shape).Idx → EReal) :
    (⟨2, ![R, N]⟩ : Shape).Idx → EReal :=
  fun i => max ((((H i - mu (ix2 0 (i 1))) * Ideal.rsqrt (var (ix2 0 (i 1)) + eps)) * g (ix2 0 (i 1)))
    + be (ix2 0 (i 1))) (Ideal.ofBits .f32 0x00000000#32)

/-- The projection at entry (r, c):  ∑ₖ A(r,k)·Wc(k,c) + bc(0,c). -/
def project (A : (⟨2, ![R, K]⟩ : Shape).Idx → EReal) (Wc : (⟨2, ![K, N]⟩ : Shape).Idx → EReal)
    (bc : (⟨2, ![1, N]⟩ : Shape).Idx → EReal) : (⟨2, ![R, N]⟩ : Shape).Idx → EReal :=
  fun i => (∑ k : Fin K, A (ix2 (i 0) k) * Wc (ix2 k (i 1))) + bc (ix2 0 (i 1))

/-- `combine` at (p, q) reads only row p of the two row-indexed operands: if row p of X' is row r of X and likewise
    for the neighbour means, the entries agree.  (A row block of the output is the combine of the row blocks.) -/
theorem combine_row {R' : Nat} (X' Nb' : (⟨2, ![R', K]⟩ : Shape).Idx → EReal)
    (X Nb : (⟨2, ![R, K]⟩ : Shape).Idx → EReal) (Ws Wn : (⟨2, ![K, N]⟩ : Shape).Idx → EReal)
    (b : (⟨2, ![1, N]⟩ : Shape).Idx → EReal) (p : Fin R') (r : Fin R) (q : Fin N)
    (hX : ∀ k : Fin K, X' (ix2 p k) = X (ix2 r k)) (hN : ∀ k : Fin K, Nb' (ix2 p k) = Nb (ix2 r k)) :
    combine X' Nb' Ws Wn b (ix2 p q) = combine X Nb Ws Wn b (ix2 r q) := by
  show ((∑ k : Fin K, X' (ix2 p k) * Ws (ix2 k q)) + ∑ k : Fin K, Nb' (ix2 p k) * Wn (ix2 k q)) + b (ix2 0 q)
    = ((∑ k : Fin K, X (ix2 r k) * Ws (ix2 k q)) + ∑ k : Fin K, Nb (ix2 r k) * Wn (ix2 k q)) + b (ix2 0 q)
  simp only [hX, hN]

/-- `bnrelu` at (p, q) reads H only at (p, q). -/
theorem bnrelu_row {R' : Nat} (H' : (⟨2, ![R', N]⟩ : Shape).Idx → EReal) (H : (⟨2, ![R, N]⟩ : Shape).Idx → EReal)
    (mu var g be : (⟨2, ![1, N]⟩ : Shape).Idx → EReal) (p : Fin R') (r : Fin R) (q : Fin N)
    (hH : H' (ix2 p q) = H (ix2 r q)) :
    bnrelu H' mu var g be (ix2 p q) = bnrelu H mu var g be (ix2 r q) := by
  show max ((((H' (ix2 p q) - mu (ix2 0 q)) * Ideal.rsqrt (var (ix2 0 q) + eps)) * g (ix2 0 q)) + be (ix2 0 q)) _
    = max ((((H (ix2 r q) - mu (ix2 0 q)) * Ideal.rsqrt (var (ix2 0 q) + eps)) * g (ix2 0 q)) + be (ix2 0 q)) _
  rw [hH]

/-- `project` at (p, q) reads only row p of A. -/
theorem project_row {R' : Nat} (A' : (⟨2, ![R', K]⟩ : Shape).Idx → EReal) (A : (⟨2, ![R, K]⟩ : Shape).Idx → EReal)
    (Wc : (⟨2, ![K, N]⟩ : Shape).Idx → EReal) (bc : (⟨2, ![1, N]⟩ : Shape).Idx → EReal) (p : Fin R') (r : Fin R)
    (q : Fin N) (hA : ∀ k : Fin K, A' (ix2 p k) = A (ix2 r k)) :
    project A' Wc bc (ix2 p q) = project A Wc bc (ix2 r q) := by
  show (∑ k : Fin K, A' (ix2 p k) * Wc (ix2 k q)) + bc (ix2 0 q) = (∑ k : Fin K, A (ix2 r k) * Wc (ix2 k q)) + bc (ix2 0 q)
  simp only [hA]

/-- Multiplying by the reciprocal of a nonzero number is dividing by it, on every extended real (both are a · d⁻¹). -/
theorem mul_div_one (a d : EReal) (hd : d ≠ 0) : a * Ideal.div 1 d = Ideal.div a d := by
  unfold Ideal.div
  rw [if_neg hd, if_neg hd, one_mul]

/-- A degree clamped below at one is not zero. -/
theorem max_one_ne_zero (x : EReal) : max x 1 ≠ 0 := by
  have h : (1 : EReal) ≤ max x 1 := le_max_right _ _
  intro h0
  rw [h0] at h
  exact absurd h (by norm_num)

end Cert.Sage

end
-- ==== Proof.KernelNet.lean ====
/-
  The host stages of the idealized kernel's @main, as functions of their operands (everything at the extended reals).

  Between its six kernel regions the program computes, with host operations: the in-degree of every node (ones scattered
  by the edges' targets), clamped below at one, and its reciprocal; for a feature array, the sum over every node's
  in-edges of the source node's features (a row gather by the normalised source index followed by a scatter-add by the
  target), times the reciprocal degree — the neighbour mean; and for a hidden array its column means and column variances
  over the 100000 rows.  A length-128 vector enters a region as a 1×128 row.  The three dense pieces are the
  specification's `combine`, `bnrelu`, `project`.
-/
import proofs.«165646_j23587960390209_1_alg».proof.KernelIdeal
import proofs.«165646_j23587960390209_1_alg».proof.Proof.Gen.KernelIdeal
import proofs.«165646_j23587960390209_1_alg».proof.Proof.Spec
import Idealize.ShloMosaic.PureOps.Ideal

noncomputable section

namespace Cert.KernelIdeal.Net

open Cert.KernelIdeal Cert.KernelIdeal.Gen Idealize.ShloMosaic Idealize.ShloMosaic.ValueIdx

/-- The in-degree: a one scattered into a zero vector for every edge, by the edge's target. -/
def deg (dst : IVec S1250000 32) : FVec Ideal S100000 .f32 :=
  Host.scatterAdd scatter_S100000_S1250000x1_S1250000_n_0_0_1
    (broadcastInDim S100000 ![] bcast_S_S100000 (constant (F := Ideal) S_ .f32 0x00000000#32))
    (broadcastInDim S1250000x1 ![0] bcast_S1250000_S1250000x1_0 dst)
    (broadcastInDim S1250000 ![] bcast_S_S1250000 (constant (F := Ideal) S_ .f32 0x3F800000#32))

/-- The in-degree clamped below at one. -/
def dmax (dst : IVec S1250000 32) : FVec Ideal S100000 .f32 :=
  maximumf (deg dst) (broadcastInDim S100000 ![] bcast_S_S100000 (constant (F := Ideal) S_ .f32 0x3F800000#32))

/-- Its reciprocal, one divided by it. -/
def dinv (dst : IVec S1250000 32) : FVec Ideal S100000 .f32 :=
  Host.divf (broadcastInDim S100000 ![] bcast_S_S100000 (constant (F := Ideal) S_ .f32 0x3F800000#32)) (dmax dst)

/-- The source indices with a negative index counted from the end. -/
def srcn (src : IVec S1250000 32) : IVec S1250000 32 :=
  select (cmpi .slt src (broadcastInDim S1250000 ![] bcast_S_S1250000 (constantI S_ 32 0#32)))
    (addi src (broadcastInDim S1250000 ![] bcast_S_S1250000 (constantI S_ 32 100000#32))) src

/-- The sum over every node's in-edges of the source node's 64 features. -/
def agg64 (X : FVec Ideal S100000x64 .f32) (src dst : IVec S1250000 32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (Host.gather gather_S100000x64_S1250000x1_S1250000x64_1_0_n_n_0_1_164 X
      (broadcastInDim S1250000x1 ![0] bcast_S1250000_S1250000x1_0 (srcn src)))

/-- The same for 128 features. -/
def agg128 (X : FVec Ideal S100000x128 .f32) (src dst : IVec S1250000 32) : FVec Ideal S100000x128 .f32 :=
  Host.scatterAdd scatter_S100000x128_S1250000x1_S1250000x128_1_0_0_1
    (broadcastInDim S100000x128 ![] bcast_S_S100000x128 (constant (F := Ideal) S_ .f32 0x00000000#32))
    (broadcastInDim S1250000x1 ![0] bcast_S1250000_S1250000x1_0 dst)
    (Host.gather gather_S100000x128_S1250000x1_S1250000x128_1_0_n_n_0_1_1128 X
      (broadcastInDim S1250000x1 ![0] bcast_S1250000_S1250000x1_0 (srcn src)))

/-- The neighbour mean as this program spells it: the sum TIMES the reciprocal degree spread over the lanes. -/
def nbr64 (X : FVec Ideal S100000x64 .f32) (src dst : IVec S1250000 32) : FVec Ideal S100000x64 .f32 :=
  mulf (agg64 X src dst)
    (broadcastInDim S100000x64 ![0, 1] bcast_S100000x1_S100000x64_0_1
      (broadcastInDim S100000x1 ![0] bcast_S100000_S100000x1_0 (dinv dst)))

def nbr128 (X : FVec Ideal S100000x128 .f32) (src dst : IVec S1250000 32) : FVec Ideal S100000x128 .f32 :=
  mulf (agg128 X src dst)
    (broadcastInDim S100000x128 ![0, 1] bcast_S100000x1_S100000x128_0_1
      (broadcastInDim S100000x1 ![0] bcast_S100000_S100000x1_0 (dinv dst)))

/-- The number of rows, as a vector over the columns. -/
def count : FVec Ideal S128 .f32 := broadcastInDim S128 ![] bcast_S_S128 (constant (F := Ideal) S_ .f32 0x47C35000#32)

/-- The column means. -/
def mean (H : FVec Ideal S100000x128 .f32) : FVec Ideal S128 .f32 :=
  Host.divf (Host.reduceAdd H (constant (F := Ideal) S_ .f32 0x00000000#32) reducesTo_S100000x128_S128_d0 h_S_) count

/-- The array minus its column means. -/
def centred (H : FVec Ideal S100000x128 .f32) : FVec Ideal S100000x128 .f32 :=
  subf H (broadcastInDim S100000x128 ![0, 1] bcast_S1x128_S100000x128_0_1
    (broadcastInDim S1x128 ![1] bcast_S128_S1x128_1 (mean H)))

/-- The column variances. -/
def var (H : FVec Ideal S100000x128 .f32) : FVec Ideal S128 .f32 :=
  Host.divf (Host.reduceAdd (mulf (centred H) (centred H)) (constant (F := Ideal) S_ .f32 0x00000000#32)
    reducesTo_S100000x128_S128_d0 h_S_) count

/-- A length-128 vector as a 1×128 row. -/
def row (v : FVec Ideal S128 .f32) : FVec Ideal S1x128 .f32 := shapeCast S1x128 v shapeCasts_S128_S1x128

def row2 (v : FVec Ideal S2 .f32) : FVec Ideal S1x2 .f32 := shapeCast S1x2 v shapeCasts_S2_S1x2

/-- Normalise by the array's own column statistics, scale, shift, clamp. -/
def bn (H : FVec Ideal S100000x128 .f32) (g be : FVec Ideal S128 .f32) : FVec Ideal S100000x128 .f32 :=
  Cert.Sage.bnrelu H (row (mean H)) (row (var H)) (row g) (row be)

/-- The hidden array of the first layer and of a later layer. -/
def hid64 (X : FVec Ideal S100000x64 .f32) (src dst : IVec S1250000 32) (Ws : FVec Ideal S64x128 .f32)
    (b : FVec Ideal S128 .f32) (Wn : FVec Ideal S64x128 .f32) : FVec Ideal S100000x128 .f32 :=
  Cert.Sage.combine X (nbr64 X src dst) Ws Wn (row b)

def hid128 (X : FVec Ideal S100000x128 .f32) (src dst : IVec S1250000 32) (Ws : FVec Ideal S128x128 .f32)
    (b : FVec Ideal S128 .f32) (Wn : FVec Ideal S128x128 .f32) : FVec Ideal S100000x128 .f32 :=
  Cert.Sage.combine X (nbr128 X src dst) Ws Wn (row b)

/-- The whole network. -/
def net (X : FVec Ideal S100000x64 .f32) (src dst : IVec S1250000 32)
    (Ws0 : FVec Ideal S64x128 .f32) (b0 : FVec Ideal S128 .f32) (Wn0 : FVec Ideal S64x128 .f32) (g0 be0 : FVec Ideal S128 .f32)
    (Ws1 : FVec Ideal S128x128 .f32) (b1 : FVec Ideal S128 .f32) (Wn1 : FVec Ideal S128x128 .f32) (g1 be1 : FVec Ideal S128 .f32)
    (Ws2 : FVec Ideal S128x128 .f32) (b2 : FVec Ideal S128 .f32) (Wn2 : FVec Ideal S128x128 .f32) (g2 be2 : FVec Ideal S128 .f32)
    (Wc : FVec Ideal S128x2 .f32) (bc : FVec Ideal S2 .f32) : FVec Ideal S100000x2 .f32 :=
  Cert.Sage.project
    (bn (hid128 (bn (hid128 (bn (hid64 X src dst Ws0 b0 Wn0) g0 be0) src dst Ws1 b1 Wn1) g1 be1) src dst Ws2 b2 Wn2) g2 be2)
    Wc (row2 bc)

end Cert.KernelIdeal.Net

end
-- ==== Proof.KernelCarry.lean ====
/-
  What the later stages of the idealized kernel still find of the launch memory.

  The buffer contents at the boundaries between the host stretches and the kernel regions are a fold from the launch
  memory.  A stretch writes only its own results and a region only its output array, so an argument array, and the
  reciprocal clamped degree the first stretch computes, are found unchanged by every later stage that reads them: one
  step per boundary, up to the last stage that reads the buffer.
-/
import proofs.«165646_j23587960390209_1_alg».proof.Proof.Gen.KernelIdeal.Frame
import proofs.«165646_j23587960390209_1_alg».proof.Proof.KernelNet
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.SL.Sem
open Idealize.ShloMosaic.StableHlo

/-- A stretch of host operations leaves a buffer that none of its operations writes. -/
macro "stretch_keeps" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

theorem W1_main_arg0 : W1 (F := Ideal) m ρ c (Proc.devRef .tc main_arg0) = m ((c : Thread nD τ).loc main_arg0) :=
  (show StableHlo.after hostOps0 (W0 m ρ c) (Proc.devRef .tc main_arg0) = W0 m ρ c (Proc.devRef .tc main_arg0) by stretch_keeps hostOps0).trans rfl

theorem W1_main_arg3 : W1 (F := Ideal) m ρ c (Proc.devRef .tc main_arg3) = m ((c : Thread nD τ).loc main_arg3) :=
  (show StableHlo.after hostOps0 (W0 m ρ c) (Proc.devRef .tc main_arg3) = W0 m ρ c (Proc.devRef .tc main_arg3) by stretch_keeps hostOps0).trans rfl

theorem W1_main_arg5 : W1 (F := Ideal) m ρ c (Proc.devRef .tc main_arg5) = m ((c : Thread nD τ).loc main_arg5) :=
  (show StableHlo.after hostOps0 (W0 m ρ c) (Proc.devRef .tc main_arg5) = W0 m ρ c (Proc.devRef .tc main_arg5) by stretch_keeps hostOps0).trans rfl

theorem W1_main_arg6 : W1 (F := Ideal) m ρ c (Proc.devRef .tc main_arg6) = m ((c : Thread nD τ).loc main_arg6) :=
  (show StableHlo.after hostOps0 (W0 m ρ c) (Proc.devRef .tc main_arg6) = W0 m ρ c (Proc.devRef .tc main_arg6) by stretch_keeps hostOps0).trans rfl
theorem W2_main_arg6 : W2 (F := Ideal) m ρ c (Proc.devRef .tc main_arg6) = m ((c : Thread nD τ).loc main_arg6) :=
  (W2_of_ne m ρ c main_arg6 (by decide)).trans (W1_main_arg6 m ρ c)

theorem W1_main_arg7 : W1 (F := Ideal) m ρ c (Proc.devRef .tc main_arg7) = m ((c : Thread nD τ).loc main_arg7) :=
  (show StableHlo.after hostOps0 (W0 m ρ c) (Proc.devRef .tc main_arg7) = W0 m ρ c (Proc.devRef .tc main_arg7) by stretch_keeps hostOps0).trans rfl
theorem W2_main_arg7 : W2 (F := Ideal) m ρ c (Proc.devRef .tc main_arg7) = m ((c : Thread nD τ).loc main_arg7) :=
  (W2_of_ne m ρ c main_arg7 (by decide)).trans (W1_main_arg7 m ρ c)

theorem W1_main_arg1 : W1 (F := Ideal) m ρ c (Proc.devRef .tc main_arg1) = m ((c : Thread nD τ).loc main_arg1) :=
  (show StableHlo.after hostOps0 (W0 m ρ c) (Proc.devRef .tc main_arg1) = W0 m ρ c (Proc.devRef .tc main_arg1) by stretch_keeps hostOps0).trans rfl
theorem W2_main_arg1 : W2 (F := Ideal) m ρ c (Proc.devRef .tc main_arg1) = m ((c : Thread nD τ).loc main_arg1) :=
  (W2_of_ne m ρ c main_arg1 (by decide)).trans (W1_main_arg1 m ρ c)
theorem W3_main_arg1 : W3 (F := Ideal) m ρ c (Proc.devRef .tc main_arg1) = m ((c : Thread nD τ).loc main_arg1) :=
  (show StableHlo.after hostOps1 (W2 m ρ c) (Proc.devRef .tc main_arg1) = W2 m ρ c (Proc.devRef .tc main_arg1) by stretch_keeps hostOps1).trans (W2_main_arg1 m ρ c)
theorem W4_main_arg1 : W4 (F := Ideal) m ρ c (Proc.devRef .tc main_arg1) = m ((c : Thread nD τ).loc main_arg1) :=
  (W4_of_ne m ρ c main_arg1 (by decide)).trans (W3_main_arg1 m ρ c)
theorem W5_main_arg1 : W5 (F := Ideal) m ρ c (Proc.devRef .tc main_arg1) = m ((c : Thread nD τ).loc main_arg1) :=
  (show StableHlo.after hostOps2 (W4 m ρ c) (Proc.devRef .tc main_arg1) = W4 m ρ c (Proc.devRef .tc main_arg1) by stretch_keeps hostOps2).trans (W4_main_arg1 m ρ c)
theorem W6_main_arg1 : W6 (F := Ideal) m ρ c (Proc.devRef .tc main_arg1) = m ((c : Thread nD τ).loc main_arg1) :=
  (W6_of_ne m ρ c main_arg1 (by decide)).trans (W5_main_arg1 m ρ c)
theorem W7_main_arg1 : W7 (F := Ideal) m ρ c (Proc.devRef .tc main_arg1) = m ((c : Thread nD τ).loc main_arg1) :=
  (show StableHlo.after hostOps3 (W6 m ρ c) (Proc.devRef .tc main_arg1) = W6 m ρ c (Proc.devRef .tc main_arg1) by stretch_keeps hostOps3).trans (W6_main_arg1 m ρ c)
theorem W8_main_arg1 : W8 (F := Ideal) m ρ c (Proc.devRef .tc main_arg1) = m ((c : Thread nD τ).loc main_arg1) :=
  (W8_of_ne m ρ c main_arg1 (by decide)).trans (W7_main_arg1 m ρ c)

theorem W1_main_arg2 : W1 (F := Ideal) m ρ c (Proc.devRef .tc main_arg2) = m ((c : Thread nD τ).loc main_arg2) :=
  (show StableHlo.after hostOps0 (W0 m ρ c) (Proc.devRef .tc main_arg2) = W0 m ρ c (Proc.devRef .tc main_arg2) by stretch_keeps hostOps0).trans rfl
theorem W2_main_arg2 : W2 (F := Ideal) m ρ c (Proc.devRef .tc main_arg2) = m ((c : Thread nD τ).loc main_arg2) :=
  (W2_of_ne m ρ c main_arg2 (by decide)).trans (W1_main_arg2 m ρ c)
theorem W3_main_arg2 : W3 (F := Ideal) m ρ c (Proc.devRef .tc main_arg2) = m ((c : Thread nD τ).loc main_arg2) :=
  (show StableHlo.after hostOps1 (W2 m ρ c) (Proc.devRef .tc main_arg2) = W2 m ρ c (Proc.devRef .tc main_arg2) by stretch_keeps hostOps1).trans (W2_main_arg2 m ρ c)
theorem W4_main_arg2 : W4 (F := Ideal) m ρ c (Proc.devRef .tc main_arg2) = m ((c : Thread nD τ).loc main_arg2) :=
  (W4_of_ne m ρ c main_arg2 (by decide)).trans (W3_main_arg2 m ρ c)
theorem W5_main_arg2 : W5 (F := Ideal) m ρ c (Proc.devRef .tc main_arg2) = m ((c : Thread nD τ).loc main_arg2) :=
  (show StableHlo.after hostOps2 (W4 m ρ c) (Proc.devRef .tc main_arg2) = W4 m ρ c (Proc.devRef .tc main_arg2) by stretch_keeps hostOps2).trans (W4_main_arg2 m ρ c)
theorem W6_main_arg2 : W6 (F := Ideal) m ρ c (Proc.devRef .tc main_arg2) = m ((c : Thread nD τ).loc main_arg2) :=
  (W6_of_ne m ρ c main_arg2 (by decide)).trans (W5_main_arg2 m ρ c)
theorem W7_main_arg2 : W7 (F := Ideal) m ρ c (Proc.devRef .tc main_arg2) = m ((c : Thread nD τ).loc main_arg2) :=
  (show StableHlo.after hostOps3 (W6 m ρ c) (Proc.devRef .tc main_arg2) = W6 m ρ c (Proc.devRef .tc main_arg2) by stretch_keeps hostOps3).trans (W6_main_arg2 m ρ c)
theorem W8_main_arg2 : W8 (F := Ideal) m ρ c (Proc.devRef .tc main_arg2) = m ((c : Thread nD τ).loc main_arg2) :=
  (W8_of_ne m ρ c main_arg2 (by decide)).trans (W7_main_arg2 m ρ c)

theorem W1_main_arg9 : W1 (F := Ideal) m ρ c (Proc.devRef .tc main_arg9) = m ((c : Thread nD τ).loc main_arg9) :=
  (show StableHlo.after hostOps0 (W0 m ρ c) (Proc.devRef .tc main_arg9) = W0 m ρ c (Proc.devRef .tc main_arg9) by stretch_keeps hostOps0).trans rfl
theorem W2_main_arg9 : W2 (F := Ideal) m ρ c (Proc.devRef .tc main_arg9) = m ((c : Thread nD τ).loc main_arg9) :=
  (W2_of_ne m ρ c main_arg9 (by decide)).trans (W1_main_arg9 m ρ c)
theorem W3_main_arg9 : W3 (F := Ideal) m ρ c (Proc.devRef .tc main_arg9) = m ((c : Thread nD τ).loc main_arg9) :=
  (show StableHlo.after hostOps1 (W2 m ρ c) (Proc.devRef .tc main_arg9) = W2 m ρ c (Proc.devRef .tc main_arg9) by stretch_keeps hostOps1).trans (W2_main_arg9 m ρ c)
theorem W4_main_arg9 : W4 (F := Ideal) m ρ c (Proc.devRef .tc main_arg9) = m ((c : Thread nD τ).loc main_arg9) :=
  (W4_of_ne m ρ c main_arg9 (by decide)).trans (W3_main_arg9 m ρ c)

theorem W1_main_arg8 : W1 (F := Ideal) m ρ c (Proc.devRef .tc main_arg8) = m ((c : Thread nD τ).loc main_arg8) :=
  (show StableHlo.after hostOps0 (W0 m ρ c) (Proc.devRef .tc main_arg8) = W0 m ρ c (Proc.devRef .tc main_arg8) by stretch_keeps hostOps0).trans rfl
theorem W2_main_arg8 : W2 (F := Ideal) m ρ c (Proc.devRef .tc main_arg8) = m ((c : Thread nD τ).loc main_arg8) :=
  (W2_of_ne m ρ c main_arg8 (by decide)).trans (W1_main_arg8 m ρ c)
theorem W3_main_arg8 : W3 (F := Ideal) m ρ c (Proc.devRef .tc main_arg8) = m ((c : Thread nD τ).loc main_arg8) :=
  (show StableHlo.after hostOps1 (W2 m ρ c) (Proc.devRef .tc main_arg8) = W2 m ρ c (Proc.devRef .tc main_arg8) by stretch_keeps hostOps1).trans (W2_main_arg8 m ρ c)
theorem W4_main_arg8 : W4 (F := Ideal) m ρ c (Proc.devRef .tc main_arg8) = m ((c : Thread nD τ).loc main_arg8) :=
  (W4_of_ne m ρ c main_arg8 (by decide)).trans (W3_main_arg8 m ρ c)
theorem W5_main_arg8 : W5 (F := Ideal) m ρ c (Proc.devRef .tc main_arg8) = m ((c : Thread nD τ).loc main_arg8) :=
  (show StableHlo.after hostOps2 (W4 m ρ c) (Proc.devRef .tc main_arg8) = W4 m ρ c (Proc.devRef .tc main_arg8) by stretch_keeps hostOps2).trans (W4_main_arg8 m ρ c)

theorem W1_main_arg10 : W1 (F := Ideal) m ρ c (Proc.devRef .tc main_arg10) = m ((c : Thread nD τ).loc main_arg10) :=
  (show StableHlo.after hostOps0 (W0 m ρ c) (Proc.devRef .tc main_arg10) = W0 m ρ c (Proc.devRef .tc main_arg10) by stretch_keeps hostOps0).trans rfl
theorem W2_main_arg10 : W2 (F := Ideal) m ρ c (Proc.devRef .tc main_arg10) = m ((c : Thread nD τ).loc main_arg10) :=
  (W2_of_ne m ρ c main_arg10 (by decide)).trans (W1_main_arg10 m ρ c)
theorem W3_main_arg10 : W3 (F := Ideal) m ρ c (Proc.devRef .tc main_arg10) = m ((c : Thread nD τ).loc main_arg10) :=
  (show StableHlo.after hostOps1 (W2 m ρ c) (Proc.devRef .tc main_arg10) = W2 m ρ c (Proc.devRef .tc main_arg10) by stretch_keeps hostOps1).trans (W2_main_arg10 m ρ c)
theorem W4_main_arg10 : W4 (F := Ideal) m ρ c (Proc.devRef .tc main_arg10) = m ((c : Thread nD τ).loc main_arg10) :=
  (W4_of_ne m ρ c main_arg10 (by decide)).trans (W3_main_arg10 m ρ c)
theorem W5_main_arg10 : W5 (F := Ideal) m ρ c (Proc.devRef .tc main_arg10) = m ((c : Thread nD τ).loc main_arg10) :=
  (show StableHlo.after hostOps2 (W4 m ρ c) (Proc.devRef .tc main_arg10) = W4 m ρ c (Proc.devRef .tc main_arg10) by stretch_keeps hostOps2).trans (W4_main_arg10 m ρ c)

theorem W1_main_arg11 : W1 (F := Ideal) m ρ c (Proc.devRef .tc main_arg11) = m ((c : Thread nD τ).loc main_arg11) :=
  (show StableHlo.after hostOps0 (W0 m ρ c) (Proc.devRef .tc main_arg11) = W0 m ρ c (Proc.devRef .tc main_arg11) by stretch_keeps hostOps0).trans rfl
theorem W2_main_arg11 : W2 (F := Ideal) m ρ c (Proc.devRef .tc main_arg11) = m ((c : Thread nD τ).loc main_arg11) :=
  (W2_of_ne m ρ c main_arg11 (by decide)).trans (W1_main_arg11 m ρ c)
theorem W3_main_arg11 : W3 (F := Ideal) m ρ c (Proc.devRef .tc main_arg11) = m ((c : Thread nD τ).loc main_arg11) :=
  (show StableHlo.after hostOps1 (W2 m ρ c) (Proc.devRef .tc main_arg11) = W2 m ρ c (Proc.devRef .tc main_arg11) by stretch_keeps hostOps1).trans (W2_main_arg11 m ρ c)
theorem W4_main_arg11 : W4 (F := Ideal) m ρ c (Proc.devRef .tc main_arg11) = m ((c : Thread nD τ).loc main_arg11) :=
  (W4_of_ne m ρ c main_arg11 (by decide)).trans (W3_main_arg11 m ρ c)
theorem W5_main_arg11 : W5 (F := Ideal) m ρ c (Proc.devRef .tc main_arg11) = m ((c : Thread nD τ).loc main_arg11) :=
  (show StableHlo.after hostOps2 (W4 m ρ c) (Proc.devRef .tc main_arg11) = W4 m ρ c (Proc.devRef .tc main_arg11) by stretch_keeps hostOps2).trans (W4_main_arg11 m ρ c)
theorem W6_main_arg11 : W6 (F := Ideal) m ρ c (Proc.devRef .tc main_arg11) = m ((c : Thread nD τ).loc main_arg11) :=
  (W6_of_ne m ρ c main_arg11 (by decide)).trans (W5_main_arg11 m ρ c)

theorem W1_main_arg12 : W1 (F := Ideal) m ρ c (Proc.devRef .tc main_arg12) = m ((c : Thread nD τ).loc main_arg12) :=
  (show StableHlo.after hostOps0 (W0 m ρ c) (Proc.devRef .tc main_arg12) = W0 m ρ c (Proc.devRef .tc main_arg12) by stretch_keeps hostOps0).trans rfl
theorem W2_main_arg12 : W2 (F := Ideal) m ρ c (Proc.devRef .tc main_arg12) = m ((c : Thread nD τ).loc main_arg12) :=
  (W2_of_ne m ρ c main_arg12 (by decide)).trans (W1_main_arg12 m ρ c)
theorem W3_main_arg12 : W3 (F := Ideal) m ρ c (Proc.devRef .tc main_arg12) = m ((c : Thread nD τ).loc main_arg12) :=
  (show StableHlo.after hostOps1 (W2 m ρ c) (Proc.devRef .tc main_arg12) = W2 m ρ c (Proc.devRef .tc main_arg12) by stretch_keeps hostOps1).trans (W2_main_arg12 m ρ c)
theorem W4_main_arg12 : W4 (F := Ideal) m ρ c (Proc.devRef .tc main_arg12) = m ((c : Thread nD τ).loc main_arg12) :=
  (W4_of_ne m ρ c main_arg12 (by decide)).trans (W3_main_arg12 m ρ c)
theorem W5_main_arg12 : W5 (F := Ideal) m ρ c (Proc.devRef .tc main_arg12) = m ((c : Thread nD τ).loc main_arg12) :=
  (show StableHlo.after hostOps2 (W4 m ρ c) (Proc.devRef .tc main_arg12) = W4 m ρ c (Proc.devRef .tc main_arg12) by stretch_keeps hostOps2).trans (W4_main_arg12 m ρ c)
theorem W6_main_arg12 : W6 (F := Ideal) m ρ c (Proc.devRef .tc main_arg12) = m ((c : Thread nD τ).loc main_arg12) :=
  (W6_of_ne m ρ c main_arg12 (by decide)).trans (W5_main_arg12 m ρ c)

theorem W1_main_arg14 : W1 (F := Ideal) m ρ c (Proc.devRef .tc main_arg14) = m ((c : Thread nD τ).loc main_arg14) :=
  (show StableHlo.after hostOps0 (W0 m ρ c) (Proc.devRef .tc main_arg14) = W0 m ρ c (Proc.devRef .tc main_arg14) by stretch_keeps hostOps0).trans rfl
theorem W2_main_arg14 : W2 (F := Ideal) m ρ c (Proc.devRef .tc main_arg14) = m ((c : Thread nD τ).loc main_arg14) :=
  (W2_of_ne m ρ c main_arg14 (by decide)).trans (W1_main_arg14 m ρ c)
theorem W3_main_arg14 : W3 (F := Ideal) m ρ c (Proc.devRef .tc main_arg14) = m ((c : Thread nD τ).loc main_arg14) :=
  (show StableHlo.after hostOps1 (W2 m ρ c) (Proc.devRef .tc main_arg14) = W2 m ρ c (Proc.devRef .tc main_arg14) by stretch_keeps hostOps1).trans (W2_main_arg14 m ρ c)
theorem W4_main_arg14 : W4 (F := Ideal) m ρ c (Proc.devRef .tc main_arg14) = m ((c : Thread nD τ).loc main_arg14) :=
  (W4_of_ne m ρ c main_arg14 (by decide)).trans (W3_main_arg14 m ρ c)
theorem W5_main_arg14 : W5 (F := Ideal) m ρ c (Proc.devRef .tc main_arg14) = m ((c : Thread nD τ).loc main_arg14) :=
  (show StableHlo.after hostOps2 (W4 m ρ c) (Proc.devRef .tc main_arg14) = W4 m ρ c (Proc.devRef .tc main_arg14) by stretch_keeps hostOps2).trans (W4_main_arg14 m ρ c)
theorem W6_main_arg14 : W6 (F := Ideal) m ρ c (Proc.devRef .tc main_arg14) = m ((c : Thread nD τ).loc main_arg14) :=
  (W6_of_ne m ρ c main_arg14 (by decide)).trans (W5_main_arg14 m ρ c)
theorem W7_main_arg14 : W7 (F := Ideal) m ρ c (Proc.devRef .tc main_arg14) = m ((c : Thread nD τ).loc main_arg14) :=
  (show StableHlo.after hostOps3 (W6 m ρ c) (Proc.devRef .tc main_arg14) = W6 m ρ c (Proc.devRef .tc main_arg14) by stretch_keeps hostOps3).trans (W6_main_arg14 m ρ c)
theorem W8_main_arg14 : W8 (F := Ideal) m ρ c (Proc.devRef .tc main_arg14) = m ((c : Thread nD τ).loc main_arg14) :=
  (W8_of_ne m ρ c main_arg14 (by decide)).trans (W7_main_arg14 m ρ c)

theorem W1_main_arg13 : W1 (F := Ideal) m ρ c (Proc.devRef .tc main_arg13) = m ((c : Thread nD τ).loc main_arg13) :=
  (show StableHlo.after hostOps0 (W0 m ρ c) (Proc.devRef .tc main_arg13) = W0 m ρ c (Proc.devRef .tc main_arg13) by stretch_keeps hostOps0).trans rfl
theorem W2_main_arg13 : W2 (F := Ideal) m ρ c (Proc.devRef .tc main_arg13) = m ((c : Thread nD τ).loc main_arg13) :=
  (W2_of_ne m ρ c main_arg13 (by decide)).trans (W1_main_arg13 m ρ c)
theorem W3_main_arg13 : W3 (F := Ideal) m ρ c (Proc.devRef .tc main_arg13) = m ((c : Thread nD τ).loc main_arg13) :=
  (show StableHlo.after hostOps1 (W2 m ρ c) (Proc.devRef .tc main_arg13) = W2 m ρ c (Proc.devRef .tc main_arg13) by stretch_keeps hostOps1).trans (W2_main_arg13 m ρ c)
theorem W4_main_arg13 : W4 (F := Ideal) m ρ c (Proc.devRef .tc main_arg13) = m ((c : Thread nD τ).loc main_arg13) :=
  (W4_of_ne m ρ c main_arg13 (by decide)).trans (W3_main_arg13 m ρ c)
theorem W5_main_arg13 : W5 (F := Ideal) m ρ c (Proc.devRef .tc main_arg13) = m ((c : Thread nD τ).loc main_arg13) :=
  (show StableHlo.after hostOps2 (W4 m ρ c) (Proc.devRef .tc main_arg13) = W4 m ρ c (Proc.devRef .tc main_arg13) by stretch_keeps hostOps2).trans (W4_main_arg13 m ρ c)
theorem W6_main_arg13 : W6 (F := Ideal) m ρ c (Proc.devRef .tc main_arg13) = m ((c : Thread nD τ).loc main_arg13) :=
  (W6_of_ne m ρ c main_arg13 (by decide)).trans (W5_main_arg13 m ρ c)
theorem W7_main_arg13 : W7 (F := Ideal) m ρ c (Proc.devRef .tc main_arg13) = m ((c : Thread nD τ).loc main_arg13) :=
  (show StableHlo.after hostOps3 (W6 m ρ c) (Proc.devRef .tc main_arg13) = W6 m ρ c (Proc.devRef .tc main_arg13) by stretch_keeps hostOps3).trans (W6_main_arg13 m ρ c)
theorem W8_main_arg13 : W8 (F := Ideal) m ρ c (Proc.devRef .tc main_arg13) = m ((c : Thread nD τ).loc main_arg13) :=
  (W8_of_ne m ρ c main_arg13 (by decide)).trans (W7_main_arg13 m ρ c)
theorem W9_main_arg13 : W9 (F := Ideal) m ρ c (Proc.devRef .tc main_arg13) = m ((c : Thread nD τ).loc main_arg13) :=
  (show StableHlo.after hostOps4 (W8 m ρ c) (Proc.devRef .tc main_arg13) = W8 m ρ c (Proc.devRef .tc main_arg13) by stretch_keeps hostOps4).trans (W8_main_arg13 m ρ c)

theorem W1_main_arg15 : W1 (F := Ideal) m ρ c (Proc.devRef .tc main_arg15) = m ((c : Thread nD τ).loc main_arg15) :=
  (show StableHlo.after hostOps0 (W0 m ρ c) (Proc.devRef .tc main_arg15) = W0 m ρ c (Proc.devRef .tc main_arg15) by stretch_keeps hostOps0).trans rfl
theorem W2_main_arg15 : W2 (F := Ideal) m ρ c (Proc.devRef .tc main_arg15) = m ((c : Thread nD τ).loc main_arg15) :=
  (W2_of_ne m ρ c main_arg15 (by decide)).trans (W1_main_arg15 m ρ c)
theorem W3_main_arg15 : W3 (F := Ideal) m ρ c (Proc.devRef .tc main_arg15) = m ((c : Thread nD τ).loc main_arg15) :=
  (show StableHlo.after hostOps1 (W2 m ρ c) (Proc.devRef .tc main_arg15) = W2 m ρ c (Proc.devRef .tc main_arg15) by stretch_keeps hostOps1).trans (W2_main_arg15 m ρ c)
theorem W4_main_arg15 : W4 (F := Ideal) m ρ c (Proc.devRef .tc main_arg15) = m ((c : Thread nD τ).loc main_arg15) :=
  (W4_of_ne m ρ c main_arg15 (by decide)).trans (W3_main_arg15 m ρ c)
theorem W5_main_arg15 : W5 (F := Ideal) m ρ c (Proc.devRef .tc main_arg15) = m ((c : Thread nD τ).loc main_arg15) :=
  (show StableHlo.after hostOps2 (W4 m ρ c) (Proc.devRef .tc main_arg15) = W4 m ρ c (Proc.devRef .tc main_arg15) by stretch_keeps hostOps2).trans (W4_main_arg15 m ρ c)
theorem W6_main_arg15 : W6 (F := Ideal) m ρ c (Proc.devRef .tc main_arg15) = m ((c : Thread nD τ).loc main_arg15) :=
  (W6_of_ne m ρ c main_arg15 (by decide)).trans (W5_main_arg15 m ρ c)
theorem W7_main_arg15 : W7 (F := Ideal) m ρ c (Proc.devRef .tc main_arg15) = m ((c : Thread nD τ).loc main_arg15) :=
  (show StableHlo.after hostOps3 (W6 m ρ c) (Proc.devRef .tc main_arg15) = W6 m ρ c (Proc.devRef .tc main_arg15) by stretch_keeps hostOps3).trans (W6_main_arg15 m ρ c)
theorem W8_main_arg15 : W8 (F := Ideal) m ρ c (Proc.devRef .tc main_arg15) = m ((c : Thread nD τ).loc main_arg15) :=
  (W8_of_ne m ρ c main_arg15 (by decide)).trans (W7_main_arg15 m ρ c)
theorem W9_main_arg15 : W9 (F := Ideal) m ρ c (Proc.devRef .tc main_arg15) = m ((c : Thread nD τ).loc main_arg15) :=
  (show StableHlo.after hostOps4 (W8 m ρ c) (Proc.devRef .tc main_arg15) = W8 m ρ c (Proc.devRef .tc main_arg15) by stretch_keeps hostOps4).trans (W8_main_arg15 m ρ c)

theorem W1_main_arg16 : W1 (F := Ideal) m ρ c (Proc.devRef .tc main_arg16) = m ((c : Thread nD τ).loc main_arg16) :=
  (show StableHlo.after hostOps0 (W0 m ρ c) (Proc.devRef .tc main_arg16) = W0 m ρ c (Proc.devRef .tc main_arg16) by stretch_keeps hostOps0).trans rfl
theorem W2_main_arg16 : W2 (F := Ideal) m ρ c (Proc.devRef .tc main_arg16) = m ((c : Thread nD τ).loc main_arg16) :=
  (W2_of_ne m ρ c main_arg16 (by decide)).trans (W1_main_arg16 m ρ c)
theorem W3_main_arg16 : W3 (F := Ideal) m ρ c (Proc.devRef .tc main_arg16) = m ((c : Thread nD τ).loc main_arg16) :=
  (show StableHlo.after hostOps1 (W2 m ρ c) (Proc.devRef .tc main_arg16) = W2 m ρ c (Proc.devRef .tc main_arg16) by stretch_keeps hostOps1).trans (W2_main_arg16 m ρ c)
theorem W4_main_arg16 : W4 (F := Ideal) m ρ c (Proc.devRef .tc main_arg16) = m ((c : Thread nD τ).loc main_arg16) :=
  (W4_of_ne m ρ c main_arg16 (by decide)).trans (W3_main_arg16 m ρ c)
theorem W5_main_arg16 : W5 (F := Ideal) m ρ c (Proc.devRef .tc main_arg16) = m ((c : Thread nD τ).loc main_arg16) :=
  (show StableHlo.after hostOps2 (W4 m ρ c) (Proc.devRef .tc main_arg16) = W4 m ρ c (Proc.devRef .tc main_arg16) by stretch_keeps hostOps2).trans (W4_main_arg16 m ρ c)
theorem W6_main_arg16 : W6 (F := Ideal) m ρ c (Proc.devRef .tc main_arg16) = m ((c : Thread nD τ).loc main_arg16) :=
  (W6_of_ne m ρ c main_arg16 (by decide)).trans (W5_main_arg16 m ρ c)
theorem W7_main_arg16 : W7 (F := Ideal) m ρ c (Proc.devRef .tc main_arg16) = m ((c : Thread nD τ).loc main_arg16) :=
  (show StableHlo.after hostOps3 (W6 m ρ c) (Proc.devRef .tc main_arg16) = W6 m ρ c (Proc.devRef .tc main_arg16) by stretch_keeps hostOps3).trans (W6_main_arg16 m ρ c)
theorem W8_main_arg16 : W8 (F := Ideal) m ρ c (Proc.devRef .tc main_arg16) = m ((c : Thread nD τ).loc main_arg16) :=
  (W8_of_ne m ρ c main_arg16 (by decide)).trans (W7_main_arg16 m ρ c)
theorem W9_main_arg16 : W9 (F := Ideal) m ρ c (Proc.devRef .tc main_arg16) = m ((c : Thread nD τ).loc main_arg16) :=
  (show StableHlo.after hostOps4 (W8 m ρ c) (Proc.devRef .tc main_arg16) = W8 m ρ c (Proc.devRef .tc main_arg16) by stretch_keeps hostOps4).trans (W8_main_arg16 m ρ c)
theorem W10_main_arg16 : W10 (F := Ideal) m ρ c (Proc.devRef .tc main_arg16) = m ((c : Thread nD τ).loc main_arg16) :=
  (W10_of_ne m ρ c main_arg16 (by decide)).trans (W9_main_arg16 m ρ c)

theorem W1_main_arg17 : W1 (F := Ideal) m ρ c (Proc.devRef .tc main_arg17) = m ((c : Thread nD τ).loc main_arg17) :=
  (show StableHlo.after hostOps0 (W0 m ρ c) (Proc.devRef .tc main_arg17) = W0 m ρ c (Proc.devRef .tc main_arg17) by stretch_keeps hostOps0).trans rfl
theorem W2_main_arg17 : W2 (F := Ideal) m ρ c (Proc.devRef .tc main_arg17) = m ((c : Thread nD τ).loc main_arg17) :=
  (W2_of_ne m ρ c main_arg17 (by decide)).trans (W1_main_arg17 m ρ c)
theorem W3_main_arg17 : W3 (F := Ideal) m ρ c (Proc.devRef .tc main_arg17) = m ((c : Thread nD τ).loc main_arg17) :=
  (show StableHlo.after hostOps1 (W2 m ρ c) (Proc.devRef .tc main_arg17) = W2 m ρ c (Proc.devRef .tc main_arg17) by stretch_keeps hostOps1).trans (W2_main_arg17 m ρ c)
theorem W4_main_arg17 : W4 (F := Ideal) m ρ c (Proc.devRef .tc main_arg17) = m ((c : Thread nD τ).loc main_arg17) :=
  (W4_of_ne m ρ c main_arg17 (by decide)).trans (W3_main_arg17 m ρ c)
theorem W5_main_arg17 : W5 (F := Ideal) m ρ c (Proc.devRef .tc main_arg17) = m ((c : Thread nD τ).loc main_arg17) :=
  (show StableHlo.after hostOps2 (W4 m ρ c) (Proc.devRef .tc main_arg17) = W4 m ρ c (Proc.devRef .tc main_arg17) by stretch_keeps hostOps2).trans (W4_main_arg17 m ρ c)
theorem W6_main_arg17 : W6 (F := Ideal) m ρ c (Proc.devRef .tc main_arg17) = m ((c : Thread nD τ).loc main_arg17) :=
  (W6_of_ne m ρ c main_arg17 (by decide)).trans (W5_main_arg17 m ρ c)
theorem W7_main_arg17 : W7 (F := Ideal) m ρ c (Proc.devRef .tc main_arg17) = m ((c : Thread nD τ).loc main_arg17) :=
  (show StableHlo.after hostOps3 (W6 m ρ c) (Proc.devRef .tc main_arg17) = W6 m ρ c (Proc.devRef .tc main_arg17) by stretch_keeps hostOps3).trans (W6_main_arg17 m ρ c)
theorem W8_main_arg17 : W8 (F := Ideal) m ρ c (Proc.devRef .tc main_arg17) = m ((c : Thread nD τ).loc main_arg17) :=
  (W8_of_ne m ρ c main_arg17 (by decide)).trans (W7_main_arg17 m ρ c)
theorem W9_main_arg17 : W9 (F := Ideal) m ρ c (Proc.devRef .tc main_arg17) = m ((c : Thread nD τ).loc main_arg17) :=
  (show StableHlo.after hostOps4 (W8 m ρ c) (Proc.devRef .tc main_arg17) = W8 m ρ c (Proc.devRef .tc main_arg17) by stretch_keeps hostOps4).trans (W8_main_arg17 m ρ c)
theorem W10_main_arg17 : W10 (F := Ideal) m ρ c (Proc.devRef .tc main_arg17) = m ((c : Thread nD τ).loc main_arg17) :=
  (W10_of_ne m ρ c main_arg17 (by decide)).trans (W9_main_arg17 m ρ c)

theorem W1_main_arg19 : W1 (F := Ideal) m ρ c (Proc.devRef .tc main_arg19) = m ((c : Thread nD τ).loc main_arg19) :=
  (show StableHlo.after hostOps0 (W0 m ρ c) (Proc.devRef .tc main_arg19) = W0 m ρ c (Proc.devRef .tc main_arg19) by stretch_keeps hostOps0).trans rfl
theorem W2_main_arg19 : W2 (F := Ideal) m ρ c (Proc.devRef .tc main_arg19) = m ((c : Thread nD τ).loc main_arg19) :=
  (W2_of_ne m ρ c main_arg19 (by decide)).trans (W1_main_arg19 m ρ c)
theorem W3_main_arg19 : W3 (F := Ideal) m ρ c (Proc.devRef .tc main_arg19) = m ((c : Thread nD τ).loc main_arg19) :=
  (show StableHlo.after hostOps1 (W2 m ρ c) (Proc.devRef .tc main_arg19) = W2 m ρ c (Proc.devRef .tc main_arg19) by stretch_keeps hostOps1).trans (W2_main_arg19 m ρ c)
theorem W4_main_arg19 : W4 (F := Ideal) m ρ c (Proc.devRef .tc main_arg19) = m ((c : Thread nD τ).loc main_arg19) :=
  (W4_of_ne m ρ c main_arg19 (by decide)).trans (W3_main_arg19 m ρ c)
theorem W5_main_arg19 : W5 (F := Ideal) m ρ c (Proc.devRef .tc main_arg19) = m ((c : Thread nD τ).loc main_arg19) :=
  (show StableHlo.after hostOps2 (W4 m ρ c) (Proc.devRef .tc main_arg19) = W4 m ρ c (Proc.devRef .tc main_arg19) by stretch_keeps hostOps2).trans (W4_main_arg19 m ρ c)
theorem W6_main_arg19 : W6 (F := Ideal) m ρ c (Proc.devRef .tc main_arg19) = m ((c : Thread nD τ).loc main_arg19) :=
  (W6_of_ne m ρ c main_arg19 (by decide)).trans (W5_main_arg19 m ρ c)
theorem W7_main_arg19 : W7 (F := Ideal) m ρ c (Proc.devRef .tc main_arg19) = m ((c : Thread nD τ).loc main_arg19) :=
  (show StableHlo.after hostOps3 (W6 m ρ c) (Proc.devRef .tc main_arg19) = W6 m ρ c (Proc.devRef .tc main_arg19) by stretch_keeps hostOps3).trans (W6_main_arg19 m ρ c)
theorem W8_main_arg19 : W8 (F := Ideal) m ρ c (Proc.devRef .tc main_arg19) = m ((c : Thread nD τ).loc main_arg19) :=
  (W8_of_ne m ρ c main_arg19 (by decide)).trans (W7_main_arg19 m ρ c)
theorem W9_main_arg19 : W9 (F := Ideal) m ρ c (Proc.devRef .tc main_arg19) = m ((c : Thread nD τ).loc main_arg19) :=
  (show StableHlo.after hostOps4 (W8 m ρ c) (Proc.devRef .tc main_arg19) = W8 m ρ c (Proc.devRef .tc main_arg19) by stretch_keeps hostOps4).trans (W8_main_arg19 m ρ c)
theorem W10_main_arg19 : W10 (F := Ideal) m ρ c (Proc.devRef .tc main_arg19) = m ((c : Thread nD τ).loc main_arg19) :=
  (W10_of_ne m ρ c main_arg19 (by decide)).trans (W9_main_arg19 m ρ c)

theorem W1_main_arg18 : W1 (F := Ideal) m ρ c (Proc.devRef .tc main_arg18) = m ((c : Thread nD τ).loc main_arg18) :=
  (show StableHlo.after hostOps0 (W0 m ρ c) (Proc.devRef .tc main_arg18) = W0 m ρ c (Proc.devRef .tc main_arg18) by stretch_keeps hostOps0).trans rfl
theorem W2_main_arg18 : W2 (F := Ideal) m ρ c (Proc.devRef .tc main_arg18) = m ((c : Thread nD τ).loc main_arg18) :=
  (W2_of_ne m ρ c main_arg18 (by decide)).trans (W1_main_arg18 m ρ c)
theorem W3_main_arg18 : W3 (F := Ideal) m ρ c (Proc.devRef .tc main_arg18) = m ((c : Thread nD τ).loc main_arg18) :=
  (show StableHlo.after hostOps1 (W2 m ρ c) (Proc.devRef .tc main_arg18) = W2 m ρ c (Proc.devRef .tc main_arg18) by stretch_keeps hostOps1).trans (W2_main_arg18 m ρ c)
theorem W4_main_arg18 : W4 (F := Ideal) m ρ c (Proc.devRef .tc main_arg18) = m ((c : Thread nD τ).loc main_arg18) :=
  (W4_of_ne m ρ c main_arg18 (by decide)).trans (W3_main_arg18 m ρ c)
theorem W5_main_arg18 : W5 (F := Ideal) m ρ c (Proc.devRef .tc main_arg18) = m ((c : Thread nD τ).loc main_arg18) :=
  (show StableHlo.after hostOps2 (W4 m ρ c) (Proc.devRef .tc main_arg18) = W4 m ρ c (Proc.devRef .tc main_arg18) by stretch_keeps hostOps2).trans (W4_main_arg18 m ρ c)
theorem W6_main_arg18 : W6 (F := Ideal) m ρ c (Proc.devRef .tc main_arg18) = m ((c : Thread nD τ).loc main_arg18) :=
  (W6_of_ne m ρ c main_arg18 (by decide)).trans (W5_main_arg18 m ρ c)
theorem W7_main_arg18 : W7 (F := Ideal) m ρ c (Proc.devRef .tc main_arg18) = m ((c : Thread nD τ).loc main_arg18) :=
  (show StableHlo.after hostOps3 (W6 m ρ c) (Proc.devRef .tc main_arg18) = W6 m ρ c (Proc.devRef .tc main_arg18) by stretch_keeps hostOps3).trans (W6_main_arg18 m ρ c)
theorem W8_main_arg18 : W8 (F := Ideal) m ρ c (Proc.devRef .tc main_arg18) = m ((c : Thread nD τ).loc main_arg18) :=
  (W8_of_ne m ρ c main_arg18 (by decide)).trans (W7_main_arg18 m ρ c)
theorem W9_main_arg18 : W9 (F := Ideal) m ρ c (Proc.devRef .tc main_arg18) = m ((c : Thread nD τ).loc main_arg18) :=
  (show StableHlo.after hostOps4 (W8 m ρ c) (Proc.devRef .tc main_arg18) = W8 m ρ c (Proc.devRef .tc main_arg18) by stretch_keeps hostOps4).trans (W8_main_arg18 m ρ c)
theorem W10_main_arg18 : W10 (F := Ideal) m ρ c (Proc.devRef .tc main_arg18) = m ((c : Thread nD τ).loc main_arg18) :=
  (W10_of_ne m ρ c main_arg18 (by decide)).trans (W9_main_arg18 m ρ c)
theorem W11_main_arg18 : W11 (F := Ideal) m ρ c (Proc.devRef .tc main_arg18) = m ((c : Thread nD τ).loc main_arg18) :=
  (show StableHlo.after hostOps5 (W10 m ρ c) (Proc.devRef .tc main_arg18) = W10 m ρ c (Proc.devRef .tc main_arg18) by stretch_keeps hostOps5).trans (W10_main_arg18 m ρ c)

/-- The reciprocal clamped degree, computed by the first stretch … -/
theorem W1_main_v7 : W1 (F := Ideal) m ρ c (Proc.devRef .tc main_v7) = Net.dinv (m ((c : Thread nD τ).loc main_arg2)) := by
  show StableHlo.after hostOps0 (W0 m ρ c) (Proc.devRef .tc main_v7) = _
  after_results
  rfl
/-! … and read by the third and the fifth: nothing in between writes it. -/
theorem W2_main_v7 : W2 (F := Ideal) m ρ c (Proc.devRef .tc main_v7) = Net.dinv (m ((c : Thread nD τ).loc main_arg2)) :=
  (W2_of_ne m ρ c main_v7 (by decide)).trans (W1_main_v7 m ρ c)
theorem W3_main_v7 : W3 (F := Ideal) m ρ c (Proc.devRef .tc main_v7) = Net.dinv (m ((c : Thread nD τ).loc main_arg2)) :=
  (show StableHlo.after hostOps1 (W2 m ρ c) (Proc.devRef .tc main_v7) = W2 m ρ c (Proc.devRef .tc main_v7) by stretch_keeps hostOps1).trans (W2_main_v7 m ρ c)
theorem W4_main_v7 : W4 (F := Ideal) m ρ c (Proc.devRef .tc main_v7) = Net.dinv (m ((c : Thread nD τ).loc main_arg2)) :=
  (W4_of_ne m ρ c main_v7 (by decide)).trans (W3_main_v7 m ρ c)
theorem W5_main_v7 : W5 (F := Ideal) m ρ c (Proc.devRef .tc main_v7) = Net.dinv (m ((c : Thread nD τ).loc main_arg2)) :=
  (show StableHlo.after hostOps2 (W4 m ρ c) (Proc.devRef .tc main_v7) = W4 m ρ c (Proc.devRef .tc main_v7) by stretch_keeps hostOps2).trans (W4_main_v7 m ρ c)
theorem W6_main_v7 : W6 (F := Ideal) m ρ c (Proc.devRef .tc main_v7) = Net.dinv (m ((c : Thread nD τ).loc main_arg2)) :=
  (W6_of_ne m ρ c main_v7 (by decide)).trans (W5_main_v7 m ρ c)
theorem W7_main_v7 : W7 (F := Ideal) m ρ c (Proc.devRef .tc main_v7) = Net.dinv (m ((c : Thread nD τ).loc main_arg2)) :=
  (show StableHlo.after hostOps3 (W6 m ρ c) (Proc.devRef .tc main_v7) = W6 m ρ c (Proc.devRef .tc main_v7) by stretch_keeps hostOps3).trans (W6_main_v7 m ρ c)
theorem W8_main_v7 : W8 (F := Ideal) m ρ c (Proc.devRef .tc main_v7) = Net.dinv (m ((c : Thread nD τ).loc main_arg2)) :=
  (W8_of_ne m ρ c main_v7 (by decide)).trans (W7_main_v7 m ρ c)

end Cert.KernelIdeal.Carry

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.RegionCombine0.lean ====
/-
  Region 0 of the kernel: the dense combine step, one row block of 5000 nodes per grid point.

  A point's body multiplies its block of node features and its block of neighbour means by the two weight matrices,
  adds the products and the bias row: block t of the output is the combine step of blocks t of the two row-indexed
  operands.  Since entry (r, c) of the combine step reads only row r of those operands, the 20 blocks, which tile the
  100000 rows, assemble to the combine step of the whole arrays.
-/
import proofs.«165646_j23587960390209_1_alg».proof.Proof.Gen.KernelIdeal.Frame
import proofs.«165646_j23587960390209_1_alg».proof.Proof.Spec
import proofs.«165646_j23587960390209_1_alg».proof.Proof.LibPlainDot
import proofs.«165646_j23587960390209_1_alg».proof.Proof.LibRowVector
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem zero_offsets0 : (![0, 0] : Fin 2 → Nat) = fun _ => 0 := funext fun a => by fin_cases a <;> rfl

/-- The body's arithmetic on a point's blocks is the combine step of the blocks: the two matrix products into a zero
    accumulator are plain sums over the contracted axis, the change of float format is the identity, the bias row is
    copied to every row. -/
theorem body0_eq (x0 x1 : Vec Ideal S5000x64 .f32) (x2 x4 : Vec Ideal S64x128 .f32) (x3 : Vec Ideal S1x128 .f32) :
    k0_pay1 (F := Ideal) x0 x1 x2 x4 x3 = Cert.Sage.combine x0 x1 x2 x4 x3 := by
  funext j
  obtain ⟨p, q, rfl⟩ : ∃ (p : Fin 5000) (q : Fin 128), j = ix2 p q := ⟨j 0, j 1, eq_ix2 j⟩
  unfold k0_pay1
  simp only [addf_apply, shapeCast_self]
  show _ = ((∑ k : Fin 64, x0 (ix2 p k) * x2 (ix2 k q)) + ∑ k : Fin 64, x1 (ix2 p k) * x4 (ix2 k q)) + x3 (ix2 0 q)
  refine congrArg₂ (· + ·) (congrArg₂ (· + ·) ?_ ?_) ?_
  · exact Cert.PlainDot.matmul_zero_apply dot_S5000x64_S64x128_S5000x128_1_0_0_1_n_n rfl none _ _ p q
  · exact Cert.PlainDot.matmul_zero_apply dot_S5000x64_S64x128_S5000x128_1_0_0_1_n_n rfl none _ _ p q
  · exact Cert.RowVector.broadcastTo_row (by decide) _ _ p q

variable (V : (c : Dev nD) → (b : Ref sig .tc) → Buf (Elt Ideal) ((c : Thread nD τ).loc b))

/-- The printed index maps over the 20 grid points: the two row-indexed operands and the output move together, block t
    at rows 5000·t …; the weights and the bias row are whole at every point. -/
theorem maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- Row p of block t of a row-indexed operand is row 5000·t + p of its array. -/
theorem rows0_0 (c : Dev nD) (t : Fin cfg0.N) (p : Fin 5000) (k : Fin 64) (r : Fin 100000) (hr : r.val = t.val * 5000 + p.val) :
    iblk0 V c 0 t (ix2 p k) = V c main_arg0 (ix2 r k) := by
  obtain ⟨e00, e01, -⟩ := maps0 t
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; rw [e00, hr]; omega
  | ⟨1, _⟩ => show win0_0.index t (1 : Fin 2) * 64 + 1 * k.val = k.val; rw [e01]; omega

theorem rows0_1 (c : Dev nD) (t : Fin cfg0.N) (p : Fin 5000) (k : Fin 64) (r : Fin 100000) (hr : r.val = t.val * 5000 + p.val) :
    iblk0 V c 1 t (ix2 p k) = V c main_v20 (ix2 r k) := by
  obtain ⟨-, -, e10, e11, -⟩ := maps0 t
  show V c main_v20 (((cfg0.win 1).blk t).view.emb (ix2 p k)) = V c main_v20 (ix2 r k)
  refine congrArg _ ?_
  funext a; apply Fin.ext
  match a with
  | ⟨0, _⟩ => show win0_1.index t (0 : Fin 2) * 5000 + 1 * p.val = r.val; rw [e10, hr]; omega
  | ⟨1, _⟩ => show win0_1.index t (1 : Fin 2) * 64 + 1 * k.val = k.val; rw [e11]; omega

/-- A whole operand's block is the operand, at every point. -/
theorem whole0_2 (c : Dev nD) (t : Fin cfg0.N) : iblk0 V c 2 t = V c main_arg3 := by
  obtain ⟨-, -, -, -, e20, e21, -⟩ := maps0 t
  funext y
  show V c main_arg3 (((cfg0.win 2).blk t).view.emb y) = V c main_arg3 y
  refine congrArg _ ?_
  funext a; apply Fin.ext
  match a with
  | ⟨0, _⟩ => show win0_2.index t (0 : Fin 2) * 64 + 1 * (y 0).val = (y 0).val; rw [e20]; omega
  | ⟨1, _⟩ => show win0_2.index t (1 : Fin 2) * 128 + 1 * (y 1).val = (y 1).val; rw [e21]; omega

theorem whole0_3 (c : Dev nD) (t : Fin cfg0.N) : iblk0 V c 3 t = V c main_v21 := by
  obtain ⟨-, -, -, -, -, -, e30, e31, -⟩ := maps0 t
  funext y
  show V c main_v21 (((cfg0.win 3).blk t).view.emb y) = V c main_v21 y
  refine congrArg _ ?_
  funext a; apply Fin.ext
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

theorem whole0_4 (c : Dev nD) (t : Fin cfg0.N) : iblk0 V c 4 t = V c main_arg5 := by
  obtain ⟨-, -, -, -, -, -, -, -, e40, e41, -⟩ := maps0 t
  funext y
  show V c main_arg5 (((cfg0.win 4).blk t).view.emb y) = V c main_arg5 y
  refine congrArg _ ?_
  funext a; apply Fin.ext
  match a with
  | ⟨0, _⟩ => show win0_4.index t (0 : Fin 2) * 64 + 1 * (y 0).val = (y 0).val; rw [e40]; omega
  | ⟨1, _⟩ => show win0_4.index t (1 : Fin 2) * 128 + 1 * (y 1).val = (y 1).val; rw [e41]; omega

/-- The combine step of the arrays as the region finds them. -/
abbrev whole0 (c : Dev nD) : S100000x128.Idx → EReal :=
  Cert.Sage.combine (V c main_arg0) (V c main_v20) (V c main_arg3) (V c main_arg5) (V c main_v21)

/-- What point t writes back is block t of the combine step of the whole arrays. -/
theorem written0 (c : Dev nD) (t : Fin cfg0.N) :
    (dat0 (F := Ideal) V c).flushed 5 t = ((cfg0.win 5).blk t).view.read (Elt Ideal) (whole0 V c) := by
  show (cfg0.win 5).cut (grid0.coords t) ((dat0 V c).after 5 t) = _
  rw [after0_5]
  unfold out0_5
  rw [View.canon_unit_zero zero_offsets0]
  simp only [View.ld_unit_zero (S := S5000x64) zero_offsets0, View.ld_unit_zero (S := S64x128) zero_offsets0,
    View.ld_unit_zero (S := S1x128) zero_offsets0]
  rw [body0_eq, whole0_2, whole0_3, whole0_4]
  obtain ⟨-, -, -, -, -, -, -, -, -, -, e50, e51, ht⟩ := maps0 t
  funext j
  have hp : (j 0).val < 5000 := (j 0).isLt
  have hq : (j 1).val < 128 := (j 1).isLt
  have hemb : ((cfg0.win 5).blk t).view.emb j = ix2 (⟨t.val * 5000 + (j 0).val, by omega⟩ : Fin 100000) (⟨(j 1).val, hq⟩ : Fin 128) := by
    funext a; apply Fin.ext
    match a with
    | ⟨0, _⟩ => show win0_5.index t (0 : Fin 2) * 5000 + 1 * (j 0).val = t.val * 5000 + (j 0).val; rw [e50]; omega
    | ⟨1, _⟩ => show win0_5.index t (1 : Fin 2) * 128 + 1 * (j 1).val = (j 1).val; rw [e51]; omega
  show Cert.Sage.combine (iblk0 V c 0 t) (iblk0 V c 1 t) (V c main_arg3) (V c main_arg5) (V c main_v21) (ix2 (⟨(j 0).val, hp⟩ : Fin 5000) (⟨(j 1).val, hq⟩ : Fin 128))
    = whole0 V c (((cfg0.win 5).blk t).view.emb j)
  rw [hemb]
  exact Cert.Sage.combine_row _ _ _ _ _ _ _ _ _ _
    (fun k => rows0_0 V c t _ k _ rfl) (fun k => rows0_1 V c t _ k _ rfl)

/-- An index of the output array is in point t's block iff its row is among the block's 5000 rows. -/
theorem block0_mem (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- THE OUTPUT ARRAY after the region: the combine step of the arrays the region was entered with. -/
theorem arr0 (c : Dev nD) : (dat0 (F := Ideal) V c).arrAt 5 cfg0.N = whole0 V c :=
  (dat0 (F := Ideal) V c).arrAt_eq_of_cover 5 (whole0 V c) (fun t _ => written0 V c t) fun i => by
    have hi0 : (i 0).val < 100000 := (i 0).isLt
    have hi1 : (i 1).val < 128 := (i 1).isLt
    have hN : cfg0.N = 20 := N_0
    let t : Fin cfg0.N := ⟨(i 0).val / 5000, by rw [hN]; omega⟩
    obtain ⟨-, -, -, -, -, -, -, -, -, -, e50, e51, -⟩ := maps0 t
    refine ⟨t, flush0_5 t, ?_⟩
    rw [block0_mem]
    intro a
    match a with
    | ⟨0, _⟩ =>
      show win0_5.index t (0 : Fin 2) * 5000 ≤ (i 0).val ∧ (i 0).val < win0_5.index t (0 : Fin 2) * 5000 + 5000
      rw [e50]; show (i 0).val / 5000 * 5000 ≤ (i 0).val ∧ (i 0).val < (i 0).val / 5000 * 5000 + 5000; omega
    | ⟨1, _⟩ =>
      show win0_5.index t (1 : Fin 2) * 128 ≤ (i 1).val ∧ (i 1).val < win0_5.index t (1 : Fin 2) * 128 + 128
      rw [e51]; omega

end Cert.KernelIdeal.Regions

end
-- ==== Proof.RegionNorm1.lean ====
/-
  The first normalisation step as one function of whole arrays.

  Region 1 walks the 100000 rows of H in 20 blocks of 5000 rows.  At every block it reads the block of H and the four
  1×128 rows (column mean, column variance, scale, shift) whole, and writes the block of
      max(((H − mean) · rsqrt(variance + eps)) · scale + shift, 0).
  Entry (p, q) of a block depends on H only through the block's entry (p, q), which is entry (5000·t + p, q) of H, and on
  the rows only through column q.  So block t of the result is block t of the normalisation of the whole array, the 20
  blocks tile the 100000 rows, and the array the region leaves is the normalisation of the whole array.
-/
import proofs.«165646_j23587960390209_1_alg».proof.Proof.Gen.KernelIdeal.Frame
import proofs.«165646_j23587960390209_1_alg».proof.Proof.Spec
import proofs.«165646_j23587960390209_1_alg».proof.Proof.LibRowVector
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe
open Idealize.ShloMosaic.ValueIdx Idealize.SL.Sem
open Idealize.ShloMosaic.Pipeline (Dat)

/-! ## The arithmetic of one block -/

/-- Entry (p, q) of what one block's arithmetic produces: every row operand is copied down the 5000 rows, so it
    enters through its entry (0, q); the remaining operations act entry by entry. -/
theorem norm1_payload_at (x0 : Vec Ideal S5000x128 .f32) (x1 x2 x3 x4 : Vec Ideal S1x128 .f32)
    (p : Fin 5000) (q : Fin 128) :
    k1_pay1 x0 x1 x2 x3 x4 (ix2 p q) = Cert.Sage.bnrelu x0 x1 x2 x3 x4 (ix2 p q) := by
  have hb : ∀ v : Vec Ideal S1x128 .f32,
      broadcastTo S5000x128 v broadcasts_S1x128_S5000x128 (ix2 p q) = v (ix2 0 q) :=
    fun v => Cert.RowVector.broadcastTo_row (by decide) v _ p q
  unfold k1_pay1
  simp only [shapeCast_self, maximumf_apply, addf_apply, mulf_apply, subf_apply, hb]
  rfl

/-- One block's arithmetic is the normalisation of the block by the four rows. -/
theorem norm1_payload (x0 : Vec Ideal S5000x128 .f32) (x1 x2 x3 x4 : Vec Ideal S1x128 .f32) :
    k1_pay1 x0 x1 x2 x3 x4 = Cert.Sage.bnrelu x0 x1 x2 x3 x4 := by
  funext j
  obtain ⟨p, q, rfl⟩ : ∃ (p : Fin 5000) (q : Fin 128), j = ix2 p q := ⟨j 0, j 1, eq_ix2 j⟩
  exact norm1_payload_at x0 x1 x2 x3 x4 p q

/-- A row block of the normalised array: entry (p, q) of the block's normalisation is entry (r, q) of the whole
    array's, when the block's entry (p, q) is the array's entry (r, q) and the per-column rows are the same. -/
theorem norm1_block_entry {H : S100000x128.Idx → EReal} {mu var g be : S1x128.Idx → EReal}
    {H' : S5000x128.Idx → EReal} {mu' var' g' be' : S1x128.Idx → EReal} (p : Fin 5000) (q : Fin 128)
    (i : S100000x128.Idx) (r : Fin 100000) (hi : i = ix2 r q)
    (hH : H' (ix2 p q) = H i) (hmu : mu' = mu) (hvar : var' = var) (hg : g' = g) (hbe : be' = be) :
    Cert.Sage.bnrelu H' mu' var' g' be' (ix2 p q) = Cert.Sage.bnrelu H mu var g be i := by
  subst hi hmu hvar hg hbe
  exact Cert.Sage.bnrelu_row H' H _ _ _ _ p r q hH

/-! ## Where the blocks sit -/

variable (V : (c : Dev nD) → (b : Ref sig .tc) → Buf (Elt Ideal) ((c : Thread nD τ).loc b))

/-- The offsets (0, 0), spelt as a constant function. -/
theorem norm1_offsets_zero : (![0, 0] : Fin 2 → Nat) = fun _ => 0 := funext fun a => by fin_cases a <;> rfl

/-- The block index maps, over the 20 grid points: the block of H read and the block written have the same row-block
    index and column-block index 0; each of the four rows is read at block (0, 0); there are at most 20 row blocks. -/
theorem norm1_index_maps : ∀ t : Fin cfg1.N,
    win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 :=
  (by decide +kernel : ∀ t : Fin grid1.N, _)

/-- Every one of the 20 row blocks is some grid point's. -/
theorem norm1_index_onto : ∀ q0 : Fin 20, ∃ t : Fin cfg1.N, win1_5.index t = ![q0.val, 0] :=
  (by decide +kernel : ∀ q0 : Fin 20, ∃ t : Fin grid1.N, win1_5.index t = ![q0.val, 0])

/-! ## What a grid point writes back -/

/-- Grid point t writes back block t of the normalisation of the whole array H by the four whole rows: a block's
    coordinate is (block index) × (block size) + (the coordinate inside the block) on each axis. -/
theorem norm1_written_back (c : Dev nD) (t : Fin cfg1.N) :
    (dat1 (F := Ideal) V c).flushed 5 t = ((cfg1.win 5).blk t).view.read (Elt Ideal)
      (Cert.Sage.bnrelu (V c main_v22 : S100000x128.Idx → EReal) (V c main_v33 : S1x128.Idx → EReal)
        (V c main_v34 : S1x128.Idx → EReal) (V c main_v35 : S1x128.Idx → EReal)
        (V c main_v36 : S1x128.Idx → EReal)) := by
  show (cfg1.win 5).cut (grid1.coords t) ((dat1 V c).after 5 t) = _
  rw [after1_5]
  unfold out1_5
  rw [View.canon_unit_zero norm1_offsets_zero]
  simp only [View.ld_unit_zero (S := S5000x128) norm1_offsets_zero, View.ld_unit_zero (S := S1x128) norm1_offsets_zero]
  rw [norm1_payload]
  obtain ⟨e0, e1, e2, e3, e4, e5, e6, e7, e8, e9, e10, e11⟩ := norm1_index_maps t
  funext j
  obtain ⟨p, q, rfl⟩ : ∃ (p : Fin 5000) (q : Fin 128), j = ix2 p q := ⟨j 0, j 1, eq_ix2 j⟩
  have hp : p.val < 5000 := p.isLt
  have hq : q.val < 128 := q.isLt
  show Cert.Sage.bnrelu (iblk1 V c 0 t) (iblk1 V c 1 t) (iblk1 V c 2 t) (iblk1 V c 3 t) (iblk1 V c 4 t) (ix2 p q)
    = Cert.Sage.bnrelu (V c main_v22) (V c main_v33) (V c main_v34) (V c main_v35) (V c main_v36)
        (((cfg1.win 5).blk t).view.emb (ix2 p q))
  refine norm1_block_entry p q _ ⟨win1_5.index t (0 : Fin 2) * 5000 + p.val, by omega⟩ ?_ ?_ ?_ ?_ ?_ ?_
  · -- the written entry sits at row 5000·t + p, column q
    funext a; apply Fin.ext
    match a with
    | ⟨0, _⟩ =>
      show win1_5.index t (0 : Fin 2) * 5000 + 1 * p.val = win1_5.index t (0 : Fin 2) * 5000 + p.val
      omega
    | ⟨1, _⟩ => show win1_5.index t (1 : Fin 2) * 128 + 1 * q.val = q.val; omega
  · -- the block of H read is the block written
    show V c main_v22 (((cfg1.win 0).blk t).view.emb (ix2 p q)) = V c main_v22 (((cfg1.win 5).blk t).view.emb (ix2 p q))
    refine congrArg _ ?_
    funext a; apply Fin.ext
    match a with
    | ⟨0, _⟩ =>
      show win1_0.index t (0 : Fin 2) * 5000 + 1 * p.val = win1_5.index t (0 : Fin 2) * 5000 + 1 * p.val
      omega
    | ⟨1, _⟩ =>
      show win1_0.index t (1 : Fin 2) * 128 + 1 * q.val = win1_5.index t (1 : Fin 2) * 128 + 1 * q.val
      omega
  · -- the mean row is read whole
    funext y
    show V c main_v33 (((cfg1.win 1).blk t).view.emb y) = V c main_v33 y
    refine congrArg _ ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  · -- the variance row is read whole
    funext y
    show V c main_v34 (((cfg1.win 2).blk t).view.emb y) = V c main_v34 y
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  · -- the scale row is read whole
    funext y
    show V c main_v35 (((cfg1.win 3).blk t).view.emb y) = V c main_v35 y
    refine congrArg _ ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · -- the shift row is read whole
    funext y
    show V c main_v36 (((cfg1.win 4).blk t).view.emb y) = V c main_v36 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega

/-! ## The blocks tile the array -/

/-- An entry lies in grid point t's block iff each coordinate lies in the block's range on its axis. -/
theorem norm1_mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v37).slice (win1_5.rect t)).set ↔ _
  rw [View.set_slice_whole, Rect.mem_set_unit]
  exact Iff.rfl

/-- Row r lies in row block r / 5000, which some grid point writes back. -/
theorem norm1_blocks_cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := norm1_index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [norm1_mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-! ## The array the region leaves -/

/-- After the last grid point the output array is the normalisation of the whole array H, as the region found it, by
    the four rows as the region found them. -/
theorem arr1 (c : Dev nD) : (dat1 (F := Ideal) V c).arrAt 5 cfg1.N
    = Cert.Sage.bnrelu (V c main_v22 : S100000x128.Idx → EReal) (V c main_v33 : S1x128.Idx → EReal)
        (V c main_v34 : S1x128.Idx → EReal) (V c main_v35 : S1x128.Idx → EReal)
        (V c main_v36 : S1x128.Idx → EReal) :=
  (dat1 V c).arrAt_eq_of_cover 5 _ (fun t _ => norm1_written_back V c t) norm1_blocks_cover

end Cert.KernelIdeal.Regions

end
-- ==== Proof.RegionCombine2.lean ====
/-
  Region 2 of the kernel: the dense combine step, one row block of 5000 nodes per grid point.

  A point's body multiplies its block of node features and its block of neighbour means by the two weight matrices,
  adds the products and the bias row: block t of the output is the combine step of blocks t of the two row-indexed
  operands.  Since entry (r, c) of the combine step reads only row r of those operands, the 20 blocks, which tile the
  100000 rows, assemble to the combine step of the whole arrays.
-/
import proofs.«165646_j23587960390209_1_alg».proof.Proof.Gen.KernelIdeal.Frame
import proofs.«165646_j23587960390209_1_alg».proof.Proof.Spec
import proofs.«165646_j23587960390209_1_alg».proof.Proof.LibPlainDot
import proofs.«165646_j23587960390209_1_alg».proof.Proof.LibRowVector
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem zero_offsets2 : (![0, 0] : Fin 2 → Nat) = fun _ => 0 := funext fun a => by fin_cases a <;> rfl

/-- The body's arithmetic on a point's blocks is the combine step of the blocks: the two matrix products into a zero
    accumulator are plain sums over the contracted axis, the change of float format is the identity, the bias row is
    copied to every row. -/
theorem body2_eq (x0 x1 : Vec Ideal S5000x128 .f32) (x2 x4 : Vec Ideal S128x128 .f32) (x3 : Vec Ideal S1x128 .f32) :
    k2_pay1 (F := Ideal) x0 x1 x2 x4 x3 = Cert.Sage.combine x0 x1 x2 x4 x3 := by
  funext j
  obtain ⟨p, q, rfl⟩ : ∃ (p : Fin 5000) (q : Fin 128), j = ix2 p q := ⟨j 0, j 1, eq_ix2 j⟩
  unfold k2_pay1
  simp only [addf_apply, shapeCast_self]
  show _ = ((∑ k : Fin 128, x0 (ix2 p k) * x2 (ix2 k q)) + ∑ k : Fin 128, x1 (ix2 p k) * x4 (ix2 k q)) + x3 (ix2 0 q)
  refine congrArg₂ (· + ·) (congrArg₂ (· + ·) ?_ ?_) ?_
  · exact Cert.PlainDot.matmul_zero_apply dot_S5000x128_S128x128_S5000x128_1_0_0_1_n_n rfl none _ _ p q
  · exact Cert.PlainDot.matmul_zero_apply dot_S5000x128_S128x128_S5000x128_1_0_0_1_n_n rfl none _ _ p q
  · exact Cert.RowVector.broadcastTo_row (by decide) _ _ p q

variable (V : (c : Dev nD) → (b : Ref sig .tc) → Buf (Elt Ideal) ((c : Thread nD τ).loc b))

/-- The printed index maps over the 20 grid points: the two row-indexed operands and the output move together, block t
    at rows 5000·t …; the weights and the bias row are whole at every point. -/
theorem maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 20 :=
  (by decide +kernel : ∀ t : Fin grid2.N, _)

/-- Row p of block t of a row-indexed operand is row 5000·t + p of its array. -/
theorem rows2_0 (c : Dev nD) (t : Fin cfg2.N) (p : Fin 5000) (k : Fin 128) (r : Fin 100000) (hr : r.val = t.val * 5000 + p.val) :
    iblk2 V c 0 t (ix2 p k) = V c main_v37 (ix2 r k) := by
  obtain ⟨e00, e01, -⟩ := maps2 t
  show V c main_v37 (((cfg2.win 0).blk t).view.emb (ix2 p k)) = V c main_v37 (ix2 r k)
  refine congrArg _ ?_
  funext a; apply Fin.ext
  match a with
  | ⟨0, _⟩ => show win2_0.index t (0 : Fin 2) * 5000 + 1 * p.val = r.val; rw [e00, hr]; omega
  | ⟨1, _⟩ => show win2_0.index t (1 : Fin 2) * 128 + 1 * k.val = k.val; rw [e01]; omega

theorem rows2_1 (c : Dev nD) (t : Fin cfg2.N) (p : Fin 5000) (k : Fin 128) (r : Fin 100000) (hr : r.val = t.val * 5000 + p.val) :
    iblk2 V c 1 t (ix2 p k) = V c main_v50 (ix2 r k) := by
  obtain ⟨-, -, e10, e11, -⟩ := maps2 t
  show V c main_v50 (((cfg2.win 1).blk t).view.emb (ix2 p k)) = V c main_v50 (ix2 r k)
  refine congrArg _ ?_
  funext a; apply Fin.ext
  match a with
  | ⟨0, _⟩ => show win2_1.index t (0 : Fin 2) * 5000 + 1 * p.val = r.val; rw [e10, hr]; omega
  | ⟨1, _⟩ => show win2_1.index t (1 : Fin 2) * 128 + 1 * k.val = k.val; rw [e11]; omega

/-- A whole operand's block is the operand, at every point. -/
theorem whole2_2 (c : Dev nD) (t : Fin cfg2.N) : iblk2 V c 2 t = V c main_arg8 := by
  obtain ⟨-, -, -, -, e20, e21, -⟩ := maps2 t
  funext y
  show V c main_arg8 (((cfg2.win 2).blk t).view.emb y) = V c main_arg8 y
  refine congrArg _ ?_
  funext a; apply Fin.ext
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega

theorem whole2_3 (c : Dev nD) (t : Fin cfg2.N) : iblk2 V c 3 t = V c main_v51 := by
  obtain ⟨-, -, -, -, -, -, e30, e31, -⟩ := maps2 t
  funext y
  show V c main_v51 (((cfg2.win 3).blk t).view.emb y) = V c main_v51 y
  refine congrArg _ ?_
  funext a; apply Fin.ext
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega

theorem whole2_4 (c : Dev nD) (t : Fin cfg2.N) : iblk2 V c 4 t = V c main_arg10 := by
  obtain ⟨-, -, -, -, -, -, -, -, e40, e41, -⟩ := maps2 t
  funext y
  show V c main_arg10 (((cfg2.win 4).blk t).view.emb y) = V c main_arg10 y
  refine congrArg _ ?_
  funext a; apply Fin.ext
  match a with
  | ⟨0, _⟩ => show win2_4.index t (0 : Fin 2) * 128 + 1 * (y 0).val = (y 0).val; rw [e40]; omega
  | ⟨1, _⟩ => show win2_4.index t (1 : Fin 2) * 128 + 1 * (y 1).val = (y 1).val; rw [e41]; omega

/-- The combine step of the arrays as the region finds them. -/
abbrev whole2 (c : Dev nD) : S100000x128.Idx → EReal :=
  Cert.Sage.combine (V c main_v37) (V c main_v50) (V c main_arg8) (V c main_arg10) (V c main_v51)

/-- What point t writes back is block t of the combine step of the whole arrays. -/
theorem written2 (c : Dev nD) (t : Fin cfg2.N) :
    (dat2 (F := Ideal) V c).flushed 5 t = ((cfg2.win 5).blk t).view.read (Elt Ideal) (whole2 V c) := by
  show (cfg2.win 5).cut (grid2.coords t) ((dat2 V c).after 5 t) = _
  rw [after2_5]
  unfold out2_5
  rw [View.canon_unit_zero zero_offsets2]
  simp only [View.ld_unit_zero (S := S5000x128) zero_offsets2, View.ld_unit_zero (S := S128x128) zero_offsets2,
    View.ld_unit_zero (S := S1x128) zero_offsets2]
  rw [body2_eq, whole2_2, whole2_3, whole2_4]
  obtain ⟨-, -, -, -, -, -, -, -, -, -, e50, e51, ht⟩ := maps2 t
  funext j
  have hp : (j 0).val < 5000 := (j 0).isLt
  have hq : (j 1).val < 128 := (j 1).isLt
  have hemb : ((cfg2.win 5).blk t).view.emb j = ix2 (⟨t.val * 5000 + (j 0).val, by omega⟩ : Fin 100000) (⟨(j 1).val, hq⟩ : Fin 128) := by
    funext a; apply Fin.ext
    match a with
    | ⟨0, _⟩ => show win2_5.index t (0 : Fin 2) * 5000 + 1 * (j 0).val = t.val * 5000 + (j 0).val; rw [e50]; omega
    | ⟨1, _⟩ => show win2_5.index t (1 : Fin 2) * 128 + 1 * (j 1).val = (j 1).val; rw [e51]; omega
  show Cert.Sage.combine (iblk2 V c 0 t) (iblk2 V c 1 t) (V c main_arg8) (V c main_arg10) (V c main_v51) (ix2 (⟨(j 0).val, hp⟩ : Fin 5000) (⟨(j 1).val, hq⟩ : Fin 128))
    = whole2 V c (((cfg2.win 5).blk t).view.emb j)
  rw [hemb]
  exact Cert.Sage.combine_row _ _ _ _ _ _ _ _ _ _
    (fun k => rows2_0 V c t _ k _ rfl) (fun k => rows2_1 V c t _ k _ rfl)

/-- An index of the output array is in point t's block iff its row is among the block's 5000 rows. -/
theorem block2_mem (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v52).slice (win2_5.rect t)).set ↔ _
  rw [View.set_slice_whole, Rect.mem_set_unit]
  exact Iff.rfl

/-- THE OUTPUT ARRAY after the region: the combine step of the arrays the region was entered with. -/
theorem arr2 (c : Dev nD) : (dat2 (F := Ideal) V c).arrAt 5 cfg2.N = whole2 V c :=
  (dat2 (F := Ideal) V c).arrAt_eq_of_cover 5 (whole2 V c) (fun t _ => written2 V c t) fun i => by
    have hi0 : (i 0).val < 100000 := (i 0).isLt
    have hi1 : (i 1).val < 128 := (i 1).isLt
    have hN : cfg2.N = 20 := N_2
    let t : Fin cfg2.N := ⟨(i 0).val / 5000, by rw [hN]; omega⟩
    obtain ⟨-, -, -, -, -, -, -, -, -, -, e50, e51, -⟩ := maps2 t
    refine ⟨t, flush2_5 t, ?_⟩
    rw [block2_mem]
    intro a
    match a with
    | ⟨0, _⟩ =>
      show win2_5.index t (0 : Fin 2) * 5000 ≤ (i 0).val ∧ (i 0).val < win2_5.index t (0 : Fin 2) * 5000 + 5000
      rw [e50]; show (i 0).val / 5000 * 5000 ≤ (i 0).val ∧ (i 0).val < (i 0).val / 5000 * 5000 + 5000; omega
    | ⟨1, _⟩ =>
      show win2_5.index t (1 : Fin 2) * 128 ≤ (i 1).val ∧ (i 1).val < win2_5.index t (1 : Fin 2) * 128 + 128
      rw [e51]; omega

end Cert.KernelIdeal.Regions

end
-- ==== Proof.RegionNorm3.lean ====
/-
  The second normalisation step as one function of whole arrays.

  Region 3 walks the 100000 rows of H in 20 blocks of 5000 rows.  At every block it reads the block of H and the four
  1×128 rows (column mean, column variance, scale, shift) whole, and writes the block of
      max(((H − mean) · rsqrt(variance + eps)) · scale + shift, 0).
  Entry (p, q) of a block depends on H only through the block's entry (p, q), which is entry (5000·t + p, q) of H, and on
  the rows only through column q.  So block t of the result is block t of the normalisation of the whole array, the 20
  blocks tile the 100000 rows, and the array the region leaves is the normalisation of the whole array.
-/
import proofs.«165646_j23587960390209_1_alg».proof.Proof.Gen.KernelIdeal.Frame
import proofs.«165646_j23587960390209_1_alg».proof.Proof.Spec
import proofs.«165646_j23587960390209_1_alg».proof.Proof.LibRowVector
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe
open Idealize.ShloMosaic.ValueIdx Idealize.SL.Sem
open Idealize.ShloMosaic.Pipeline (Dat)

/-! ## The arithmetic of one block -/

/-- Entry (p, q) of what one block's arithmetic produces: every row operand is copied down the 5000 rows, so it
    enters through its entry (0, q); the remaining operations act entry by entry. -/
theorem norm3_payload_at (x0 : Vec Ideal S5000x128 .f32) (x1 x2 x3 x4 : Vec Ideal S1x128 .f32)
    (p : Fin 5000) (q : Fin 128) :
    k3_pay1 x0 x1 x2 x3 x4 (ix2 p q) = Cert.Sage.bnrelu x0 x1 x2 x3 x4 (ix2 p q) := by
  have hb : ∀ v : Vec Ideal S1x128 .f32,
      broadcastTo S5000x128 v broadcasts_S1x128_S5000x128 (ix2 p q) = v (ix2 0 q) :=
    fun v => Cert.RowVector.broadcastTo_row (by decide) v _ p q
  unfold k3_pay1
  simp only [shapeCast_self, maximumf_apply, addf_apply, mulf_apply, subf_apply, hb]
  rfl

/-- One block's arithmetic is the normalisation of the block by the four rows. -/
theorem norm3_payload (x0 : Vec Ideal S5000x128 .f32) (x1 x2 x3 x4 : Vec Ideal S1x128 .f32) :
    k3_pay1 x0 x1 x2 x3 x4 = Cert.Sage.bnrelu x0 x1 x2 x3 x4 := by
  funext j
  obtain ⟨p, q, rfl⟩ : ∃ (p : Fin 5000) (q : Fin 128), j = ix2 p q := ⟨j 0, j 1, eq_ix2 j⟩
  exact norm3_payload_at x0 x1 x2 x3 x4 p q

/-- A row block of the normalised array: entry (p, q) of the block's normalisation is entry (r, q) of the whole
    array's, when the block's entry (p, q) is the array's entry (r, q) and the per-column rows are the same. -/
theorem norm3_block_entry {H : S100000x128.Idx → EReal} {mu var g be : S1x128.Idx → EReal}
    {H' : S5000x128.Idx → EReal} {mu' var' g' be' : S1x128.Idx → EReal} (p : Fin 5000) (q : Fin 128)
    (i : S100000x128.Idx) (r : Fin 100000) (hi : i = ix2 r q)
    (hH : H' (ix2 p q) = H i) (hmu : mu' = mu) (hvar : var' = var) (hg : g' = g) (hbe : be' = be) :
    Cert.Sage.bnrelu H' mu' var' g' be' (ix2 p q) = Cert.Sage.bnrelu H mu var g be i := by
  subst hi hmu hvar hg hbe
  exact Cert.Sage.bnrelu_row H' H _ _ _ _ p r q hH

/-! ## Where the blocks sit -/

variable (V : (c : Dev nD) → (b : Ref sig .tc) → Buf (Elt Ideal) ((c : Thread nD τ).loc b))

/-- The offsets (0, 0), spelt as a constant function. -/
theorem norm3_offsets_zero : (![0, 0] : Fin 2 → Nat) = fun _ => 0 := funext fun a => by fin_cases a <;> rfl

/-- The block index maps, over the 20 grid points: the block of H read and the block written have the same row-block
    index and column-block index 0; each of the four rows is read at block (0, 0); there are at most 20 row blocks. -/
theorem norm3_index_maps : ∀ t : Fin cfg3.N,
    win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 19 :=
  (by decide +kernel : ∀ t : Fin grid3.N, _)

/-- Every one of the 20 row blocks is some grid point's. -/
theorem norm3_index_onto : ∀ q0 : Fin 20, ∃ t : Fin cfg3.N, win3_5.index t = ![q0.val, 0] :=
  (by decide +kernel : ∀ q0 : Fin 20, ∃ t : Fin grid3.N, win3_5.index t = ![q0.val, 0])

/-! ## What a grid point writes back -/

/-- Grid point t writes back block t of the normalisation of the whole array H by the four whole rows: a block's
    coordinate is (block index) × (block size) + (the coordinate inside the block) on each axis. -/
theorem norm3_written_back (c : Dev nD) (t : Fin cfg3.N) :
    (dat3 (F := Ideal) V c).flushed 5 t = ((cfg3.win 5).blk t).view.read (Elt Ideal)
      (Cert.Sage.bnrelu (V c main_v52 : S100000x128.Idx → EReal) (V c main_v63 : S1x128.Idx → EReal)
        (V c main_v64 : S1x128.Idx → EReal) (V c main_v65 : S1x128.Idx → EReal)
        (V c main_v66 : S1x128.Idx → EReal)) := by
  show (cfg3.win 5).cut (grid3.coords t) ((dat3 V c).after 5 t) = _
  rw [after3_5]
  unfold out3_5
  rw [View.canon_unit_zero norm3_offsets_zero]
  simp only [View.ld_unit_zero (S := S5000x128) norm3_offsets_zero, View.ld_unit_zero (S := S1x128) norm3_offsets_zero]
  rw [norm3_payload]
  obtain ⟨e0, e1, e2, e3, e4, e5, e6, e7, e8, e9, e10, e11⟩ := norm3_index_maps t
  funext j
  obtain ⟨p, q, rfl⟩ : ∃ (p : Fin 5000) (q : Fin 128), j = ix2 p q := ⟨j 0, j 1, eq_ix2 j⟩
  have hp : p.val < 5000 := p.isLt
  have hq : q.val < 128 := q.isLt
  show Cert.Sage.bnrelu (iblk3 V c 0 t) (iblk3 V c 1 t) (iblk3 V c 2 t) (iblk3 V c 3 t) (iblk3 V c 4 t) (ix2 p q)
    = Cert.Sage.bnrelu (V c main_v52) (V c main_v63) (V c main_v64) (V c main_v65) (V c main_v66)
        (((cfg3.win 5).blk t).view.emb (ix2 p q))
  refine norm3_block_entry p q _ ⟨win3_5.index t (0 : Fin 2) * 5000 + p.val, by omega⟩ ?_ ?_ ?_ ?_ ?_ ?_
  · -- the written entry sits at row 5000·t + p, column q
    funext a; apply Fin.ext
    match a with
    | ⟨0, _⟩ =>
      show win3_5.index t (0 : Fin 2) * 5000 + 1 * p.val = win3_5.index t (0 : Fin 2) * 5000 + p.val
      omega
    | ⟨1, _⟩ => show win3_5.index t (1 : Fin 2) * 128 + 1 * q.val = q.val; omega
  · -- the block of H read is the block written
    show V c main_v52 (((cfg3.win 0).blk t).view.emb (ix2 p q)) = V c main_v52 (((cfg3.win 5).blk t).view.emb (ix2 p q))
    refine congrArg _ ?_
    funext a; apply Fin.ext
    match a with
    | ⟨0, _⟩ =>
      show win3_0.index t (0 : Fin 2) * 5000 + 1 * p.val = win3_5.index t (0 : Fin 2) * 5000 + 1 * p.val
      omega
    | ⟨1, _⟩ =>
      show win3_0.index t (1 : Fin 2) * 128 + 1 * q.val = win3_5.index t (1 : Fin 2) * 128 + 1 * q.val
      omega
  · -- the mean row is read whole
    funext y
    show V c main_v63 (((cfg3.win 1).blk t).view.emb y) = V c main_v63 y
    refine congrArg _ ?_
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  · -- the variance row is read whole
    funext y
    show V c main_v64 (((cfg3.win 2).blk t).view.emb y) = V c main_v64 y
    refine congrArg _ ?_
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  · -- the scale row is read whole
    funext y
    show V c main_v65 (((cfg3.win 3).blk t).view.emb y) = V c main_v65 y
    refine congrArg _ ?_
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  · -- the shift row is read whole
    funext y
    show V c main_v66 (((cfg3.win 4).blk t).view.emb y) = V c main_v66 y
    refine congrArg _ ?_
    funext a; apply Fin.ext
    match a with
    | ⟨0, _⟩ => show win3_4.index t (0 : Fin 2) * 1 + 1 * (y 0).val = (y 0).val; omega
    | ⟨1, _⟩ => show win3_4.index t (1 : Fin 2) * 128 + 1 * (y 1).val = (y 1).val; omega

/-! ## The blocks tile the array -/

/-- An entry lies in grid point t's block iff each coordinate lies in the block's range on its axis. -/
theorem norm3_mem_block (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v67).slice (win3_5.rect t)).set ↔ _
  rw [View.set_slice_whole, Rect.mem_set_unit]
  exact Iff.rfl

/-- Row r lies in row block r / 5000, which some grid point writes back. -/
theorem norm3_blocks_cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := norm3_index_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [norm3_mem_block]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-! ## The array the region leaves -/

/-- After the last grid point the output array is the normalisation of the whole array H, as the region found it, by
    the four rows as the region found them. -/
theorem arr3 (c : Dev nD) : (dat3 (F := Ideal) V c).arrAt 5 cfg3.N
    = Cert.Sage.bnrelu (V c main_v52 : S100000x128.Idx → EReal) (V c main_v63 : S1x128.Idx → EReal)
        (V c main_v64 : S1x128.Idx → EReal) (V c main_v65 : S1x128.Idx → EReal)
        (V c main_v66 : S1x128.Idx → EReal) :=
  (dat3 V c).arrAt_eq_of_cover 5 _ (fun t _ => norm3_written_back V c t) norm3_blocks_cover

end Cert.KernelIdeal.Regions

end
-- ==== Proof.RegionCombine4.lean ====
/-
  Region 4 of the kernel: the dense combine step, one row block of 5000 nodes per grid point.

  A point's body multiplies its block of node features and its block of neighbour means by the two weight matrices,
  adds the products and the bias row: block t of the output is the combine step of blocks t of the two row-indexed
  operands.  Since entry (r, c) of the combine step reads only row r of those operands, the 20 blocks, which tile the
  100000 rows, assemble to the combine step of the whole arrays.
-/
import proofs.«165646_j23587960390209_1_alg».proof.Proof.Gen.KernelIdeal.Frame
import proofs.«165646_j23587960390209_1_alg».proof.Proof.Spec
import proofs.«165646_j23587960390209_1_alg».proof.Proof.LibPlainDot
import proofs.«165646_j23587960390209_1_alg».proof.Proof.LibRowVector
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)
open scoped BigOperators

theorem zero_offsets4 : (![0, 0] : Fin 2 → Nat) = fun _ => 0 := funext fun a => by fin_cases a <;> rfl

/-- The body's arithmetic on a point's blocks is the combine step of the blocks: the two matrix products into a zero
    accumulator are plain sums over the contracted axis, the change of float format is the identity, the bias row is
    copied to every row. -/
theorem body4_eq (x0 x1 : Vec Ideal S5000x128 .f32) (x2 x4 : Vec Ideal S128x128 .f32) (x3 : Vec Ideal S1x128 .f32) :
    k4_pay1 (F := Ideal) x0 x1 x2 x4 x3 = Cert.Sage.combine x0 x1 x2 x4 x3 := by
  funext j
  obtain ⟨p, q, rfl⟩ : ∃ (p : Fin 5000) (q : Fin 128), j = ix2 p q := ⟨j 0, j 1, eq_ix2 j⟩
  unfold k4_pay1
  simp only [addf_apply, shapeCast_self]
  show _ = ((∑ k : Fin 128, x0 (ix2 p k) * x2 (ix2 k q)) + ∑ k : Fin 128, x1 (ix2 p k) * x4 (ix2 k q)) + x3 (ix2 0 q)
  refine congrArg₂ (· + ·) (congrArg₂ (· + ·) ?_ ?_) ?_
  · exact Cert.PlainDot.matmul_zero_apply dot_S5000x128_S128x128_S5000x128_1_0_0_1_n_n rfl none _ _ p q
  · exact Cert.PlainDot.matmul_zero_apply dot_S5000x128_S128x128_S5000x128_1_0_0_1_n_n rfl none _ _ p q
  · exact Cert.RowVector.broadcastTo_row (by decide) _ _ p q

variable (V : (c : Dev nD) → (b : Ref sig .tc) → Buf (Elt Ideal) ((c : Thread nD τ).loc b))

/-- The printed index maps over the 20 grid points: the two row-indexed operands and the output move together, block t
    at rows 5000·t …; the weights and the bias row are whole at every point. -/
theorem maps4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 20 :=
  (by decide +kernel : ∀ t : Fin grid4.N, _)

/-- Row p of block t of a row-indexed operand is row 5000·t + p of its array. -/
theorem rows4_0 (c : Dev nD) (t : Fin cfg4.N) (p : Fin 5000) (k : Fin 128) (r : Fin 100000) (hr : r.val = t.val * 5000 + p.val) :
    iblk4 V c 0 t (ix2 p k) = V c main_v67 (ix2 r k) := by
  obtain ⟨e00, e01, -⟩ := maps4 t
  show V c main_v67 (((cfg4.win 0).blk t).view.emb (ix2 p k)) = V c main_v67 (ix2 r k)
  refine congrArg _ ?_
  funext a; apply Fin.ext
  match a with
  | ⟨0, _⟩ => show win4_0.index t (0 : Fin 2) * 5000 + 1 * p.val = r.val; rw [e00, hr]; omega
  | ⟨1, _⟩ => show win4_0.index t (1 : Fin 2) * 128 + 1 * k.val = k.val; rw [e01]; omega

theorem rows4_1 (c : Dev nD) (t : Fin cfg4.N) (p : Fin 5000) (k : Fin 128) (r : Fin 100000) (hr : r.val = t.val * 5000 + p.val) :
    iblk4 V c 1 t (ix2 p k) = V c main_v80 (ix2 r k) := by
  obtain ⟨-, -, e10, e11, -⟩ := maps4 t
  show V c main_v80 (((cfg4.win 1).blk t).view.emb (ix2 p k)) = V c main_v80 (ix2 r k)
  refine congrArg _ ?_
  funext a; apply Fin.ext
  match a with
  | ⟨0, _⟩ => show win4_1.index t (0 : Fin 2) * 5000 + 1 * p.val = r.val; rw [e10, hr]; omega
  | ⟨1, _⟩ => show win4_1.index t (1 : Fin 2) * 128 + 1 * k.val = k.val; rw [e11]; omega

/-- A whole operand's block is the operand, at every point. -/
theorem whole4_2 (c : Dev nD) (t : Fin cfg4.N) : iblk4 V c 2 t = V c main_arg13 := by
  obtain ⟨-, -, -, -, e20, e21, -⟩ := maps4 t
  funext y
  show V c main_arg13 (((cfg4.win 2).blk t).view.emb y) = V c main_arg13 y
  refine congrArg _ ?_
  funext a; apply Fin.ext
  match a with
  | ⟨0, _⟩ => show win4_2.index t (0 : Fin 2) * 128 + 1 * (y 0).val = (y 0).val; rw [e20]; omega
  | ⟨1, _⟩ => show win4_2.index t (1 : Fin 2) * 128 + 1 * (y 1).val = (y 1).val; rw [e21]; omega

theorem whole4_3 (c : Dev nD) (t : Fin cfg4.N) : iblk4 V c 3 t = V c main_v81 := by
  obtain ⟨-, -, -, -, -, -, e30, e31, -⟩ := maps4 t
  funext y
  show V c main_v81 (((cfg4.win 3).blk t).view.emb y) = V c main_v81 y
  refine congrArg _ ?_
  funext a; apply Fin.ext
  match a with
  | ⟨0, _⟩ => show win4_3.index t (0 : Fin 2) * 1 + 1 * (y 0).val = (y 0).val; rw [e30]; omega
  | ⟨1, _⟩ => show win4_3.index t (1 : Fin 2) * 128 + 1 * (y 1).val = (y 1).val; rw [e31]; omega

theorem whole4_4 (c : Dev nD) (t : Fin cfg4.N) : iblk4 V c 4 t = V c main_arg15 := by
  obtain ⟨-, -, -, -, -, -, -, -, e40, e41, -⟩ := maps4 t
  funext y
  show V c main_arg15 (((cfg4.win 4).blk t).view.emb y) = V c main_arg15 y
  refine congrArg _ ?_
  funext a; apply Fin.ext
  match a with
  | ⟨0, _⟩ => show win4_4.index t (0 : Fin 2) * 128 + 1 * (y 0).val = (y 0).val; rw [e40]; omega
  | ⟨1, _⟩ => show win4_4.index t (1 : Fin 2) * 128 + 1 * (y 1).val = (y 1).val; rw [e41]; omega

/-- The combine step of the arrays as the region finds them. -/
abbrev whole4 (c : Dev nD) : S100000x128.Idx → EReal :=
  Cert.Sage.combine (V c main_v67) (V c main_v80) (V c main_arg13) (V c main_arg15) (V c main_v81)

/-- What point t writes back is block t of the combine step of the whole arrays. -/
theorem written4 (c : Dev nD) (t : Fin cfg4.N) :
    (dat4 (F := Ideal) V c).flushed 5 t = ((cfg4.win 5).blk t).view.read (Elt Ideal) (whole4 V c) := by
  show (cfg4.win 5).cut (grid4.coords t) ((dat4 V c).after 5 t) = _
  rw [after4_5]
  unfold out4_5
  rw [View.canon_unit_zero zero_offsets4]
  simp only [View.ld_unit_zero (S := S5000x128) zero_offsets4, View.ld_unit_zero (S := S128x128) zero_offsets4,
    View.ld_unit_zero (S := S1x128) zero_offsets4]
  rw [body4_eq, whole4_2, whole4_3, whole4_4]
  obtain ⟨-, -, -, -, -, -, -, -, -, -, e50, e51, ht⟩ := maps4 t
  funext j
  have hp : (j 0).val < 5000 := (j 0).isLt
  have hq : (j 1).val < 128 := (j 1).isLt
  have hemb : ((cfg4.win 5).blk t).view.emb j = ix2 (⟨t.val * 5000 + (j 0).val, by omega⟩ : Fin 100000) (⟨(j 1).val, hq⟩ : Fin 128) := by
    funext a; apply Fin.ext
    match a with
    | ⟨0, _⟩ => show win4_5.index t (0 : Fin 2) * 5000 + 1 * (j 0).val = t.val * 5000 + (j 0).val; rw [e50]; omega
    | ⟨1, _⟩ => show win4_5.index t (1 : Fin 2) * 128 + 1 * (j 1).val = (j 1).val; rw [e51]; omega
  show Cert.Sage.combine (iblk4 V c 0 t) (iblk4 V c 1 t) (V c main_arg13) (V c main_arg15) (V c main_v81) (ix2 (⟨(j 0).val, hp⟩ : Fin 5000) (⟨(j 1).val, hq⟩ : Fin 128))
    = whole4 V c (((cfg4.win 5).blk t).view.emb j)
  rw [hemb]
  exact Cert.Sage.combine_row _ _ _ _ _ _ _ _ _ _
    (fun k => rows4_0 V c t _ k _ rfl) (fun k => rows4_1 V c t _ k _ rfl)

/-- An index of the output array is in point t's block iff its row is among the block's 5000 rows. -/
theorem block4_mem (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v82).slice (win4_5.rect t)).set ↔ _
  rw [View.set_slice_whole, Rect.mem_set_unit]
  exact Iff.rfl

/-- THE OUTPUT ARRAY after the region: the combine step of the arrays the region was entered with. -/
theorem arr4 (c : Dev nD) : (dat4 (F := Ideal) V c).arrAt 5 cfg4.N = whole4 V c :=
  (dat4 (F := Ideal) V c).arrAt_eq_of_cover 5 (whole4 V c) (fun t _ => written4 V c t) fun i => by
    have hi0 : (i 0).val < 100000 := (i 0).isLt
    have hi1 : (i 1).val < 128 := (i 1).isLt
    have hN : cfg4.N = 20 := N_4
    let t : Fin cfg4.N := ⟨(i 0).val / 5000, by rw [hN]; omega⟩
    obtain ⟨-, -, -, -, -, -, -, -, -, -, e50, e51, -⟩ := maps4 t
    refine ⟨t, flush4_5 t, ?_⟩
    rw [block4_mem]
    intro a
    match a with
    | ⟨0, _⟩ =>
      show win4_5.index t (0 : Fin 2) * 5000 ≤ (i 0).val ∧ (i 0).val < win4_5.index t (0 : Fin 2) * 5000 + 5000
      rw [e50]; show (i 0).val / 5000 * 5000 ≤ (i 0).val ∧ (i 0).val < (i 0).val / 5000 * 5000 + 5000; omega
    | ⟨1, _⟩ =>
      show win4_5.index t (1 : Fin 2) * 128 ≤ (i 1).val ∧ (i 1).val < win4_5.index t (1 : Fin 2) * 128 + 128
      rw [e51]; omega

end Cert.KernelIdeal.Regions

end
-- ==== Proof.RegionHead5.lean ====
/-
  The last normalisation step followed by the projection, as one function of whole arrays.

  Region 5 walks the 100000 rows of H in 20 blocks of 5000 rows.  At every block it reads the block of H, the four 1×128
  rows (column mean, column variance, scale, shift), the 128×2 projection weights and the 1×2 bias row whole, forms
      A = max(((H − mean) · rsqrt(variance + eps)) · scale + shift, 0)
  on the block, and writes the 5000×2 block  A·Wc + bc.  Row p of a block of the result depends on H only through row p
  of the block, which is row 5000·t + p of H.  So block t of the result is block t of the projection of the
  normalisation of the whole array, the 20 blocks tile the 100000 rows, and the array the region leaves is that
  projection.
-/
import proofs.«165646_j23587960390209_1_alg».proof.Proof.Gen.KernelIdeal.Frame
import proofs.«165646_j23587960390209_1_alg».proof.Proof.Spec
import proofs.«165646_j23587960390209_1_alg».proof.Proof.LibRowVector
import proofs.«165646_j23587960390209_1_alg».proof.Proof.LibPlainDot
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe
open Idealize.ShloMosaic.ValueIdx Idealize.SL.Sem
open Idealize.ShloMosaic.Pipeline (Dat)
open scoped BigOperators

/-! ## The arithmetic of one block -/

/-- Entry (p, q) of what one block's arithmetic produces.  The bias row is copied down the 5000 rows, so it enters
    through its entry (0, q); the product into the zero accumulator is the sum over the 128 columns c of
    A(p, c) · Wc(c, q), the narrowing of both factors being the identity on exact values; and A(p, c) is the
    normalisation of the block at (p, c), every row operand entering through its entry (0, c). -/
theorem head5_payload_at (x0 : Vec Ideal S5000x128 .f32) (x1 x2 x3 x4 : Vec Ideal S1x128 .f32)
    (x5 : Vec Ideal S128x2 .f32) (x6 : Vec Ideal S1x2 .f32) (p : Fin 5000) (q : Fin 2) :
    k5_pay1 x0 x1 x2 x3 x4 x5 x6 (ix2 p q)
      = Cert.Sage.project (Cert.Sage.bnrelu x0 x1 x2 x3 x4) x5 x6 (ix2 p q) := by
  have hrow : broadcastTo S5000x2 x6 broadcasts_S1x2_S5000x2 (ix2 p q) = x6 (ix2 0 q) :=
    Cert.RowVector.broadcastTo_row (by decide) x6 _ p q
  unfold k5_pay1
  simp only [shapeCast_self]
  rw [addf_apply, hrow]
  refine (congrArg (· + x6 (ix2 0 q))
    (Cert.PlainDot.matmul_zero_apply dot_S5000x128_S128x2_S5000x2_1_0_0_1_n_n rfl none _ _ p q)).trans ?_
  show _ = (∑ k : Fin 128, Cert.Sage.bnrelu x0 x1 x2 x3 x4 (ix2 p k) * x5 (ix2 k q)) + x6 (ix2 0 q)
  refine congrArg (· + x6 (ix2 0 q)) (Finset.sum_congr rfl fun c _ => ?_)
  have hb : ∀ v : Vec Ideal S1x128 .f32,
      broadcastTo S5000x128 v broadcasts_S1x128_S5000x128 (ix2 p c) = v (ix2 0 c) :=
    fun v => Cert.RowVector.broadcastTo_row (by decide) v _ p c
  simp only [truncf_apply, maximumf_apply, addf_apply, mulf_apply, subf_apply, hb]
  rfl

/-- One block's arithmetic is the projection of the block's normalisation. -/
theorem head5_payload (x0 : Vec Ideal S5000x128 .f32) (x1 x2 x3 x4 : Vec Ideal S1x128 .f32)
    (x5 : Vec Ideal S128x2 .f32) (x6 : Vec Ideal S1x2 .f32) :
    k5_pay1 x0 x1 x2 x3 x4 x5 x6 = Cert.Sage.project (Cert.Sage.bnrelu x0 x1 x2 x3 x4) x5 x6 := by
  funext j
  obtain ⟨p, q, rfl⟩ : ∃ (p : Fin 5000) (q : Fin 2), j = ix2 p q := ⟨j 0, j 1, eq_ix2 j⟩
  exact head5_payload_at x0 x1 x2 x3 x4 x5 x6 p q

/-- A row block of the normalised array: entry (p, k) of the block's normalisation is entry (r, k) of the whole
    array's, when the block's entry (p, k) is the array's entry (r, k) and the per-column rows are the same. -/
theorem head5_norm_entry {H : S100000x128.Idx → EReal} {mu var g be : S1x128.Idx → EReal}
    {H' : S5000x128.Idx → EReal} {mu' var' g' be' : S1x128.Idx → EReal} (p : Fin 5000) (k : Fin 128)
    (r : Fin 100000)
    (hH : H' (ix2 p k) = H (ix2 r k)) (hmu : mu' = mu) (hvar : var' = var) (hg : g' = g) (hbe : be' = be) :
    Cert.Sage.bnrelu H' mu' var' g' be' (ix2 p k) = Cert.Sage.bnrelu H mu var g be (ix2 r k) := by
  subst hmu hvar hg hbe
  exact Cert.Sage.bnrelu_row H' H _ _ _ _ p r k hH

/-- A row block of the projected array: entry (p, q) of the block's projection is entry (r, q) of the whole array's,
    when row p of the block is row r of the array and the weights and the bias row are the same. -/
theorem head5_block_entry {A : S100000x128.Idx → EReal} {W : S128x2.Idx → EReal} {b : S1x2.Idx → EReal}
    {A' : S5000x128.Idx → EReal} {W' : S128x2.Idx → EReal} {b' : S1x2.Idx → EReal} (p : Fin 5000) (q : Fin 2)
    (i : S100000x2.Idx) (r : Fin 100000) (hi : i = ix2 r q)
    (hA : ∀ k : Fin 128, A' (ix2 p k) = A (ix2 r k)) (hW : W' = W) (hb : b' = b) :
    Cert.Sage.project A' W' b' (ix2 p q) = Cert.Sage.project A W b i := by
  subst hi hW hb
  exact Cert.Sage.project_row A' A _ _ p r q hA

/-! ## Where the blocks sit -/

variable (V : (c : Dev nD) → (b : Ref sig .tc) → Buf (Elt Ideal) ((c : Thread nD τ).loc b))

/-- The offsets (0, 0), spelt as a constant function. -/
theorem head5_offsets_zero : (![0, 0] : Fin 2 → Nat) = fun _ => 0 := funext fun a => by fin_cases a <;> rfl

/-- The block index maps, over the 20 grid points: the block of H read and the block written have the same row-block
    index and column-block index 0; the four rows, the weights and the bias row are read at block (0, 0); there are at
    most 20 row blocks. -/
theorem head5_index_maps : ∀ t : Fin cfg5.N,
    win5_0.index t (0 : Fin 2) = win5_7.index t (0 : Fin 2)
    ∧ win5_0.index t (1 : Fin 2) = 0 ∧ win5_7.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) ≤ 19 :=
  (by decide +kernel : ∀ t : Fin grid5.N, _)

/-- Every one of the 20 row blocks is some grid point's. -/
theorem head5_index_onto : ∀ q0 : Fin 20, ∃ t : Fin cfg5.N, win5_7.index t = ![q0.val, 0] :=
  (by decide +kernel : ∀ q0 : Fin 20, ∃ t : Fin grid5.N, win5_7.index t = ![q0.val, 0])

/-! ## What a grid point writes back -/

/-- Grid point t writes back block t of the projection of the normalisation of the whole array H: a block's
    coordinate is (block index) × (block size) + (the coordinate inside the block) on each axis. -/
theorem head5_written_back (c : Dev nD) (t : Fin cfg5.N) :
    (dat5 (F := Ideal) V c).flushed 7 t = ((cfg5.win 7).blk t).view.read (Elt Ideal)
      (Cert.Sage.project
        (Cert.Sage.bnrelu (V c main_v82 : S100000x128.Idx → EReal) (V c main_v93 : S1x128.Idx → EReal)
          (V c main_v94 : S1x128.Idx → EReal) (V c main_v95 : S1x128.Idx → EReal)
          (V c main_v96 : S1x128.Idx → EReal))
        (V c main_arg18 : S128x2.Idx → EReal) (V c main_v97 : S1x2.Idx → EReal)) := by
  show (cfg5.win 7).cut (grid5.coords t) ((dat5 V c).after 7 t) = _
  rw [after5_7]
  unfold out5_7
  rw [View.canon_unit_zero head5_offsets_zero]
  simp only [View.ld_unit_zero (S := S5000x128) head5_offsets_zero, View.ld_unit_zero (S := S1x128) head5_offsets_zero,
    View.ld_unit_zero (S := S128x2) head5_offsets_zero, View.ld_unit_zero (S := S1x2) head5_offsets_zero]
  rw [head5_payload]
  obtain ⟨e0, e1, e2, e3, e4, e5, e6, e7, e8, e9, e10, e11, e12, e13, e14, e15⟩ := head5_index_maps t
  funext j
  obtain ⟨p, q, rfl⟩ : ∃ (p : Fin 5000) (q : Fin 2), j = ix2 p q := ⟨j 0, j 1, eq_ix2 j⟩
  have hp : p.val < 5000 := p.isLt
  have hq : q.val < 2 := q.isLt
  show Cert.Sage.project
      (Cert.Sage.bnrelu (iblk5 V c 0 t) (iblk5 V c 1 t) (iblk5 V c 2 t) (iblk5 V c 3 t) (iblk5 V c 4 t))
      (iblk5 V c 5 t) (iblk5 V c 6 t) (ix2 p q)
    = Cert.Sage.project
      (Cert.Sage.bnrelu (V c main_v82) (V c main_v93) (V c main_v94) (V c main_v95) (V c main_v96))
      (V c main_arg18) (V c main_v97) (((cfg5.win 7).blk t).view.emb (ix2 p q))
  refine head5_block_entry p q _ ⟨win5_7.index t (0 : Fin 2) * 5000 + p.val, by omega⟩ ?_ (fun k => ?_) ?_ ?_
  · -- the written entry sits at row 5000·t + p, column q
    funext a; apply Fin.ext
    match a with
    | ⟨0, _⟩ =>
      show win5_7.index t (0 : Fin 2) * 5000 + 1 * p.val = win5_7.index t (0 : Fin 2) * 5000 + p.val
      omega
    | ⟨1, _⟩ => show win5_7.index t (1 : Fin 2) * 2 + 1 * q.val = q.val; omega
  · -- row p of the block's normalisation is row 5000·t + p of the whole array's
    have hk : k.val < 128 := k.isLt
    refine head5_norm_entry p k _ ?_ ?_ ?_ ?_ ?_
    · -- the block of H read starts at row 5000·t
      show V c main_v82 (((cfg5.win 0).blk t).view.emb (ix2 p k))
        = V c main_v82 (ix2 ⟨win5_7.index t (0 : Fin 2) * 5000 + p.val, by omega⟩ k)
      refine congrArg _ ?_
      funext a; apply Fin.ext
      match a with
      | ⟨0, _⟩ =>
        show win5_0.index t (0 : Fin 2) * 5000 + 1 * p.val = win5_7.index t (0 : Fin 2) * 5000 + p.val
        omega
      | ⟨1, _⟩ => show win5_0.index t (1 : Fin 2) * 128 + 1 * k.val = k.val; omega
    · -- the mean row is read whole
      funext y
      show V c main_v93 (((cfg5.win 1).blk t).view.emb y) = V c main_v93 y
      refine congrArg _ ?_
      funext a; apply Fin.ext
      match a with
      | ⟨0, _⟩ => show win5_1.index t (0 : Fin 2) * 1 + 1 * (y 0).val = (y 0).val; omega
      | ⟨1, _⟩ => show win5_1.index t (1 : Fin 2) * 128 + 1 * (y 1).val = (y 1).val; omega
    · -- the variance row is read whole
      funext y
      show V c main_v94 (((cfg5.win 2).blk t).view.emb y) = V c main_v94 y
      refine congrArg _ ?_
      funext a; apply Fin.ext
      match a with
      | ⟨0, _⟩ => show win5_2.index t (0 : Fin 2) * 1 + 1 * (y 0).val = (y 0).val; omega
      | ⟨1, _⟩ => show win5_2.index t (1 : Fin 2) * 128 + 1 * (y 1).val = (y 1).val; omega
    · -- the scale row is read whole
      funext y
      show V c main_v95 (((cfg5.win 3).blk t).view.emb y) = V c main_v95 y
      refine congrArg _ ?_
      funext a; apply Fin.ext
      match a with
      | ⟨0, _⟩ => show win5_3.index t (0 : Fin 2) * 1 + 1 * (y 0).val = (y 0).val; omega
      | ⟨1, _⟩ => show win5_3.index t (1 : Fin 2) * 128 + 1 * (y 1).val = (y 1).val; omega
    · -- the shift row is read whole
      funext y
      show V c main_v96 (((cfg5.win 4).blk t).view.emb y) = V c main_v96 y
      refine congrArg _ ?_
      funext a; apply Fin.ext
      match a with
      | ⟨0, _⟩ => show win5_4.index t (0 : Fin 2) * 1 + 1 * (y 0).val = (y 0).val; omega
      | ⟨1, _⟩ => show win5_4.index t (1 : Fin 2) * 128 + 1 * (y 1).val = (y 1).val; omega
  · -- the projection weights are read whole
    funext y
    show V c main_arg18 (((cfg5.win 5).blk t).view.emb y) = V c main_arg18 y
    refine congrArg _ ?_
    funext a; apply Fin.ext
    match a with
    | ⟨0, _⟩ => show win5_5.index t (0 : Fin 2) * 128 + 1 * (y 0).val = (y 0).val; omega
    | ⟨1, _⟩ => show win5_5.index t (1 : Fin 2) * 2 + 1 * (y 1).val = (y 1).val; omega
  · -- the bias row is read whole
    funext y
    show V c main_v97 (((cfg5.win 6).blk t).view.emb y) = V c main_v97 y
    refine congrArg _ ?_
    funext a; apply Fin.ext
    match a with
    | ⟨0, _⟩ => show win5_6.index t (0 : Fin 2) * 1 + 1 * (y 0).val = (y 0).val; omega
    | ⟨1, _⟩ => show win5_6.index t (1 : Fin 2) * 2 + 1 * (y 1).val = (y 1).val; omega

/-! ## The blocks tile the array -/

/-- An entry lies in grid point t's block iff each coordinate lies in the block's range on its axis. -/
theorem head5_mem_block (t : Fin cfg5.N) (i : S100000x2.Idx) :
    i ∈ ((cfg5.win 7).blk t).view.set ↔ ∀ a : Fin 2, win5_7.index t a * S5000x2.size a ≤ (i a).val
      ∧ (i a).val < win5_7.index t a * S5000x2.size a + S5000x2.size a := by
  show i ∈ ((View.whole main_v98).slice (win5_7.rect t)).set ↔ _
  rw [View.set_slice_whole, Rect.mem_set_unit]
  exact Iff.rfl

/-- Row r lies in row block r / 5000, which some grid point writes back. -/
theorem head5_blocks_cover (i : S100000x2.Idx) :
    ∃ t : Fin cfg5.N, (cfg5.win 7).flush t = true ∧ i ∈ ((cfg5.win 7).blk t).view.set := by
  have hi0 : (i 0).val < 100000 := (i 0).isLt
  have hi1 : (i 1).val < 2 := (i 1).isLt
  obtain ⟨t, ht⟩ := head5_index_onto ⟨(i 0).val / 5000, by omega⟩
  have q0 : win5_7.index t (0 : Fin 2) = (i 0).val / 5000 := congrFun ht 0
  have q1 : win5_7.index t (1 : Fin 2) = 0 := congrFun ht 1
  refine ⟨t, flush5_7 t, ?_⟩
  rw [head5_mem_block]
  intro a
  match a with
  | ⟨0, _⟩ =>
    show win5_7.index t (0 : Fin 2) * 5000 ≤ (i 0).val ∧ (i 0).val < win5_7.index t (0 : Fin 2) * 5000 + 5000
    omega
  | ⟨1, _⟩ =>
    show win5_7.index t (1 : Fin 2) * 2 ≤ (i 1).val ∧ (i 1).val < win5_7.index t (1 : Fin 2) * 2 + 2
    omega

/-! ## The array the region leaves -/

/-- After the last grid point the output array is the projection, by the weights and the bias row as the region found
    them, of the normalisation of the whole array H by the four rows, all as the region found them. -/
theorem arr5 (c : Dev nD) : (dat5 (F := Ideal) V c).arrAt 7 cfg5.N
    = Cert.Sage.project
        (Cert.Sage.bnrelu (V c main_v82 : S100000x128.Idx → EReal) (V c main_v93 : S1x128.Idx → EReal)
          (V c main_v94 : S1x128.Idx → EReal) (V c main_v95 : S1x128.Idx → EReal)
          (V c main_v96 : S1x128.Idx → EReal))
        (V c main_arg18 : S128x2.Idx → EReal) (V c main_v97 : S1x2.Idx → EReal) :=
  (dat5 V c).arrAt_eq_of_cover 7 _ (fun t _ => head5_written_back V c t) head5_blocks_cover

end Cert.KernelIdeal.Regions

end
-- ==== Proof.KernelValue.lean ====
/-
  The idealized kernel's result, read off the boundaries' contents, layer by layer.

  A stretch of host operations computes the neighbour means of the previous layer's activations (for the first layer, of
  the input features) and lays the bias out as a row; a combine region leaves the hidden array in its output array; the
  next stretch computes that array's column means and variances and lays them, the scale and the shift out as rows; a
  normalisation region leaves the activations.  Each buffer is the stage's function of the launch contents of the
  arguments; the last region's output array, the result, is the whole network of them.
-/
import proofs.«165646_j23587960390209_1_alg».proof.Proof.KernelCarry
import proofs.«165646_j23587960390209_1_alg».proof.Proof.RegionCombine0
import proofs.«165646_j23587960390209_1_alg».proof.Proof.RegionNorm1
import proofs.«165646_j23587960390209_1_alg».proof.Proof.RegionCombine2
import proofs.«165646_j23587960390209_1_alg».proof.Proof.RegionNorm3
import proofs.«165646_j23587960390209_1_alg».proof.Proof.RegionCombine4
import proofs.«165646_j23587960390209_1_alg».proof.Proof.RegionHead5
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The launch contents of an argument array. -/
abbrev arg (b : Ref sig .tc) : Buf (Elt Ideal) ((c : Thread nD τ).loc b) := m ((c : Thread nD τ).loc b)

set_option maxHeartbeats 1600000 in
/-- The neighbour means of the input features. -/
theorem W1_main_v20 : W1 (F := Ideal) m ρ c (Proc.devRef .tc main_v20) = Net.nbr64 (arg m c main_arg0) (arg m c main_arg1) (arg m c main_arg2) := by
  show StableHlo.after hostOps0 (W0 m ρ c) (Proc.devRef .tc main_v20) = _
  after_results_simp
  rfl
/-- The first bias as a row. -/
theorem W1_main_v21 : W1 (F := Ideal) m ρ c (Proc.devRef .tc main_v21) = Net.row (arg m c main_arg4) := by
  show StableHlo.after hostOps0 (W0 m ρ c) (Proc.devRef .tc main_v21) = _
  after_results
  rfl

/-- The first hidden array. -/
abbrev H0 : FVec Ideal S100000x128 .f32 := Net.hid64 (arg m c main_arg0) (arg m c main_arg1) (arg m c main_arg2) (arg m c main_arg3) (arg m c main_arg4) (arg m c main_arg5)

/-- The first region leaves the first hidden array. -/
theorem W2_main_v22 : W2 (F := Ideal) m ρ c (Proc.devRef .tc main_v22) = H0 m c := by
  refine (W2_arr m ρ c 5).trans ((Regions.arr0 (V1 m ρ) c).trans ?_)
  show Cert.Sage.combine (W1 (F := Ideal) m ρ c (Proc.devRef .tc main_arg0)) (W1 (F := Ideal) m ρ c (Proc.devRef .tc main_v20)) (W1 (F := Ideal) m ρ c (Proc.devRef .tc main_arg3)) (W1 (F := Ideal) m ρ c (Proc.devRef .tc main_arg5)) (W1 (F := Ideal) m ρ c (Proc.devRef .tc main_v21)) = _
  rw [W1_main_arg0, W1_main_v20, W1_main_arg3, W1_main_arg5, W1_main_v21]
  rfl
theorem W3_main_v22 : W3 (F := Ideal) m ρ c (Proc.devRef .tc main_v22) = H0 m c :=
  (show StableHlo.after hostOps1 (W2 m ρ c) (Proc.devRef .tc main_v22) = W2 m ρ c (Proc.devRef .tc main_v22) by stretch_keeps hostOps1).trans (W2_main_v22 m ρ c)
/-- Its column means, as a row; -/
theorem W3_main_v33 : W3 (F := Ideal) m ρ c (Proc.devRef .tc main_v33) = Net.row (Net.mean (H0 m c)) := by
  show StableHlo.after hostOps1 (W2 m ρ c) (Proc.devRef .tc main_v33) = _
  after_results
  rw [W2_main_v22]
  rfl
/-- its column variances; -/
theorem W3_main_v34 : W3 (F := Ideal) m ρ c (Proc.devRef .tc main_v34) = Net.row (Net.var (H0 m c)) := by
  show StableHlo.after hostOps1 (W2 m ρ c) (Proc.devRef .tc main_v34) = _
  after_results
  rw [W2_main_v22]
  rfl
/-- the scale; -/
theorem W3_main_v35 : W3 (F := Ideal) m ρ c (Proc.devRef .tc main_v35) = Net.row (arg m c main_arg6) := by
  show StableHlo.after hostOps1 (W2 m ρ c) (Proc.devRef .tc main_v35) = _
  after_results
  rw [W2_main_arg6]
  rfl
/-- the shift. -/
theorem W3_main_v36 : W3 (F := Ideal) m ρ c (Proc.devRef .tc main_v36) = Net.row (arg m c main_arg7) := by
  show StableHlo.after hostOps1 (W2 m ρ c) (Proc.devRef .tc main_v36) = _
  after_results
  rw [W2_main_arg7]
  rfl

/-- The first layer's activations. -/
abbrev A0 : FVec Ideal S100000x128 .f32 := Net.bn (H0 m c) (arg m c main_arg6) (arg m c main_arg7)

/-- The second region leaves the first layer's activations. -/
theorem W4_main_v37 : W4 (F := Ideal) m ρ c (Proc.devRef .tc main_v37) = A0 m c := by
  refine (W4_arr m ρ c 5).trans ((Regions.arr1 (V3 m ρ) c).trans ?_)
  show Cert.Sage.bnrelu (W3 (F := Ideal) m ρ c (Proc.devRef .tc main_v22)) (W3 (F := Ideal) m ρ c (Proc.devRef .tc main_v33)) (W3 (F := Ideal) m ρ c (Proc.devRef .tc main_v34)) (W3 (F := Ideal) m ρ c (Proc.devRef .tc main_v35)) (W3 (F := Ideal) m ρ c (Proc.devRef .tc main_v36)) = _
  rw [W3_main_v22, W3_main_v33, W3_main_v34, W3_main_v35, W3_main_v36]
  rfl

/-! ## The second layer -/

theorem W5_main_v37 : W5 (F := Ideal) m ρ c (Proc.devRef .tc main_v37) = A0 m c :=
  (show StableHlo.after hostOps2 (W4 m ρ c) (Proc.devRef .tc main_v37) = W4 m ρ c (Proc.devRef .tc main_v37) by stretch_keeps hostOps2).trans (W4_main_v37 m ρ c)
set_option maxHeartbeats 1600000 in
/-- The neighbour means of the previous layer's activations. -/
theorem W5_main_v50 : W5 (F := Ideal) m ρ c (Proc.devRef .tc main_v50) = Net.nbr128 (A0 m c) (arg m c main_arg1) (arg m c main_arg2) := by
  show StableHlo.after hostOps2 (W4 m ρ c) (Proc.devRef .tc main_v50) = _
  after_results_simp
  rw [W4_main_v37, W4_main_arg1, W4_main_arg2, W4_main_v7]
  rfl
/-- The bias as a row. -/
theorem W5_main_v51 : W5 (F := Ideal) m ρ c (Proc.devRef .tc main_v51) = Net.row (arg m c main_arg9) := by
  show StableHlo.after hostOps2 (W4 m ρ c) (Proc.devRef .tc main_v51) = _
  after_results
  rw [W4_main_arg9]
  rfl

/-- This layer's hidden array. -/
abbrev H1 : FVec Ideal S100000x128 .f32 := Net.hid128 (A0 m c) (arg m c main_arg1) (arg m c main_arg2) (arg m c main_arg8) (arg m c main_arg9) (arg m c main_arg10)

/-- The combine region leaves the hidden array. -/
theorem W6_main_v52 : W6 (F := Ideal) m ρ c (Proc.devRef .tc main_v52) = H1 m c := by
  refine (W6_arr m ρ c 5).trans ((Regions.arr2 (V5 m ρ) c).trans ?_)
  show Cert.Sage.combine (W5 (F := Ideal) m ρ c (Proc.devRef .tc main_v37)) (W5 (F := Ideal) m ρ c (Proc.devRef .tc main_v50)) (W5 (F := Ideal) m ρ c (Proc.devRef .tc main_arg8)) (W5 (F := Ideal) m ρ c (Proc.devRef .tc main_arg10)) (W5 (F := Ideal) m ρ c (Proc.devRef .tc main_v51)) = _
  rw [W5_main_v37, W5_main_v50, W5_main_arg8, W5_main_arg10, W5_main_v51]
  rfl
theorem W7_main_v52 : W7 (F := Ideal) m ρ c (Proc.devRef .tc main_v52) = H1 m c :=
  (show StableHlo.after hostOps3 (W6 m ρ c) (Proc.devRef .tc main_v52) = W6 m ρ c (Proc.devRef .tc main_v52) by stretch_keeps hostOps3).trans (W6_main_v52 m ρ c)
/-- Its column means, as a row; -/
theorem W7_main_v63 : W7 (F := Ideal) m ρ c (Proc.devRef .tc main_v63) = Net.row (Net.mean (H1 m c)) := by
  show StableHlo.after hostOps3 (W6 m ρ c) (Proc.devRef .tc main_v63) = _
  after_results
  rw [W6_main_v52]
  rfl
/-- its column variances; -/
theorem W7_main_v64 : W7 (F := Ideal) m ρ c (Proc.devRef .tc main_v64) = Net.row (Net.var (H1 m c)) := by
  show StableHlo.after hostOps3 (W6 m ρ c) (Proc.devRef .tc main_v64) = _
  after_results
  rw [W6_main_v52]
  rfl
/-- the scale; -/
theorem W7_main_v65 : W7 (F := Ideal) m ρ c (Proc.devRef .tc main_v65) = Net.row (arg m c main_arg11) := by
  show StableHlo.after hostOps3 (W6 m ρ c) (Proc.devRef .tc main_v65) = _
  after_results
  rw [W6_main_arg11]
  rfl
/-- the shift. -/
theorem W7_main_v66 : W7 (F := Ideal) m ρ c (Proc.devRef .tc main_v66) = Net.row (arg m c main_arg12) := by
  show StableHlo.after hostOps3 (W6 m ρ c) (Proc.devRef .tc main_v66) = _
  after_results
  rw [W6_main_arg12]
  rfl

/-- The second layer's activations. -/
abbrev A1 : FVec Ideal S100000x128 .f32 := Net.bn (H1 m c) (arg m c main_arg11) (arg m c main_arg12)

/-- The normalisation region leaves the second layer's activations. -/
theorem W8_main_v67 : W8 (F := Ideal) m ρ c (Proc.devRef .tc main_v67) = A1 m c := by
  refine (W8_arr m ρ c 5).trans ((Regions.arr3 (V7 m ρ) c).trans ?_)
  show Cert.Sage.bnrelu (W7 (F := Ideal) m ρ c (Proc.devRef .tc main_v52)) (W7 (F := Ideal) m ρ c (Proc.devRef .tc main_v63)) (W7 (F := Ideal) m ρ c (Proc.devRef .tc main_v64)) (W7 (F := Ideal) m ρ c (Proc.devRef .tc main_v65)) (W7 (F := Ideal) m ρ c (Proc.devRef .tc main_v66)) = _
  rw [W7_main_v52, W7_main_v63, W7_main_v64, W7_main_v65, W7_main_v66]
  rfl

/-! ## The third layer and the projection -/

theorem W9_main_v67 : W9 (F := Ideal) m ρ c (Proc.devRef .tc main_v67) = A1 m c :=
  (show StableHlo.after hostOps4 (W8 m ρ c) (Proc.devRef .tc main_v67) = W8 m ρ c (Proc.devRef .tc main_v67) by stretch_keeps hostOps4).trans (W8_main_v67 m ρ c)
set_option maxHeartbeats 1600000 in
/-- The neighbour means of the previous layer's activations. -/
theorem W9_main_v80 : W9 (F := Ideal) m ρ c (Proc.devRef .tc main_v80) = Net.nbr128 (A1 m c) (arg m c main_arg1) (arg m c main_arg2) := by
  show StableHlo.after hostOps4 (W8 m ρ c) (Proc.devRef .tc main_v80) = _
  after_results_simp
  rw [W8_main_v67, W8_main_arg1, W8_main_arg2, W8_main_v7]
  rfl
/-- The bias as a row. -/
theorem W9_main_v81 : W9 (F := Ideal) m ρ c (Proc.devRef .tc main_v81) = Net.row (arg m c main_arg14) := by
  show StableHlo.after hostOps4 (W8 m ρ c) (Proc.devRef .tc main_v81) = _
  after_results
  rw [W8_main_arg14]
  rfl

/-- This layer's hidden array. -/
abbrev H2 : FVec Ideal S100000x128 .f32 := Net.hid128 (A1 m c) (arg m c main_arg1) (arg m c main_arg2) (arg m c main_arg13) (arg m c main_arg14) (arg m c main_arg15)

/-- The combine region leaves the hidden array. -/
theorem W10_main_v82 : W10 (F := Ideal) m ρ c (Proc.devRef .tc main_v82) = H2 m c := by
  refine (W10_arr m ρ c 5).trans ((Regions.arr4 (V9 m ρ) c).trans ?_)
  show Cert.Sage.combine (W9 (F := Ideal) m ρ c (Proc.devRef .tc main_v67)) (W9 (F := Ideal) m ρ c (Proc.devRef .tc main_v80)) (W9 (F := Ideal) m ρ c (Proc.devRef .tc main_arg13)) (W9 (F := Ideal) m ρ c (Proc.devRef .tc main_arg15)) (W9 (F := Ideal) m ρ c (Proc.devRef .tc main_v81)) = _
  rw [W9_main_v67, W9_main_v80, W9_main_arg13, W9_main_arg15, W9_main_v81]
  rfl
theorem W11_main_v82 : W11 (F := Ideal) m ρ c (Proc.devRef .tc main_v82) = H2 m c :=
  (show StableHlo.after hostOps5 (W10 m ρ c) (Proc.devRef .tc main_v82) = W10 m ρ c (Proc.devRef .tc main_v82) by stretch_keeps hostOps5).trans (W10_main_v82 m ρ c)
/-- Its column means, as a row; -/
theorem W11_main_v93 : W11 (F := Ideal) m ρ c (Proc.devRef .tc main_v93) = Net.row (Net.mean (H2 m c)) := by
  show StableHlo.after hostOps5 (W10 m ρ c) (Proc.devRef .tc main_v93) = _
  after_results
  rw [W10_main_v82]
  rfl
/-- its column variances; -/
theorem W11_main_v94 : W11 (F := Ideal) m ρ c (Proc.devRef .tc main_v94) = Net.row (Net.var (H2 m c)) := by
  show StableHlo.after hostOps5 (W10 m ρ c) (Proc.devRef .tc main_v94) = _
  after_results
  rw [W10_main_v82]
  rfl
/-- the scale; -/
theorem W11_main_v95 : W11 (F := Ideal) m ρ c (Proc.devRef .tc main_v95) = Net.row (arg m c main_arg16) := by
  show StableHlo.after hostOps5 (W10 m ρ c) (Proc.devRef .tc main_v95) = _
  after_results
  rw [W10_main_arg16]
  rfl
/-- the shift. -/
theorem W11_main_v96 : W11 (F := Ideal) m ρ c (Proc.devRef .tc main_v96) = Net.row (arg m c main_arg17) := by
  show StableHlo.after hostOps5 (W10 m ρ c) (Proc.devRef .tc main_v96) = _
  after_results
  rw [W10_main_arg17]
  rfl
/-- The projection's bias as a row. -/
theorem W11_main_v97 : W11 (F := Ideal) m ρ c (Proc.devRef .tc main_v97) = Net.row2 (arg m c main_arg19) := by
  show StableHlo.after hostOps5 (W10 m ρ c) (Proc.devRef .tc main_v97) = _
  after_results
  rw [W10_main_arg19]
  rfl

/-- THE RESULT: the last region leaves the projection of the third layer's activations, the whole network. -/
theorem W12_main_v98 : W12 (F := Ideal) m ρ c (Proc.devRef .tc main_v98) = Net.net (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) := by
  refine (W12_arr m ρ c 7).trans ((Regions.arr5 (V11 m ρ) c).trans ?_)
  show Cert.Sage.project (Cert.Sage.bnrelu (W11 (F := Ideal) m ρ c (Proc.devRef .tc main_v82)) (W11 (F := Ideal) m ρ c (Proc.devRef .tc main_v93)) (W11 (F := Ideal) m ρ c (Proc.devRef .tc main_v94)) (W11 (F := Ideal) m ρ c (Proc.devRef .tc main_v95)) (W11 (F := Ideal) m ρ c (Proc.devRef .tc main_v96))) (W11 (F := Ideal) m ρ c (Proc.devRef .tc main_arg18)) (W11 (F := Ideal) m ρ c (Proc.devRef .tc main_v97)) = _
  rw [W11_main_v82, W11_main_v93, W11_main_v94, W11_main_v95, W11_main_v96, W11_main_arg18, W11_main_v97]
  rfl

end Cert.KernelIdeal.Carry

end
-- ==== Proof.RefKept.lean ====
/-
  The reference program writes none of its argument arrays: each of its 196 host operations writes its own result buffer
  only, so after the whole list every argument buffer holds its launch contents.
-/
import proofs.«165646_j23587960390209_1_alg».proof.Proof.RefRun
import Idealize.ShloMosaic.PureOps.Ideal

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

/-- No operation of the list writes the buffer, so the fold leaves it. -/
macro "none_writes" : tactic => `(tactic|
  exact StableHlo.after_of_forall_not_mem _ _ (List.forall_iff_forall_mem.mp (by
    simp only [ops, TRef.nullary, TRef.unary, TRef.binary, TRef.of, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

variable (m : (ℓ : Loc nD τ sig) → Buf (Elt Ideal) ℓ) (c : Dev nD)

theorem kept_main_arg0 : after (ops (F := Ideal)) (launchContents m c) (Proc.devRef .tc main_arg0) = m ((c.tc : Thread nD τ).loc main_arg0) :=
  (show after (ops (F := Ideal)) (launchContents m c) (Proc.devRef .tc main_arg0) = launchContents m c (Proc.devRef .tc main_arg0) by none_writes).trans rfl
theorem kept_main_arg1 : after (ops (F := Ideal)) (launchContents m c) (Proc.devRef .tc main_arg1) = m ((c.tc : Thread nD τ).loc main_arg1) :=
  (show after (ops (F := Ideal)) (launchContents m c) (Proc.devRef .tc main_arg1) = launchContents m c (Proc.devRef .tc main_arg1) by none_writes).trans rfl
theorem kept_main_arg2 : after (ops (F := Ideal)) (launchContents m c) (Proc.devRef .tc main_arg2) = m ((c.tc : Thread nD τ).loc main_arg2) :=
  (show after (ops (F := Ideal)) (launchContents m c) (Proc.devRef .tc main_arg2) = launchContents m c (Proc.devRef .tc main_arg2) by none_writes).trans rfl
theorem kept_main_arg3 : after (ops (F := Ideal)) (launchContents m c) (Proc.devRef .tc main_arg3) = m ((c.tc : Thread nD τ).loc main_arg3) :=
  (show after (ops (F := Ideal)) (launchContents m c) (Proc.devRef .tc main_arg3) = launchContents m c (Proc.devRef .tc main_arg3) by none_writes).trans rfl
theorem kept_main_arg4 : after (ops (F := Ideal)) (launchContents m c) (Proc.devRef .tc main_arg4) = m ((c.tc : Thread nD τ).loc main_arg4) :=
  (show after (ops (F := Ideal)) (launchContents m c) (Proc.devRef .tc main_arg4) = launchContents m c (Proc.devRef .tc main_arg4) by none_writes).trans rfl
theorem kept_main_arg5 : after (ops (F := Ideal)) (launchContents m c) (Proc.devRef .tc main_arg5) = m ((c.tc : Thread nD τ).loc main_arg5) :=
  (show after (ops (F := Ideal)) (launchContents m c) (Proc.devRef .tc main_arg5) = launchContents m c (Proc.devRef .tc main_arg5) by none_writes).trans rfl
theorem kept_main_arg6 : after (ops (F := Ideal)) (launchContents m c) (Proc.devRef .tc main_arg6) = m ((c.tc : Thread nD τ).loc main_arg6) :=
  (show after (ops (F := Ideal)) (launchContents m c) (Proc.devRef .tc main_arg6) = launchContents m c (Proc.devRef .tc main_arg6) by none_writes).trans rfl
theorem kept_main_arg7 : after (ops (F := Ideal)) (launchContents m c) (Proc.devRef .tc main_arg7) = m ((c.tc : Thread nD τ).loc main_arg7) :=
  (show after (ops (F := Ideal)) (launchContents m c) (Proc.devRef .tc main_arg7) = launchContents m c (Proc.devRef .tc main_arg7) by none_writes).trans rfl
theorem kept_main_arg8 : after (ops (F := Ideal)) (launchContents m c) (Proc.devRef .tc main_arg8) = m ((c.tc : Thread nD τ).loc main_arg8) :=
  (show after (ops (F := Ideal)) (launchContents m c) (Proc.devRef .tc main_arg8) = launchContents m c (Proc.devRef .tc main_arg8) by none_writes).trans rfl
theorem kept_main_arg9 : after (ops (F := Ideal)) (launchContents m c) (Proc.devRef .tc main_arg9) = m ((c.tc : Thread nD τ).loc main_arg9) :=
  (show after (ops (F := Ideal)) (launchContents m c) (Proc.devRef .tc main_arg9) = launchContents m c (Proc.devRef .tc main_arg9) by none_writes).trans rfl
theorem kept_main_arg10 : after (ops (F := Ideal)) (launchContents m c) (Proc.devRef .tc main_arg10) = m ((c.tc : Thread nD τ).loc main_arg10) :=
  (show after (ops (F := Ideal)) (launchContents m c) (Proc.devRef .tc main_arg10) = launchContents m c (Proc.devRef .tc main_arg10) by none_writes).trans rfl
theorem kept_main_arg11 : after (ops (F := Ideal)) (launchContents m c) (Proc.devRef .tc main_arg11) = m ((c.tc : Thread nD τ).loc main_arg11) :=
  (show after (ops (F := Ideal)) (launchContents m c) (Proc.devRef .tc main_arg11) = launchContents m c (Proc.devRef .tc main_arg11) by none_writes).trans rfl
theorem kept_main_arg12 : after (ops (F := Ideal)) (launchContents m c) (Proc.devRef .tc main_arg12) = m ((c.tc : Thread nD τ).loc main_arg12) :=
  (show after (ops (F := Ideal)) (launchContents m c) (Proc.devRef .tc main_arg12) = launchContents m c (Proc.devRef .tc main_arg12) by none_writes).trans rfl
theorem kept_main_arg13 : after (ops (F := Ideal)) (launchContents m c) (Proc.devRef .tc main_arg13) = m ((c.tc : Thread nD τ).loc main_arg13) :=
  (show after (ops (F := Ideal)) (launchContents m c) (Proc.devRef .tc main_arg13) = launchContents m c (Proc.devRef .tc main_arg13) by none_writes).trans rfl
theorem kept_main_arg14 : after (ops (F := Ideal)) (launchContents m c) (Proc.devRef .tc main_arg14) = m ((c.tc : Thread nD τ).loc main_arg14) :=
  (show after (ops (F := Ideal)) (launchContents m c) (Proc.devRef .tc main_arg14) = launchContents m c (Proc.devRef .tc main_arg14) by none_writes).trans rfl
theorem kept_main_arg15 : after (ops (F := Ideal)) (launchContents m c) (Proc.devRef .tc main_arg15) = m ((c.tc : Thread nD τ).loc main_arg15) :=
  (show after (ops (F := Ideal)) (launchContents m c) (Proc.devRef .tc main_arg15) = launchContents m c (Proc.devRef .tc main_arg15) by none_writes).trans rfl
theorem kept_main_arg16 : after (ops (F := Ideal)) (launchContents m c) (Proc.devRef .tc main_arg16) = m ((c.tc : Thread nD τ).loc main_arg16) :=
  (show after (ops (F := Ideal)) (launchContents m c) (Proc.devRef .tc main_arg16) = launchContents m c (Proc.devRef .tc main_arg16) by none_writes).trans rfl
theorem kept_main_arg17 : after (ops (F := Ideal)) (launchContents m c) (Proc.devRef .tc main_arg17) = m ((c.tc : Thread nD τ).loc main_arg17) :=
  (show after (ops (F := Ideal)) (launchContents m c) (Proc.devRef .tc main_arg17) = launchContents m c (Proc.devRef .tc main_arg17) by none_writes).trans rfl
theorem kept_main_arg18 : after (ops (F := Ideal)) (launchContents m c) (Proc.devRef .tc main_arg18) = m ((c.tc : Thread nD τ).loc main_arg18) :=
  (show after (ops (F := Ideal)) (launchContents m c) (Proc.devRef .tc main_arg18) = launchContents m c (Proc.devRef .tc main_arg18) by none_writes).trans rfl
theorem kept_main_arg19 : after (ops (F := Ideal)) (launchContents m c) (Proc.devRef .tc main_arg19) = m ((c.tc : Thread nD τ).loc main_arg19) :=
  (show after (ops (F := Ideal)) (launchContents m c) (Proc.devRef .tc main_arg19) = launchContents m c (Proc.devRef .tc main_arg19) by none_writes).trans rfl

end Cert.ReferenceIdeal.RunP

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.RefSpell.lean ====
/-
  The host's spellings of the network's dense pieces are the specification's.

  * The combine step.  The host forms  (X·Ws + rows(row b)) + Nb·Wn  where row b is the bias broadcast into a 1×N row
    and rows(·) copies a row to every one of the R rows.  Entry by entry this is  (∑ X·Ws + b) + ∑ Nb·Wn, which is the
    specification's  (∑ X·Ws + ∑ Nb·Wn) + b  since addition of extended reals is commutative and associative.
  * The normalisation.  The host forms  max((((H − rows(row μ)) · rows(row (rsqrt(σ² + ε)))) · rows(row γ)) + rows(row β), 0)
    with ε and 0 splat constants; entry (r, c) is the specification's.
  * The projection.  A·Wc + rows(row bc).
  * The neighbour mean.  Multiplying every row of A by the reciprocal 1 / max(deg, 1) of its clamped degree is dividing
    it by max(deg, 1): the clamped degree is at least one, hence not zero.

  The specification takes every per-column quantity as a reshaped 1×N row; the reshape of a vector to a row and its
  broadcast into a row are one array.
-/
import Idealize.ShloMosaic.PureOps.Ideal.Laws
import Idealize.ShloMosaic.Lib.Pipeline.Value
import Idealize.ShloMosaic.Lib.ValueIdx
import proofs.«165646_j23587960390209_1_alg».proof.Proof.Spec
import proofs.«165646_j23587960390209_1_alg».proof.Proof.LibPlainDot
import proofs.«165646_j23587960390209_1_alg».proof.Proof.LibRowInDim
import proofs.«165646_j23587960390209_1_alg».proof.Proof.LibRowOfVector
import proofs.«165646_j23587960390209_1_alg».proof.Proof.LibColumnInDim

noncomputable section

open scoped BigOperators

namespace Cert.RefSpell

open Idealize.ShloMosaic Idealize.ShloMosaic.ValueIdx

variable {R K N : Nat}

/-- The word 0x3F800000 is the extended real 1. -/
theorem ofBits_one : Ideal.ofBits .f32 0x3F800000#32 = 1 := by
  simp [Ideal.ofBits, Ideal.ieee, -EReal.coe_mul]; norm_num

/-- A length-N vector broadcast into a 1×N row and that row copied to all R rows, at (p, q): the vector at q. -/
theorem rows_row (hN : N ≠ 1)
    (hrow : (⟨1, ![N]⟩ : Shape).BroadcastsInDim ⟨2, ![1, N]⟩ (![1] : Fin 1 → Fin 2))
    (hrows : (⟨2, ![1, N]⟩ : Shape).BroadcastsInDim ⟨2, ![R, N]⟩ (![0, 1] : Fin 2 → Fin 2))
    (v : FVec Ideal ⟨1, ![N]⟩ .f32) (p : Fin R) (q : Fin N) :
    broadcastInDim ⟨2, ![R, N]⟩ ![0, 1] hrows (broadcastInDim ⟨2, ![1, N]⟩ ![1] hrow v) (ix2 p q) = v (ix1 q) := by
  rw [Cert.RowInDim.broadcastInDim_rows hN, Cert.RowOfVector.broadcastInDim_row hN]

/-- (X·Ws + rows(row b)) + Nb·Wn, as the host spells it, is the specification's combine of X, Nb with the bias as a
    reshaped row. -/
theorem host_combine (hN : N ≠ 1) (D : DotDims ⟨2, ![R, K]⟩ ⟨2, ![K, N]⟩ ⟨2, ![R, N]⟩) (hD : D = DotDims.plain R K N)
    (prec : Option ContractPrecision)
    (hrow : (⟨1, ![N]⟩ : Shape).BroadcastsInDim ⟨2, ![1, N]⟩ (![1] : Fin 1 → Fin 2))
    (hrows : (⟨2, ![1, N]⟩ : Shape).BroadcastsInDim ⟨2, ![R, N]⟩ (![0, 1] : Fin 2 → Fin 2))
    (hcast : (⟨1, ![N]⟩ : Shape).ShapeCasts ⟨2, ![1, N]⟩)
    (X Nb : FVec Ideal ⟨2, ![R, K]⟩ .f32) (Ws Wn : FVec Ideal ⟨2, ![K, N]⟩ .f32) (b : FVec Ideal ⟨1, ![N]⟩ .f32) :
    addf (addf (Host.dotGeneral D prec X Ws)
        (broadcastInDim ⟨2, ![R, N]⟩ ![0, 1] hrows (broadcastInDim ⟨2, ![1, N]⟩ ![1] hrow b)))
      (Host.dotGeneral D prec Nb Wn)
    = Cert.Sage.combine X Nb Ws Wn (shapeCast ⟨2, ![1, N]⟩ b hcast) := by
  funext j
  obtain ⟨p, q, rfl⟩ : ∃ (p : Fin R) (q : Fin N), j = ix2 p q := ⟨j 0, j 1, eq_ix2 j⟩
  simp only [Host.dotGeneral]
  rw [addf_apply, addf_apply, Cert.PlainDot.dotGeneral_apply D hD, Cert.PlainDot.dotGeneral_apply D hD,
    rows_row hN]
  show _ = ((∑ k : Fin K, X (ix2 p k) * Ws (ix2 k q)) + ∑ k : Fin K, Nb (ix2 p k) * Wn (ix2 k q))
    + shapeCast ⟨2, ![1, N]⟩ b hcast (ix2 0 q)
  rw [Cert.RowOfVector.shapeCast_row, add_right_comm]

/-- The host's normalise–scale–shift–clamp of H by per-column vectors is the specification's with the vectors as
    reshaped rows. -/
theorem host_bnrelu (hN : N ≠ 1)
    (hrow : (⟨1, ![N]⟩ : Shape).BroadcastsInDim ⟨2, ![1, N]⟩ (![1] : Fin 1 → Fin 2))
    (hrows : (⟨2, ![1, N]⟩ : Shape).BroadcastsInDim ⟨2, ![R, N]⟩ (![0, 1] : Fin 2 → Fin 2))
    (hcast : (⟨1, ![N]⟩ : Shape).ShapeCasts ⟨2, ![1, N]⟩)
    (hsN : (⟨0, ![]⟩ : Shape).BroadcastsInDim ⟨1, ![N]⟩ (![] : Fin 0 → Fin 1))
    (hsRN : (⟨0, ![]⟩ : Shape).BroadcastsInDim ⟨2, ![R, N]⟩ (![] : Fin 0 → Fin 2))
    (H : FVec Ideal ⟨2, ![R, N]⟩ .f32) (mu var g be : FVec Ideal ⟨1, ![N]⟩ .f32) :
    maximumf
      (addf
        (mulf
          (mulf
            (subf H (broadcastInDim ⟨2, ![R, N]⟩ ![0, 1] hrows (broadcastInDim ⟨2, ![1, N]⟩ ![1] hrow mu)))
            (broadcastInDim ⟨2, ![R, N]⟩ ![0, 1] hrows (broadcastInDim ⟨2, ![1, N]⟩ ![1] hrow
              (Host.rsqrt (addf var
                (broadcastInDim ⟨1, ![N]⟩ ![] hsN (constant (F := Ideal) ⟨0, ![]⟩ .f32 0x3727C5AC#32)))))))
          (broadcastInDim ⟨2, ![R, N]⟩ ![0, 1] hrows (broadcastInDim ⟨2, ![1, N]⟩ ![1] hrow g)))
        (broadcastInDim ⟨2, ![R, N]⟩ ![0, 1] hrows (broadcastInDim ⟨2, ![1, N]⟩ ![1] hrow be)))
      (broadcastInDim ⟨2, ![R, N]⟩ ![] hsRN (constant (F := Ideal) ⟨0, ![]⟩ .f32 0x00000000#32))
    = Cert.Sage.bnrelu H (shapeCast ⟨2, ![1, N]⟩ mu hcast) (shapeCast ⟨2, ![1, N]⟩ var hcast)
        (shapeCast ⟨2, ![1, N]⟩ g hcast) (shapeCast ⟨2, ![1, N]⟩ be hcast) := by
  funext j
  obtain ⟨p, q, rfl⟩ : ∃ (p : Fin R) (q : Fin N), j = ix2 p q := ⟨j 0, j 1, eq_ix2 j⟩
  rw [maximumf_apply, addf_apply, mulf_apply, mulf_apply, subf_apply, rows_row hN, rows_row hN, rows_row hN,
    rows_row hN]
  show max ((((H (ix2 p q) - mu (ix1 q)) * Ideal.rsqrt (var (ix1 q) + Ideal.ofBits .f32 0x3727C5AC#32)) * g (ix1 q))
      + be (ix1 q)) (Ideal.ofBits .f32 0x00000000#32)
    = max ((((H (ix2 p q) - shapeCast ⟨2, ![1, N]⟩ mu hcast (ix2 0 q))
        * Ideal.rsqrt (shapeCast ⟨2, ![1, N]⟩ var hcast (ix2 0 q) + Ideal.ofBits .f32 0x3727C5AC#32))
        * shapeCast ⟨2, ![1, N]⟩ g hcast (ix2 0 q)) + shapeCast ⟨2, ![1, N]⟩ be hcast (ix2 0 q))
      (Ideal.ofBits .f32 0x00000000#32)
  rw [Cert.RowOfVector.shapeCast_row, Cert.RowOfVector.shapeCast_row, Cert.RowOfVector.shapeCast_row,
    Cert.RowOfVector.shapeCast_row]

/-- A·Wc + rows(row bc), as the host spells it, is the specification's projection with the bias as a reshaped row. -/
theorem host_project (hN : N ≠ 1) (D : DotDims ⟨2, ![R, K]⟩ ⟨2, ![K, N]⟩ ⟨2, ![R, N]⟩) (hD : D = DotDims.plain R K N)
    (prec : Option ContractPrecision)
    (hrow : (⟨1, ![N]⟩ : Shape).BroadcastsInDim ⟨2, ![1, N]⟩ (![1] : Fin 1 → Fin 2))
    (hrows : (⟨2, ![1, N]⟩ : Shape).BroadcastsInDim ⟨2, ![R, N]⟩ (![0, 1] : Fin 2 → Fin 2))
    (hcast : (⟨1, ![N]⟩ : Shape).ShapeCasts ⟨2, ![1, N]⟩)
    (A : FVec Ideal ⟨2, ![R, K]⟩ .f32) (Wc : FVec Ideal ⟨2, ![K, N]⟩ .f32) (bc : FVec Ideal ⟨1, ![N]⟩ .f32) :
    addf (Host.dotGeneral D prec A Wc)
      (broadcastInDim ⟨2, ![R, N]⟩ ![0, 1] hrows (broadcastInDim ⟨2, ![1, N]⟩ ![1] hrow bc))
    = Cert.Sage.project A Wc (shapeCast ⟨2, ![1, N]⟩ bc hcast) := by
  funext j
  obtain ⟨p, q, rfl⟩ : ∃ (p : Fin R) (q : Fin N), j = ix2 p q := ⟨j 0, j 1, eq_ix2 j⟩
  simp only [Host.dotGeneral]
  rw [addf_apply, Cert.PlainDot.dotGeneral_apply D hD, rows_row hN]
  show _ = (∑ k : Fin K, A (ix2 p k) * Wc (ix2 k q)) + shapeCast ⟨2, ![1, N]⟩ bc hcast (ix2 0 q)
  rw [Cert.RowOfVector.shapeCast_row]

/-- Two spellings of the neighbour mean: every row of A times the reciprocal of its clamped degree, and every row of A
    divided by its clamped degree.  (The clamp is against a splat of the word of 1.) -/
theorem neigh_mean {a b : Nat}
    (hcol : (⟨1, ![a]⟩ : Shape).BroadcastsInDim ⟨2, ![a, 1]⟩ (![0] : Fin 1 → Fin 2))
    (hlanes : (⟨2, ![a, 1]⟩ : Shape).BroadcastsInDim ⟨2, ![a, b]⟩ (![0, 1] : Fin 2 → Fin 2))
    (hs : (⟨0, ![]⟩ : Shape).BroadcastsInDim ⟨1, ![a]⟩ (![] : Fin 0 → Fin 1))
    (A : FVec Ideal ⟨2, ![a, b]⟩ .f32) (deg : FVec Ideal ⟨1, ![a]⟩ .f32) :
    mulf A (broadcastInDim ⟨2, ![a, b]⟩ ![0, 1] hlanes (broadcastInDim ⟨2, ![a, 1]⟩ ![0] hcol
        (Host.divf (broadcastInDim ⟨1, ![a]⟩ ![] hs (constant (F := Ideal) ⟨0, ![]⟩ .f32 0x3F800000#32))
          (maximumf deg (broadcastInDim ⟨1, ![a]⟩ ![] hs (constant (F := Ideal) ⟨0, ![]⟩ .f32 0x3F800000#32))))))
    = Host.divf A (broadcastInDim ⟨2, ![a, b]⟩ ![0, 1] hlanes (broadcastInDim ⟨2, ![a, 1]⟩ ![0] hcol
        (maximumf deg (broadcastInDim ⟨1, ![a]⟩ ![] hs (constant (F := Ideal) ⟨0, ![]⟩ .f32 0x3F800000#32))))) := by
  funext j
  obtain ⟨p, c, rfl⟩ : ∃ (p : Fin a) (c : Fin b), j = ix2 p c := ⟨j 0, j 1, eq_ix2 j⟩
  show A (ix2 p c) * broadcastInDim ⟨2, ![a, b]⟩ ![0, 1] hlanes (broadcastInDim ⟨2, ![a, 1]⟩ ![0] hcol
        (Host.divf (broadcastInDim ⟨1, ![a]⟩ ![] hs (constant (F := Ideal) ⟨0, ![]⟩ .f32 0x3F800000#32))
          (maximumf deg (broadcastInDim ⟨1, ![a]⟩ ![] hs (constant (F := Ideal) ⟨0, ![]⟩ .f32 0x3F800000#32))))) (ix2 p c)
    = Ideal.div (A (ix2 p c)) (broadcastInDim ⟨2, ![a, b]⟩ ![0, 1] hlanes (broadcastInDim ⟨2, ![a, 1]⟩ ![0] hcol
        (maximumf deg (broadcastInDim ⟨1, ![a]⟩ ![] hs (constant (F := Ideal) ⟨0, ![]⟩ .f32 0x3F800000#32)))) (ix2 p c))
  rw [Cert.ColumnInDim.broadcastInDim_lanes, Cert.ColumnInDim.broadcastInDim_column,
    Cert.ColumnInDim.broadcastInDim_lanes, Cert.ColumnInDim.broadcastInDim_column]
  show A (ix2 p c) * Ideal.div (Ideal.ofBits .f32 0x3F800000#32) (max (deg (ix1 p)) (Ideal.ofBits .f32 0x3F800000#32))
    = Ideal.div (A (ix2 p c)) (max (deg (ix1 p)) (Ideal.ofBits .f32 0x3F800000#32))
  rw [ofBits_one]
  exact Cert.Sage.mul_div_one _ _ (Cert.Sage.max_one_ne_zero _)

end Cert.RefSpell

end
-- ==== Proof.RefNet.lean ====
/-
  The reference network, stage by stage, as functions of whole arrays.

  Every node sums its in-neighbours' feature rows (a gather of rows by the edges' sources followed by a scatter-add at
  their destinations), divides by its in-degree clamped below at one, and combines the result with its own features;
  every column is then normalised by its own mean and variance over the rows, scaled, shifted and clamped at zero.
  Three such layers are followed by a projection.

  The aggregation, the clamped degree and the column statistics are kept as the operations that compute them; the dense
  pieces are the specification's.  The last part shows that the reference's own spelling of each dense piece is the
  specification's.
-/
import proofs.«165646_j23587960390209_1_alg».proof.Proof.Gen.ReferenceIdeal
import proofs.«165646_j23587960390209_1_alg».proof.Proof.RefSpell
import proofs.«165646_j23587960390209_1_alg».proof.Proof.Spec

noncomputable section

open scoped BigOperators

namespace Cert.RefNet

open Cert.ReferenceIdeal Cert.ReferenceIdeal.Gen Idealize.ShloMosaic Idealize.ShloMosaic.ValueIdx

/-- The in-degree of every node: ones scattered and added at the edges' destinations. -/
def deg (dst : IVec S1250000 32) : FVec Ideal S100000 .f32 :=
  Host.scatterAdd scatter_S100000_S1250000x1_S1250000_n_0_0_1
    (broadcastInDim S100000 ![] bcast_S_S100000 (constant (F := Ideal) S_ .f32 0x00000000#32))
    (broadcastInDim S1250000x1 ![0] bcast_S1250000_S1250000x1_0 dst)
    (broadcastInDim S1250000 ![] bcast_S_S1250000 (constant (F := Ideal) S_ .f32 0x3F800000#32))

/-- The in-degree clamped below at one. -/
def dmax (dst : IVec S1250000 32) : FVec Ideal S100000 .f32 :=
  maximumf (deg dst) (broadcastInDim S100000 ![] bcast_S_S100000 (constant (F := Ideal) S_ .f32 0x3F800000#32))

/-- The edges' sources with a negative index counted from the end. -/
def srcn (src : IVec S1250000 32) : IVec S1250000 32 :=
  select (cmpi .slt src (broadcastInDim S1250000 ![] bcast_S_S1250000 (constantI S_ 32 0#32)))
    (addi src (broadcastInDim S1250000 ![] bcast_S_S1250000 (constantI S_ 32 100000#32))) src

/-- The sum over every node's in-edges of the source's feature row, 64 features. -/
def agg64 (X : FVec Ideal S100000x64 .f32) (src dst : IVec S1250000 32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 dst)
    (Host.gather gather_S100000x64_S1250000x1_S1250000x64_1_0_n_n_0_1_164 X
      (broadcastInDim S1250000x1 ![0] bcast_S1250000_S1250000x1_0 (srcn src)))

/-- The same sum, 128 features. -/
def agg128 (X : FVec Ideal S100000x128 .f32) (src dst : IVec S1250000 32) : FVec Ideal S100000x128 .f32 :=
  Host.scatterAdd scatter_S100000x128_S1250000x1_S1250000x128_1_0_0_1
    (broadcastInDim S100000x128 ![] bcast_S_S100000x128 (constant (F := Ideal) S_ .f32 0x00000000#32))
    (broadcastInDim S1250000x1 ![0] bcast_S1250000_S1250000x1_0 dst)
    (Host.gather gather_S100000x128_S1250000x1_S1250000x128_1_0_n_n_0_1_1128 X
      (broadcastInDim S1250000x1 ![0] bcast_S1250000_S1250000x1_0 (srcn src)))

/-- The neighbour mean: the sum over in-edges divided by the clamped in-degree, 64 features. -/
def nbr64 (X : FVec Ideal S100000x64 .f32) (src dst : IVec S1250000 32) : FVec Ideal S100000x64 .f32 :=
  Host.divf (agg64 X src dst)
    (broadcastInDim S100000x64 ![0, 1] bcast_S100000x1_S100000x64_0_1
      (broadcastInDim S100000x1 ![0] bcast_S100000_S100000x1_0 (dmax dst)))

/-- The neighbour mean, 128 features. -/
def nbr128 (X : FVec Ideal S100000x128 .f32) (src dst : IVec S1250000 32) : FVec Ideal S100000x128 .f32 :=
  Host.divf (agg128 X src dst)
    (broadcastInDim S100000x128 ![0, 1] bcast_S100000x1_S100000x128_0_1
      (broadcastInDim S100000x1 ![0] bcast_S100000_S100000x1_0 (dmax dst)))

/-- The splat of 100000, the number of rows. -/
def count : FVec Ideal S128 .f32 := broadcastInDim S128 ![] bcast_S_S128 (constant (F := Ideal) S_ .f32 0x47C35000#32)

/-- The column means over the 100000 rows. -/
def mean (H : FVec Ideal S100000x128 .f32) : FVec Ideal S128 .f32 :=
  Host.divf (Host.reduceAdd H (constant (F := Ideal) S_ .f32 0x00000000#32) reducesTo_S100000x128_S128_d0 h_S_) count

/-- H with its column means subtracted. -/
def centred (H : FVec Ideal S100000x128 .f32) : FVec Ideal S100000x128 .f32 :=
  subf H (broadcastInDim S100000x128 ![0, 1] bcast_S1x128_S100000x128_0_1
    (broadcastInDim S1x128 ![1] bcast_S128_S1x128_1 (mean H)))

/-- The column variances over the 100000 rows (the mean of the squared centred entries). -/
def var (H : FVec Ideal S100000x128 .f32) : FVec Ideal S128 .f32 :=
  Host.divf (Host.reduceAdd (mulf (centred H) (centred H)) (constant (F := Ideal) S_ .f32 0x00000000#32)
    reducesTo_S100000x128_S128_d0 h_S_) count

/-- A length-128 vector as a 1×128 row. -/
def row (v : FVec Ideal S128 .f32) : FVec Ideal S1x128 .f32 := shapeCast S1x128 v (by decide)

/-- A length-2 vector as a 1×2 row. -/
def row2 (v : FVec Ideal S2 .f32) : FVec Ideal S1x2 .f32 := shapeCast S1x2 v (by decide)

/-- Batch normalisation of H by its own column statistics, scale, shift, clamp at zero. -/
def bn (H : FVec Ideal S100000x128 .f32) (g be : FVec Ideal S128 .f32) : FVec Ideal S100000x128 .f32 :=
  Cert.Sage.bnrelu H (row (mean H)) (row (var H)) (row g) (row be)

/-- The first layer: 64 features in, 128 out. -/
def layer64 (X : FVec Ideal S100000x64 .f32) (src dst : IVec S1250000 32) (Ws : FVec Ideal S64x128 .f32)
    (b : FVec Ideal S128 .f32) (Wn : FVec Ideal S64x128 .f32) (g be : FVec Ideal S128 .f32) :
    FVec Ideal S100000x128 .f32 :=
  bn (Cert.Sage.combine X (nbr64 X src dst) Ws Wn (row b)) g be

/-- A later layer: 128 features in, 128 out. -/
def layer128 (X : FVec Ideal S100000x128 .f32) (src dst : IVec S1250000 32) (Ws : FVec Ideal S128x128 .f32)
    (b : FVec Ideal S128 .f32) (Wn : FVec Ideal S128x128 .f32) (g be : FVec Ideal S128 .f32) :
    FVec Ideal S100000x128 .f32 :=
  bn (Cert.Sage.combine X (nbr128 X src dst) Ws Wn (row b)) g be

/-- The network: three layers and the projection to two classes. -/
def net (X : FVec Ideal S100000x64 .f32) (src dst : IVec S1250000 32)
    (Ws0 : FVec Ideal S64x128 .f32) (b0 : FVec Ideal S128 .f32) (Wn0 : FVec Ideal S64x128 .f32) (g0 be0 : FVec Ideal S128 .f32)
    (Ws1 : FVec Ideal S128x128 .f32) (b1 : FVec Ideal S128 .f32) (Wn1 : FVec Ideal S128x128 .f32) (g1 be1 : FVec Ideal S128 .f32)
    (Ws2 : FVec Ideal S128x128 .f32) (b2 : FVec Ideal S128 .f32) (Wn2 : FVec Ideal S128x128 .f32) (g2 be2 : FVec Ideal S128 .f32)
    (Wc : FVec Ideal S128x2 .f32) (bc : FVec Ideal S2 .f32) : FVec Ideal S100000x2 .f32 :=
  Cert.Sage.project
    (layer128 (layer128 (layer64 X src dst Ws0 b0 Wn0 g0 be0) src dst Ws1 b1 Wn1 g1 be1) src dst Ws2 b2 Wn2 g2 be2)
    Wc (row2 bc)

/-! ## The dense pieces as the reference spells them -/

/-- The reference's spelling of the combine step, 64 features in:  (X·Ws + rows(row b)) + Nb·Wn. -/
def hostCombine64 (X Nb : FVec Ideal S100000x64 .f32) (Ws : FVec Ideal S64x128 .f32) (b : FVec Ideal S128 .f32)
    (Wn : FVec Ideal S64x128 .f32) : FVec Ideal S100000x128 .f32 :=
  addf (addf (Host.dotGeneral dot_S100000x64_S64x128_S100000x128_1_0_0_1_n_n none X Ws)
      (broadcastInDim S100000x128 ![0, 1] bcast_S1x128_S100000x128_0_1 (broadcastInDim S1x128 ![1] bcast_S128_S1x128_1 b)))
    (Host.dotGeneral dot_S100000x64_S64x128_S100000x128_1_0_0_1_n_n none Nb Wn)

/-- The same, 128 features in. -/
def hostCombine128 (X Nb : FVec Ideal S100000x128 .f32) (Ws : FVec Ideal S128x128 .f32) (b : FVec Ideal S128 .f32)
    (Wn : FVec Ideal S128x128 .f32) : FVec Ideal S100000x128 .f32 :=
  addf (addf (Host.dotGeneral dot_S100000x128_S128x128_S100000x128_1_0_0_1_n_n none X Ws)
      (broadcastInDim S100000x128 ![0, 1] bcast_S1x128_S100000x128_0_1 (broadcastInDim S1x128 ![1] bcast_S128_S1x128_1 b)))
    (Host.dotGeneral dot_S100000x128_S128x128_S100000x128_1_0_0_1_n_n none Nb Wn)

/-- The reference's spelling of the normalisation of H by its own column statistics, scale, shift and clamp. -/
def hostBn (H : FVec Ideal S100000x128 .f32) (g be : FVec Ideal S128 .f32) : FVec Ideal S100000x128 .f32 :=
  maximumf
    (addf
      (mulf
        (mulf (centred H)
          (broadcastInDim S100000x128 ![0, 1] bcast_S1x128_S100000x128_0_1 (broadcastInDim S1x128 ![1] bcast_S128_S1x128_1
            (Host.rsqrt (addf (var H)
              (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 be)))
    (broadcastInDim S100000x128 ![] bcast_S_S100000x128 (constant (F := Ideal) S_ .f32 0x00000000#32))

/-- The reference's first layer as its operations spell it. -/
def hostLayer64 (X : FVec Ideal S100000x64 .f32) (src dst : IVec S1250000 32) (Ws : FVec Ideal S64x128 .f32)
    (b : FVec Ideal S128 .f32) (Wn : FVec Ideal S64x128 .f32) (g be : FVec Ideal S128 .f32) :
    FVec Ideal S100000x128 .f32 :=
  hostBn (hostCombine64 X (nbr64 X src dst) Ws b Wn) g be

/-- A later layer as the reference's operations spell it. -/
def hostLayer128 (X : FVec Ideal S100000x128 .f32) (src dst : IVec S1250000 32) (Ws : FVec Ideal S128x128 .f32)
    (b : FVec Ideal S128 .f32) (Wn : FVec Ideal S128x128 .f32) (g be : FVec Ideal S128 .f32) :
    FVec Ideal S100000x128 .f32 :=
  hostBn (hostCombine128 X (nbr128 X src dst) Ws b Wn) g be

/-- The reference's projection as its operations spell it. -/
def hostProject (A : FVec Ideal S100000x128 .f32) (Wc : FVec Ideal S128x2 .f32) (bc : FVec Ideal S2 .f32) :
    FVec Ideal S100000x2 .f32 :=
  addf (Host.dotGeneral dot_S100000x128_S128x2_S100000x2_1_0_0_1_n_n none A Wc)
    (broadcastInDim S100000x2 ![0, 1] bcast_S1x2_S100000x2_0_1 (broadcastInDim S1x2 ![1] bcast_S2_S1x2_1 bc))

/-! ## The reference's spellings are the specification's pieces -/

theorem hostCombine64_eq (X Nb : FVec Ideal S100000x64 .f32) (Ws : FVec Ideal S64x128 .f32) (b : FVec Ideal S128 .f32)
    (Wn : FVec Ideal S64x128 .f32) : hostCombine64 X Nb Ws b Wn = Cert.Sage.combine X Nb Ws Wn (row b) :=
  Cert.RefSpell.host_combine (by decide) dot_S100000x64_S64x128_S100000x128_1_0_0_1_n_n rfl none
    bcast_S128_S1x128_1 bcast_S1x128_S100000x128_0_1 (by decide) X Nb Ws Wn b

theorem hostCombine128_eq (X Nb : FVec Ideal S100000x128 .f32) (Ws : FVec Ideal S128x128 .f32) (b : FVec Ideal S128 .f32)
    (Wn : FVec Ideal S128x128 .f32) : hostCombine128 X Nb Ws b Wn = Cert.Sage.combine X Nb Ws Wn (row b) :=
  Cert.RefSpell.host_combine (by decide) dot_S100000x128_S128x128_S100000x128_1_0_0_1_n_n rfl none
    bcast_S128_S1x128_1 bcast_S1x128_S100000x128_0_1 (by decide) X Nb Ws Wn b

theorem hostBn_eq (H : FVec Ideal S100000x128 .f32) (g be : FVec Ideal S128 .f32) : hostBn H g be = bn H g be :=
  Cert.RefSpell.host_bnrelu (by decide) bcast_S128_S1x128_1 bcast_S1x128_S100000x128_0_1 (by decide) bcast_S_S128
    bcast_S_S100000x128 H (mean H) (var H) g be

theorem hostProject_eq (A : FVec Ideal S100000x128 .f32) (Wc : FVec Ideal S128x2 .f32) (bc : FVec Ideal S2 .f32) :
    hostProject A Wc bc = Cert.Sage.project A Wc (row2 bc) :=
  Cert.RefSpell.host_project (by decide) dot_S100000x128_S128x2_S100000x2_1_0_0_1_n_n rfl none
    bcast_S2_S1x2_1 bcast_S1x2_S100000x2_0_1 (by decide) A Wc bc

theorem hostLayer64_eq (X : FVec Ideal S100000x64 .f32) (src dst : IVec S1250000 32) (Ws : FVec Ideal S64x128 .f32)
    (b : FVec Ideal S128 .f32) (Wn : FVec Ideal S64x128 .f32) (g be : FVec Ideal S128 .f32) :
    hostLayer64 X src dst Ws b Wn g be = layer64 X src dst Ws b Wn g be := by
  unfold hostLayer64 layer64
  rw [hostCombine64_eq, hostBn_eq]

theorem hostLayer128_eq (X : FVec Ideal S100000x128 .f32) (src dst : IVec S1250000 32) (Ws : FVec Ideal S128x128 .f32)
    (b : FVec Ideal S128 .f32) (Wn : FVec Ideal S128x128 .f32) (g be : FVec Ideal S128 .f32) :
    hostLayer128 X src dst Ws b Wn g be = layer128 X src dst Ws b Wn g be := by
  unfold hostLayer128 layer128
  rw [hostCombine128_eq, hostBn_eq]

end Cert.RefNet

end
-- ==== Proof.RefValue.lean ====
/-
  The reference's run, read back: its result buffer is the network of its arguments.

  The reference is a straight line of 196 host operations.  Its fold over the launch contents is cut at the layer
  boundaries into four stretches; each stretch, over an arbitrary valuation of the buffers it reads, leaves its layer's
  result (in the reference's own spelling) in its result buffer and the arguments the later stretches read unchanged.
  Chaining the four and replacing each spelling by the specification's piece gives the network.
-/
import proofs.«165646_j23587960390209_1_alg».proof.Proof.RefRun
import proofs.«165646_j23587960390209_1_alg».proof.Proof.RefNet

noncomputable section

open scoped BigOperators

namespace Cert.RefNet

open Cert.ReferenceIdeal Cert.ReferenceIdeal.Gen Idealize.ShloMosaic Idealize.ShloMosaic.ValueIdx

open Idealize.SL.Sem Idealize.ShloMosaic.StableHlo Idealize.ShloMosaic.TcCoe Cert.ReferenceIdeal.RunP

/-! ## The fold of a list of operations, cut in two -/

/-- Folding two lists one after the other is folding their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A fold is the fold of the list's tail from position n over the fold of its first n operations. -/
theorem after_split (n : Nat) (l : List (HloOp τ sig (Elt Ideal))) (V : Valuation τ sig (Elt Ideal)) :
    after l V = after (l.drop n) (after (l.take n) V) := by
  rw [← after_append, List.take_append_drop]

/-! ## The four stretches of the reference: one per layer, and the projection -/

/-- The first layer's 64 operations. -/
def seg0 : List (HloOp τ sig (Elt Ideal)) := List.take 64 (ops (F := Ideal))
/-- The second layer's 64 operations. -/
def seg1 : List (HloOp τ sig (Elt Ideal)) := List.take 64 (List.drop 64 (ops (F := Ideal)))
/-- The third layer's 64 operations. -/
def seg2 : List (HloOp τ sig (Elt Ideal)) := List.take 64 (List.drop 64 (List.drop 64 (ops (F := Ideal))))
/-- The projection's 4 operations. -/
def seg3 : List (HloOp τ sig (Elt Ideal)) := List.drop 64 (List.drop 64 (List.drop 64 (ops (F := Ideal))))

/-- The whole fold is the four stretches' folds in turn. -/
theorem after_ops (V : Valuation τ sig (Elt Ideal)) :
    after (ops (F := Ideal)) V = after seg3 (after seg2 (after seg1 (after seg0 V))) := by
  unfold seg0 seg1 seg2 seg3
  rw [← after_split, ← after_split, ← after_split]

/-! ## Each stretch over an arbitrary valuation: its layer of the inputs it reads, and the later arguments unchanged -/

set_option maxRecDepth 8192 in
theorem seg0_v50 (W : Valuation τ sig (Elt Ideal)) :
    after seg0 W (Proc.devRef .tc main_v50)
      = hostLayer64 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  simp only [seg0, List.take_succ_cons, List.take_zero]
  after_results_simp
  rfl

theorem seg0_arg1 (W : Valuation τ sig (Elt Ideal)) :
    after seg0 W (Proc.devRef .tc main_arg1) = W (Proc.devRef .tc main_arg1) := by
  simp only [seg0, List.take_succ_cons, List.take_zero]
  after_results_simp

theorem seg0_arg2 (W : Valuation τ sig (Elt Ideal)) :
    after seg0 W (Proc.devRef .tc main_arg2) = W (Proc.devRef .tc main_arg2) := by
  simp only [seg0, List.take_succ_cons, List.take_zero]
  after_results_simp

theorem seg0_arg8 (W : Valuation τ sig (Elt Ideal)) :
    after seg0 W (Proc.devRef .tc main_arg8) = W (Proc.devRef .tc main_arg8) := by
  simp only [seg0, List.take_succ_cons, List.take_zero]
  after_results_simp

theorem seg0_arg9 (W : Valuation τ sig (Elt Ideal)) :
    after seg0 W (Proc.devRef .tc main_arg9) = W (Proc.devRef .tc main_arg9) := by
  simp only [seg0, List.take_succ_cons, List.take_zero]
  after_results_simp

theorem seg0_arg10 (W : Valuation τ sig (Elt Ideal)) :
    after seg0 W (Proc.devRef .tc main_arg10) = W (Proc.devRef .tc main_arg10) := by
  simp only [seg0, List.take_succ_cons, List.take_zero]
  after_results_simp

theorem seg0_arg11 (W : Valuation τ sig (Elt Ideal)) :
    after seg0 W (Proc.devRef .tc main_arg11) = W (Proc.devRef .tc main_arg11) := by
  simp only [seg0, List.take_succ_cons, List.take_zero]
  after_results_simp

theorem seg0_arg12 (W : Valuation τ sig (Elt Ideal)) :
    after seg0 W (Proc.devRef .tc main_arg12) = W (Proc.devRef .tc main_arg12) := by
  simp only [seg0, List.take_succ_cons, List.take_zero]
  after_results_simp

theorem seg0_arg13 (W : Valuation τ sig (Elt Ideal)) :
    after seg0 W (Proc.devRef .tc main_arg13) = W (Proc.devRef .tc main_arg13) := by
  simp only [seg0, List.take_succ_cons, List.take_zero]
  after_results_simp

theorem seg0_arg14 (W : Valuation τ sig (Elt Ideal)) :
    after seg0 W (Proc.devRef .tc main_arg14) = W (Proc.devRef .tc main_arg14) := by
  simp only [seg0, List.take_succ_cons, List.take_zero]
  after_results_simp

theorem seg0_arg15 (W : Valuation τ sig (Elt Ideal)) :
    after seg0 W (Proc.devRef .tc main_arg15) = W (Proc.devRef .tc main_arg15) := by
  simp only [seg0, List.take_succ_cons, List.take_zero]
  after_results_simp

theorem seg0_arg16 (W : Valuation τ sig (Elt Ideal)) :
    after seg0 W (Proc.devRef .tc main_arg16) = W (Proc.devRef .tc main_arg16) := by
  simp only [seg0, List.take_succ_cons, List.take_zero]
  after_results_simp

theorem seg0_arg17 (W : Valuation τ sig (Elt Ideal)) :
    after seg0 W (Proc.devRef .tc main_arg17) = W (Proc.devRef .tc main_arg17) := by
  simp only [seg0, List.take_succ_cons, List.take_zero]
  after_results_simp

theorem seg0_arg18 (W : Valuation τ sig (Elt Ideal)) :
    after seg0 W (Proc.devRef .tc main_arg18) = W (Proc.devRef .tc main_arg18) := by
  simp only [seg0, List.take_succ_cons, List.take_zero]
  after_results_simp

theorem seg0_arg19 (W : Valuation τ sig (Elt Ideal)) :
    after seg0 W (Proc.devRef .tc main_arg19) = W (Proc.devRef .tc main_arg19) := by
  simp only [seg0, List.take_succ_cons, List.take_zero]
  after_results_simp

set_option maxRecDepth 8192 in
theorem seg1_v101 (W : Valuation τ sig (Elt Ideal)) :
    after seg1 W (Proc.devRef .tc main_v101)
      = hostLayer128 (W (Proc.devRef .tc main_v50)) (W (Proc.devRef .tc main_arg1)) (W (Proc.devRef .tc main_arg2)) (W (Proc.devRef .tc main_arg8)) (W (Proc.devRef .tc main_arg9)) (W (Proc.devRef .tc main_arg10)) (W (Proc.devRef .tc main_arg11)) (W (Proc.devRef .tc main_arg12)) := by
  simp only [seg1, List.drop_succ_cons, List.drop_zero, List.take_succ_cons, List.take_zero]
  after_results_simp
  rfl

theorem seg1_arg1 (W : Valuation τ sig (Elt Ideal)) :
    after seg1 W (Proc.devRef .tc main_arg1) = W (Proc.devRef .tc main_arg1) := by
  simp only [seg1, List.drop_succ_cons, List.drop_zero, List.take_succ_cons, List.take_zero]
  after_results_simp

theorem seg1_arg2 (W : Valuation τ sig (Elt Ideal)) :
    after seg1 W (Proc.devRef .tc main_arg2) = W (Proc.devRef .tc main_arg2) := by
  simp only [seg1, List.drop_succ_cons, List.drop_zero, List.take_succ_cons, List.take_zero]
  after_results_simp

theorem seg1_arg13 (W : Valuation τ sig (Elt Ideal)) :
    after seg1 W (Proc.devRef .tc main_arg13) = W (Proc.devRef .tc main_arg13) := by
  simp only [seg1, List.drop_succ_cons, List.drop_zero, List.take_succ_cons, List.take_zero]
  after_results_simp

theorem seg1_arg14 (W : Valuation τ sig (Elt Ideal)) :
    after seg1 W (Proc.devRef .tc main_arg14) = W (Proc.devRef .tc main_arg14) := by
  simp only [seg1, List.drop_succ_cons, List.drop_zero, List.take_succ_cons, List.take_zero]
  after_results_simp

theorem seg1_arg15 (W : Valuation τ sig (Elt Ideal)) :
    after seg1 W (Proc.devRef .tc main_arg15) = W (Proc.devRef .tc main_arg15) := by
  simp only [seg1, List.drop_succ_cons, List.drop_zero, List.take_succ_cons, List.take_zero]
  after_results_simp

theorem seg1_arg16 (W : Valuation τ sig (Elt Ideal)) :
    after seg1 W (Proc.devRef .tc main_arg16) = W (Proc.devRef .tc main_arg16) := by
  simp only [seg1, List.drop_succ_cons, List.drop_zero, List.take_succ_cons, List.take_zero]
  after_results_simp

theorem seg1_arg17 (W : Valuation τ sig (Elt Ideal)) :
    after seg1 W (Proc.devRef .tc main_arg17) = W (Proc.devRef .tc main_arg17) := by
  simp only [seg1, List.drop_succ_cons, List.drop_zero, List.take_succ_cons, List.take_zero]
  after_results_simp

theorem seg1_arg18 (W : Valuation τ sig (Elt Ideal)) :
    after seg1 W (Proc.devRef .tc main_arg18) = W (Proc.devRef .tc main_arg18) := by
  simp only [seg1, List.drop_succ_cons, List.drop_zero, List.take_succ_cons, List.take_zero]
  after_results_simp

theorem seg1_arg19 (W : Valuation τ sig (Elt Ideal)) :
    after seg1 W (Proc.devRef .tc main_arg19) = W (Proc.devRef .tc main_arg19) := by
  simp only [seg1, List.drop_succ_cons, List.drop_zero, List.take_succ_cons, List.take_zero]
  after_results_simp

set_option maxRecDepth 8192 in
theorem seg2_v152 (W : Valuation τ sig (Elt Ideal)) :
    after seg2 W (Proc.devRef .tc main_v152)
      = hostLayer128 (W (Proc.devRef .tc main_v101)) (W (Proc.devRef .tc main_arg1)) (W (Proc.devRef .tc main_arg2)) (W (Proc.devRef .tc main_arg13)) (W (Proc.devRef .tc main_arg14)) (W (Proc.devRef .tc main_arg15)) (W (Proc.devRef .tc main_arg16)) (W (Proc.devRef .tc main_arg17)) := by
  simp only [seg2, List.drop_succ_cons, List.drop_zero, List.take_succ_cons, List.take_zero]
  after_results_simp
  rfl

theorem seg2_arg18 (W : Valuation τ sig (Elt Ideal)) :
    after seg2 W (Proc.devRef .tc main_arg18) = W (Proc.devRef .tc main_arg18) := by
  simp only [seg2, List.drop_succ_cons, List.drop_zero, List.take_succ_cons, List.take_zero]
  after_results_simp

theorem seg2_arg19 (W : Valuation τ sig (Elt Ideal)) :
    after seg2 W (Proc.devRef .tc main_arg19) = W (Proc.devRef .tc main_arg19) := by
  simp only [seg2, List.drop_succ_cons, List.drop_zero, List.take_succ_cons, List.take_zero]
  after_results_simp

set_option maxRecDepth 8192 in
theorem seg3_v156 (W : Valuation τ sig (Elt Ideal)) :
    after seg3 W (Proc.devRef .tc main_v156)
      = hostProject (W (Proc.devRef .tc main_v152)) (W (Proc.devRef .tc main_arg18)) (W (Proc.devRef .tc main_arg19)) := by
  simp only [seg3, List.drop_succ_cons, List.drop_zero]
  after_results_simp
  rfl

/-! ## The whole fold -/

/-- The reference's result buffer after all its operations, from any valuation V of the arguments: the three layers and
    the projection, in the reference's spelling, of V's arguments. -/
theorem host_value (V : Valuation τ sig (Elt Ideal)) :
    after (ops (F := Ideal)) V (Proc.devRef .tc main_v156)
      = hostProject
          (hostLayer128
            (hostLayer128
              (hostLayer64 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)))
              (V (Proc.devRef .tc main_arg1)) (V (Proc.devRef .tc main_arg2)) (V (Proc.devRef .tc main_arg8)) (V (Proc.devRef .tc main_arg9)) (V (Proc.devRef .tc main_arg10)) (V (Proc.devRef .tc main_arg11)) (V (Proc.devRef .tc main_arg12)))
            (V (Proc.devRef .tc main_arg1)) (V (Proc.devRef .tc main_arg2)) (V (Proc.devRef .tc main_arg13)) (V (Proc.devRef .tc main_arg14)) (V (Proc.devRef .tc main_arg15)) (V (Proc.devRef .tc main_arg16)) (V (Proc.devRef .tc main_arg17)))
          (V (Proc.devRef .tc main_arg18)) (V (Proc.devRef .tc main_arg19)) := by
  rw [after_ops, seg3_v156, seg2_arg18, seg2_arg19, seg2_v152,
    seg1_arg1, seg1_arg2, seg1_arg13, seg1_arg14, seg1_arg15, seg1_arg16, seg1_arg17, seg1_arg18, seg1_arg19, seg1_v101,
    seg0_arg1, seg0_arg2, seg0_arg8, seg0_arg9, seg0_arg10, seg0_arg11, seg0_arg12, seg0_arg13, seg0_arg14, seg0_arg15, seg0_arg16, seg0_arg17, seg0_arg18, seg0_arg19, seg0_v50]

/-- The reference's result, from the launch contents m on device c, is the network of the arguments' launch contents. -/
theorem ref_value (m : (ℓ : Loc nD τ sig) → Buf (Elt Ideal) ℓ) (c : Dev nD) :
    after (ops (F := Ideal)) (launchContents m c) (Proc.devRef .tc main_v156)
      = net (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19)) := by
  rw [host_value, hostLayer64_eq, hostLayer128_eq, hostLayer128_eq, hostProject_eq]
  rfl

end Cert.RefNet

end
-- ==== Proof.NetBridge.lean ====
/-
  The two spellings of the whole network are one function.

  Both programs compute, around their dense pieces, the same quantities with the same operations: the in-degree of every
  node (ones scattered and added at the edges' targets) clamped below at one, the sum over every node's in-edges of the
  source node's feature row (a row gather by the source index, a negative index counted from the end, followed by a
  scatter-add at the target), the column means and column variances of a hidden array over its 100000 rows, and a vector
  laid out as a row.  Stage by stage the two spellings apply the same operation, with dimension records that are the same
  literals, to the same operands, so each stage is one function.

  The one difference is the neighbour mean: one spelling multiplies the sum by the reciprocal 1 / max(deg, 1) of the
  clamped degree, the other divides the sum by max(deg, 1).  The clamped degree is at least one, hence not zero, and
  multiplying by the reciprocal of a nonzero extended real is dividing by it.

  With every stage identified, the two networks are the same composition of the specification's combine, normalise and
  project steps.
-/
import proofs.«165646_j23587960390209_1_alg».proof.Proof.KernelNet
import proofs.«165646_j23587960390209_1_alg».proof.Proof.RefNet

noncomputable section

namespace Cert.NetBridge

open Idealize.ShloMosaic
open Cert.KernelIdeal (S100000 S1250000 S100000x64 S100000x128 S64x128 S128x128 S128 S128x2 S2 S100000x2 S1x128 S1x2)

/-! ## The degree and the source indices -/

/-- The in-degree: the same scatter-add of ones into zeros at the edges' targets. -/
theorem deg_eq (dst : IVec S1250000 32) : KernelIdeal.Net.deg dst = RefNet.deg dst := by
  unfold KernelIdeal.Net.deg RefNet.deg
  rfl

/-- The in-degree clamped below at one. -/
theorem dmax_eq (dst : IVec S1250000 32) : KernelIdeal.Net.dmax dst = RefNet.dmax dst := by
  unfold KernelIdeal.Net.dmax RefNet.dmax
  rw [deg_eq]

/-- The source indices, a negative index counted from the end. -/
theorem srcn_eq (src : IVec S1250000 32) : KernelIdeal.Net.srcn src = RefNet.srcn src := by
  unfold KernelIdeal.Net.srcn RefNet.srcn
  rfl

/-! ## The sum over in-edges -/

/-- The sum over every node's in-edges of the source's 64 features: the same gather of rows followed by the same
    scatter-add, operand by operand. -/
theorem agg64_eq (X : FVec Ideal S100000x64 .f32) (src dst : IVec S1250000 32) :
    KernelIdeal.Net.agg64 X src dst = RefNet.agg64 X src dst := by
  unfold KernelIdeal.Net.agg64 RefNet.agg64
  rw [srcn_eq]
  rfl

/-- The same for 128 features. -/
theorem agg128_eq (X : FVec Ideal S100000x128 .f32) (src dst : IVec S1250000 32) :
    KernelIdeal.Net.agg128 X src dst = RefNet.agg128 X src dst := by
  unfold KernelIdeal.Net.agg128 RefNet.agg128
  rw [srcn_eq]
  rfl

/-! ## The neighbour mean -/

/-- The sum times the reciprocal of the clamped degree is the sum divided by the clamped degree: the clamped degree
    is at least one, hence not zero.  64 features. -/
theorem nbr64_eq (X : FVec Ideal S100000x64 .f32) (src dst : IVec S1250000 32) :
    KernelIdeal.Net.nbr64 X src dst = RefNet.nbr64 X src dst := by
  unfold KernelIdeal.Net.nbr64 KernelIdeal.Net.dinv KernelIdeal.Net.dmax RefNet.nbr64 RefNet.dmax
  rw [agg64_eq, deg_eq]
  exact Cert.RefSpell.neigh_mean _ _ _ _ _

/-- The same for 128 features. -/
theorem nbr128_eq (X : FVec Ideal S100000x128 .f32) (src dst : IVec S1250000 32) :
    KernelIdeal.Net.nbr128 X src dst = RefNet.nbr128 X src dst := by
  unfold KernelIdeal.Net.nbr128 KernelIdeal.Net.dinv KernelIdeal.Net.dmax RefNet.nbr128 RefNet.dmax
  rw [agg128_eq, deg_eq]
  exact Cert.RefSpell.neigh_mean _ _ _ _ _

/-! ## The column statistics -/

/-- The number of rows, as a vector over the columns. -/
theorem count_eq : KernelIdeal.Net.count = RefNet.count := by
  unfold KernelIdeal.Net.count RefNet.count
  rfl

/-- The column means: the same sum over the rows divided by the number of rows. -/
theorem mean_eq (H : FVec Ideal S100000x128 .f32) : KernelIdeal.Net.mean H = RefNet.mean H := by
  unfold KernelIdeal.Net.mean RefNet.mean
  rw [count_eq]

/-- The array minus its column means. -/
theorem centred_eq (H : FVec Ideal S100000x128 .f32) : KernelIdeal.Net.centred H = RefNet.centred H := by
  unfold KernelIdeal.Net.centred RefNet.centred
  rw [mean_eq]

/-- The column variances: the column means of the squared centred entries. -/
theorem var_eq (H : FVec Ideal S100000x128 .f32) : KernelIdeal.Net.var H = RefNet.var H := by
  unfold KernelIdeal.Net.var RefNet.var
  rw [centred_eq, count_eq]

/-! ## Vectors as rows -/

/-- A length-128 vector as a 1×128 row. -/
theorem row_eq (v : FVec Ideal S128 .f32) : KernelIdeal.Net.row v = RefNet.row v := by
  unfold KernelIdeal.Net.row RefNet.row
  rfl

/-- A length-2 vector as a 1×2 row. -/
theorem row2_eq (v : FVec Ideal S2 .f32) : KernelIdeal.Net.row2 v = RefNet.row2 v := by
  unfold KernelIdeal.Net.row2 RefNet.row2
  rfl

/-! ## The layers and the network -/

/-- Normalisation of an array by its own column statistics, scale, shift, clamp. -/
theorem bn_eq (H : FVec Ideal S100000x128 .f32) (g be : FVec Ideal S128 .f32) :
    KernelIdeal.Net.bn H g be = RefNet.bn H g be := by
  unfold KernelIdeal.Net.bn RefNet.bn
  rw [mean_eq, var_eq, row_eq, row_eq, row_eq, row_eq]

/-- The first layer: combine the features with their neighbour mean, then normalise. -/
theorem layer64_eq (X : FVec Ideal S100000x64 .f32) (src dst : IVec S1250000 32) (Ws : FVec Ideal S64x128 .f32)
    (b : FVec Ideal S128 .f32) (Wn : FVec Ideal S64x128 .f32) (g be : FVec Ideal S128 .f32) :
    KernelIdeal.Net.bn (KernelIdeal.Net.hid64 X src dst Ws b Wn) g be = RefNet.layer64 X src dst Ws b Wn g be := by
  unfold KernelIdeal.Net.hid64 RefNet.layer64
  rw [nbr64_eq, row_eq, bn_eq]

/-- A later layer. -/
theorem layer128_eq (X : FVec Ideal S100000x128 .f32) (src dst : IVec S1250000 32) (Ws : FVec Ideal S128x128 .f32)
    (b : FVec Ideal S128 .f32) (Wn : FVec Ideal S128x128 .f32) (g be : FVec Ideal S128 .f32) :
    KernelIdeal.Net.bn (KernelIdeal.Net.hid128 X src dst Ws b Wn) g be = RefNet.layer128 X src dst Ws b Wn g be := by
  unfold KernelIdeal.Net.hid128 RefNet.layer128
  rw [nbr128_eq, row_eq, bn_eq]

/-- The whole network: three layers and the projection, one function in both spellings. -/
theorem net_eq (X : FVec Ideal S100000x64 .f32) (src dst : IVec S1250000 32)
    (Ws0 : FVec Ideal S64x128 .f32) (b0 : FVec Ideal S128 .f32) (Wn0 : FVec Ideal S64x128 .f32) (g0 be0 : FVec Ideal S128 .f32)
    (Ws1 : FVec Ideal S128x128 .f32) (b1 : FVec Ideal S128 .f32) (Wn1 : FVec Ideal S128x128 .f32) (g1 be1 : FVec Ideal S128 .f32)
    (Ws2 : FVec Ideal S128x128 .f32) (b2 : FVec Ideal S128 .f32) (Wn2 : FVec Ideal S128x128 .f32) (g2 be2 : FVec Ideal S128 .f32)
    (Wc : FVec Ideal S128x2 .f32) (bc : FVec Ideal S2 .f32) :
    KernelIdeal.Net.net X src dst Ws0 b0 Wn0 g0 be0 Ws1 b1 Wn1 g1 be1 Ws2 b2 Wn2 g2 be2 Wc bc
      = RefNet.net X src dst Ws0 b0 Wn0 g0 be0 Ws1 b1 Wn1 g1 be1 Ws2 b2 Wn2 g2 be2 Wc bc := by
  unfold KernelIdeal.Net.net RefNet.net
  rw [layer64_eq, layer128_eq, layer128_eq, row2_eq]

end Cert.NetBridge

end
-- ==== Proof.lean ====
/-
  The certificate of a three-layer mean-aggregation graph network with batch normalisation: a Pallas kernel program of six
  regions against its jnp reference, equal as extended reals.

  One layer takes node features X, sums the features of every node's in-neighbours (a row gather by the edges' sources, a
  scatter-add by their targets), divides by the in-degree clamped below at one, forms  H = X·Ws + Nb·Wn + b,  normalises
  every column of H by its mean and variance over the 100000 nodes, scales, shifts and clamps at zero; the third layer is
  followed by a projection onto two classes.  The kernel program leaves the gather, the scatter and the column statistics
  to host operations and computes the dense pieces in regions of 20 row blocks; it multiplies by the reciprocal degree
  where the reference divides, adds the bias last where the reference adds it before the neighbour term, and changes the
  float format before its matrix products.  At the extended reals a change of format is the identity, addition is
  commutative and associative, and multiplying by the reciprocal of a degree that is at least one is dividing by it: no
  finiteness of the inputs is used.

  The three frames: the two kernel programs' are the generated frame certificates; the reference's is its run (every
  buffer at the fold of its host operations over the launch memory) read at the arguments, which no operation writes.
  The idealized kernel is the kernel itself, no operation rewritten (`preserves` is `True`).  The values: the kernel's result buffer is the last region's
  output array, read back through the boundaries' contents to the whole network of the launch contents
  (`Carry.W12_main_v98`); the reference's is the same network in its own spelling (`RefNet.ref_value`); the two
  spellings are one function (`NetBridge.net_eq`).
-/
import proofs.«165646_j23587960390209_1_alg».proof.Defs
import proofs.«165646_j23587960390209_1_alg».proof.Proof.Gen.Kernel
import proofs.«165646_j23587960390209_1_alg».proof.Proof.Gen.Kernel.Frame
import proofs.«165646_j23587960390209_1_alg».proof.Proof.Gen.KernelIdeal
import proofs.«165646_j23587960390209_1_alg».proof.Proof.Gen.KernelIdeal.Frame
import proofs.«165646_j23587960390209_1_alg».proof.Proof.Gen.ReferenceIdeal
import proofs.«165646_j23587960390209_1_alg».proof.Proof.Gen.Pre_finite_inputs
import proofs.«165646_j23587960390209_1_alg».proof.Proof.KernelRun
import proofs.«165646_j23587960390209_1_alg».proof.Proof.KernelValue
import proofs.«165646_j23587960390209_1_alg».proof.Proof.RefRun
import proofs.«165646_j23587960390209_1_alg».proof.Proof.RefKept
import proofs.«165646_j23587960390209_1_alg».proof.Proof.RefValue
import proofs.«165646_j23587960390209_1_alg».proof.Proof.NetBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs, and none of its operations writes an argument array. -/
theorem frame_reference : Cert.frame_ReferenceIdeal := fun m ρ _ =>
  (θ_run Cert.ReferenceIdeal.defs _ _).mono (fun _ h c =>
      ⟨(h c Cert.ReferenceIdeal.main_arg0).trans (Cert.ReferenceIdeal.RunP.kept_main_arg0 m c),
      (h c Cert.ReferenceIdeal.main_arg1).trans (Cert.ReferenceIdeal.RunP.kept_main_arg1 m c),
      (h c Cert.ReferenceIdeal.main_arg2).trans (Cert.ReferenceIdeal.RunP.kept_main_arg2 m c),
      (h c Cert.ReferenceIdeal.main_arg3).trans (Cert.ReferenceIdeal.RunP.kept_main_arg3 m c),
      (h c Cert.ReferenceIdeal.main_arg4).trans (Cert.ReferenceIdeal.RunP.kept_main_arg4 m c),
      (h c Cert.ReferenceIdeal.main_arg5).trans (Cert.ReferenceIdeal.RunP.kept_main_arg5 m c),
      (h c Cert.ReferenceIdeal.main_arg6).trans (Cert.ReferenceIdeal.RunP.kept_main_arg6 m c),
      (h c Cert.ReferenceIdeal.main_arg7).trans (Cert.ReferenceIdeal.RunP.kept_main_arg7 m c),
      (h c Cert.ReferenceIdeal.main_arg8).trans (Cert.ReferenceIdeal.RunP.kept_main_arg8 m c),
      (h c Cert.ReferenceIdeal.main_arg9).trans (Cert.ReferenceIdeal.RunP.kept_main_arg9 m c),
      (h c Cert.ReferenceIdeal.main_arg10).trans (Cert.ReferenceIdeal.RunP.kept_main_arg10 m c),
      (h c Cert.ReferenceIdeal.main_arg11).trans (Cert.ReferenceIdeal.RunP.kept_main_arg11 m c),
      (h c Cert.ReferenceIdeal.main_arg12).trans (Cert.ReferenceIdeal.RunP.kept_main_arg12 m c),
      (h c Cert.ReferenceIdeal.main_arg13).trans (Cert.ReferenceIdeal.RunP.kept_main_arg13 m c),
      (h c Cert.ReferenceIdeal.main_arg14).trans (Cert.ReferenceIdeal.RunP.kept_main_arg14 m c),
      (h c Cert.ReferenceIdeal.main_arg15).trans (Cert.ReferenceIdeal.RunP.kept_main_arg15 m c),
      (h c Cert.ReferenceIdeal.main_arg16).trans (Cert.ReferenceIdeal.RunP.kept_main_arg16 m c),
      (h c Cert.ReferenceIdeal.main_arg17).trans (Cert.ReferenceIdeal.RunP.kept_main_arg17 m c),
      (h c Cert.ReferenceIdeal.main_arg18).trans (Cert.ReferenceIdeal.RunP.kept_main_arg18 m c),
      (h c Cert.ReferenceIdeal.main_arg19).trans (Cert.ReferenceIdeal.RunP.kept_main_arg19 m c)⟩)
    (Cert.ReferenceIdeal.RunP.run_after (F := Ideal) m ρ)

/-- From memories agreeing on the arguments both programs end with the same network of the same contents. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono
      (fun _ h c => ⟨(h c).1.trans (Cert.KernelIdeal.Carry.W12_main_v98 m ρ c), (h c).2⟩)
      (Cert.KernelIdeal.Gen.run_named (F := Ideal) m ρ)
  refine (θ_run Cert.ReferenceIdeal.defs _ _).mono (fun _ h c => ⟨?_,
      (h c Cert.ReferenceIdeal.main_arg0).trans (Cert.ReferenceIdeal.RunP.kept_main_arg0 m' c),
      (h c Cert.ReferenceIdeal.main_arg1).trans (Cert.ReferenceIdeal.RunP.kept_main_arg1 m' c),
      (h c Cert.ReferenceIdeal.main_arg2).trans (Cert.ReferenceIdeal.RunP.kept_main_arg2 m' c),
      (h c Cert.ReferenceIdeal.main_arg3).trans (Cert.ReferenceIdeal.RunP.kept_main_arg3 m' c),
      (h c Cert.ReferenceIdeal.main_arg4).trans (Cert.ReferenceIdeal.RunP.kept_main_arg4 m' c),
      (h c Cert.ReferenceIdeal.main_arg5).trans (Cert.ReferenceIdeal.RunP.kept_main_arg5 m' c),
      (h c Cert.ReferenceIdeal.main_arg6).trans (Cert.ReferenceIdeal.RunP.kept_main_arg6 m' c),
      (h c Cert.ReferenceIdeal.main_arg7).trans (Cert.ReferenceIdeal.RunP.kept_main_arg7 m' c),
      (h c Cert.ReferenceIdeal.main_arg8).trans (Cert.ReferenceIdeal.RunP.kept_main_arg8 m' c),
      (h c Cert.ReferenceIdeal.main_arg9).trans (Cert.ReferenceIdeal.RunP.kept_main_arg9 m' c),
      (h c Cert.ReferenceIdeal.main_arg10).trans (Cert.ReferenceIdeal.RunP.kept_main_arg10 m' c),
      (h c Cert.ReferenceIdeal.main_arg11).trans (Cert.ReferenceIdeal.RunP.kept_main_arg11 m' c),
      (h c Cert.ReferenceIdeal.main_arg12).trans (Cert.ReferenceIdeal.RunP.kept_main_arg12 m' c),
      (h c Cert.ReferenceIdeal.main_arg13).trans (Cert.ReferenceIdeal.RunP.kept_main_arg13 m' c),
      (h c Cert.ReferenceIdeal.main_arg14).trans (Cert.ReferenceIdeal.RunP.kept_main_arg14 m' c),
      (h c Cert.ReferenceIdeal.main_arg15).trans (Cert.ReferenceIdeal.RunP.kept_main_arg15 m' c),
      (h c Cert.ReferenceIdeal.main_arg16).trans (Cert.ReferenceIdeal.RunP.kept_main_arg16 m' c),
      (h c Cert.ReferenceIdeal.main_arg17).trans (Cert.ReferenceIdeal.RunP.kept_main_arg17 m' c),
      (h c Cert.ReferenceIdeal.main_arg18).trans (Cert.ReferenceIdeal.RunP.kept_main_arg18 m' c),
      (h c Cert.ReferenceIdeal.main_arg19).trans (Cert.ReferenceIdeal.RunP.kept_main_arg19 m' c)⟩)
    (Cert.ReferenceIdeal.RunP.run_after (F := Ideal) m' ρ')
  obtain ⟨e0, e1, e2, e3, e4, e5, e6, e7, e8, e9, e10, e11, e12, e13, e14, e15, e16, e17, e18, e19⟩ := hagree c
  rw [h c Cert.ReferenceIdeal.main_v156, Cert.RefNet.ref_value m' c, e0, e1, e2, e3, e4, e5, e6, e7, e8, e9, e10, e11, e12, e13, e14, e15, e16, e17, e18, e19]
  exact (Cert.NetBridge.net_eq _ _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
